-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1024x3072 : Shape := ⟨2, ![1024, 3072]⟩
abbrev S8192x1024 : Shape := ⟨2, ![8192, 1024]⟩
abbrev S512x1024 : Shape := ⟨2, ![512, 1024]⟩
abbrev S512x3072 : Shape := ⟨2, ![512, 3072]⟩
abbrev S1x512x1024 : Shape := ⟨3, ![1, 512, 1024]⟩
abbrev S512x1 : Shape := ⟨2, ![512, 1]⟩
abbrev S512x512 : Shape := ⟨2, ![512, 512]⟩
abbrev S512 : Shape := ⟨1, ![512]⟩

abbrev nBuf : Space → Nat
  | .hbm => 14
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  iota_S512x512_d0_w32 : S512x512.Iotas .tc 32 [0]
  iota_S512x512_d1_w32 : S512x512.Iotas .tc 32 [1]
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/-
  Region 0, the projection kernel, at the buffer contents V the region is entered with.

  The body loads the x block (512 x 1024, f32) and the whole weight (1024 x 3072, bf16), and stores
  three whole rectangles: the truncated slices [0,1024), [1024,2048), [2048,3072) of the product into
  the three output windows. So each output window's buffer after the body is one whole-rectangle piece
  over the payload of the two loads, the inputs' buffers are left as found, and nothing else the
  pipeline owns is read or written.
-/
import proofs.«102304_j24240795419222_2_alg».proof.Proof.Gen.Kernel.Launch
import proofs.«102304_j24240795419222_2_alg».proof.Proof.Gen.Kernel.Skeleton
import proofs.«102304_j24240795419222_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block (the whole weight) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 rectangle. -/
abbrev rX : Rect S512x1024 := Rect.unit (s := S512x1024) ![0, 0] S512x1024.size inb_S512x1024_S512x1024_0_0
/-- The whole 1024 x 3072 rectangle. -/
abbrev rW : Rect S1024x3072 := Rect.unit (s := S1024x3072) ![0, 0] S1024x3072.size inb_S1024x3072_S1024x3072_0_0

/-! ## What the body leaves in each output window's buffer -/

/-- Window 2's buffer after the body: one whole-rectangle store of the first slice of the product. -/
def out0_2 (x0 : Vec F S512x1024 .f32) (x1 : Vec F S1024x3072 .bf16) : Vec F S512x1024 .bf16 :=
  View.canon [⟨rX, k0_pay2 (View.ld x0 rX) (View.ld x1 rW)⟩]
/-- Window 3's buffer after the body: the second slice. -/
def out0_3 (x0 : Vec F S512x1024 .f32) (x1 : Vec F S1024x3072 .bf16) : Vec F S512x1024 .bf16 :=
  View.canon [⟨rX, k0_pay3 (View.ld x0 rX) (View.ld x1 rW)⟩]
/-- Window 4's buffer after the body: the third slice. -/
def out0_4 (x0 : Vec F S512x1024 .f32) (x1 : Vec F S1024x3072 .bf16) : Vec F S512x1024 .bf16 :=
  View.canon [⟨rX, k0_pay4 (View.ld x0 rX) (View.ld x1 rW)⟩]

/-- The one store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The kernel body on whole staging memrefs, the inputs' at contents x0, x1 and the outputs' at anything, runs to
    the continuation holding the inputs' as they were and each output's at out0_W of the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c: the arrays as the region finds them; after the body at point t each
    input's buffer at its block and each output's at out0_W of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFlashDefs.lean ====
/-
  What one call of the attention kernel's body does to its three carried buffers and to its output
  buffer, as pure functions of the grid point and of what the body finds: the query, key and value
  blocks qb, kb, vb, the running maximum m0, the running denominator l0, the running numerator a0, and
  the output buffer's contents o0.

  The body is four conditionals in a row on the point (b, qi, kv):
    kv = 0   resets (m, l, a) to (-inf, 0, 0);
    kv < qi  one running-softmax update with the unmasked scores of the tile;
    kv = qi  one update with the scores masked below the diagonal;
    kv = 3   writes a / l into the output buffer.
  Each stage below is the state after that conditional; the arithmetic is the generated skeleton's
  payload terms.
-/
import proofs.«102304_j24240795419222_2_alg».proof.Proof.Gen.Kernel.Skeleton

noncomputable section

namespace Cert.Kernel.Hand

open Idealize.ShloMosaic Idealize.SL.Sem Cert.Kernel Cert.Kernel.Gen

variable {F : FTy → Type} [FloatOps F]

/-- The carried state: running maximum, running denominator, running numerator. -/
abbrev St (F : FTy → Type) [FloatOps F] : Type := Vec F S512x1 .f32 × Vec F S512x1 .f32 × Vec F S512x1024 .f32

/-- After the first conditional: reset at kv = 0. -/
def st1 (i : grid1.Coords) (s : St F) : St F :=
  if (i 2).val = 0 then (k1_pay1 (F := F), k1_pay2 (F := F), k1_pay3 (F := F)) else s

/-- One update with the tile's unmasked scores. -/
def updOff (qb kb vb : Vec F S1x512x1024 .bf16) (s : St F) : St F :=
  (k1_pay5 (k1_pay10 qb kb s.1), k1_pay13 qb kb s.1 s.1 s.2.1, k1_pay4 (k1_pay14 qb kb s.1 s.1 s.2.2 vb))

/-- One update with the tile's scores masked below the diagonal. -/
def updDiag (qb kb vb : Vec F S1x512x1024 .bf16) (s : St F) : St F :=
  (k1_pay7 (k1_pay16 qb kb s.1), k1_pay19 qb kb s.1 s.1 s.2.1,
    k1_pay6 (k1_pay20 qb kb s.1 s.1 s.2.2) (k1_pay21 qb kb s.1) vb)

/-- After the second conditional: an unmasked update at kv < qi. -/
def st2 (i : grid1.Coords) (qb kb vb : Vec F S1x512x1024 .bf16) (s : St F) : St F :=
  if (i 2).val < (i 1).val then updOff qb kb vb (st1 i s) else st1 i s

/-- After the third conditional: a masked update at kv = qi. This is the state the body leaves. -/
def st3 (i : grid1.Coords) (qb kb vb : Vec F S1x512x1024 .bf16) (s : St F) : St F :=
  if (i 2).val = (i 1).val then updDiag qb kb vb (st2 i qb kb vb s) else st2 i qb kb vb s

/-- The output buffer after the body: the quotient numerator / denominator at kv = 3, untouched
    otherwise. -/
def outAfter (i : grid1.Coords) (qb kb vb : Vec F S1x512x1024 .bf16) (s : St F) (o0 : Vec F S1x512x1024 .f32) :
    Vec F S1x512x1024 .f32 :=
  if (i 2).val = 3 then k1_pay8 (st3 i qb kb vb s).2.2 (st3 i qb kb vb s).2.1 else o0

end Cert.Kernel.Hand

end
-- ==== Proof.KFlashBody.lean ====
/-
  The attention kernel's body as a separation-logic triple: on whole buffers holding the query, key
  and value blocks, the output buffer and the three carried buffers (running maximum, denominator,
  numerator), one call at grid point (b, qi, kv) leaves the inputs as they were, the carried buffers
  at the state the four conditionals compute, and the output buffer at the quotient when kv = 3.
-/
import proofs.«102304_j24240795419222_2_alg».proof.Proof.Gen.Kernel.Launch
import proofs.«102304_j24240795419222_2_alg».proof.Proof.Gen.Kernel.Skeleton
import proofs.«102304_j24240795419222_2_alg».proof.Proof.Gen.Kernel.Points
import proofs.«102304_j24240795419222_2_alg».proof.Proof.KFlashDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## The four conditions, from the grid coordinates -/

/-- The condition of the first conditional (kv = 0), as the body computes it. -/
abbrev cond1 (i : grid1.Coords) : Prop :=
  (Scalar.cmpi .ne (Scalar.extui (Scalar.cmpi .eq (BitVec.ofNat 32 (i 2).val) 0#32)) 0#32) = 1#1
/-- The condition of the second conditional (kv < qi). -/
abbrev cond2 (i : grid1.Coords) : Prop :=
  (Scalar.cmpi .ne (Scalar.extui (Scalar.cmpi .slt (BitVec.ofNat 32 (i 2).val) (BitVec.ofNat 32 (i 1).val))) 0#32) = 1#1
/-- The condition of the third conditional (kv = qi). -/
abbrev cond3 (i : grid1.Coords) : Prop :=
  (Scalar.cmpi .ne (Scalar.extui (Scalar.cmpi .eq (BitVec.ofNat 32 (i 2).val) (BitVec.ofNat 32 (i 1).val))) 0#32) = 1#1
/-- The condition of the fourth conditional (kv = 3). -/
abbrev cond4 (i : grid1.Coords) : Prop := k1_cond4 i = 1#1

theorem cmp_eq_zero_iff : ∀ a : ℕ, a < 4 →
    ((Scalar.cmpi .ne (Scalar.extui (Scalar.cmpi .eq (BitVec.ofNat 32 a) 0#32)) 0#32) = 1#1 ↔ a = 0) := by
  decide
theorem cmp_eq_three_iff : ∀ a : ℕ, a < 4 →
    ((Scalar.cmpi .ne (Scalar.extui (Scalar.cmpi .eq (BitVec.ofNat 32 a) 3#32)) 0#32) = 1#1 ↔ a = 3) := by
  decide
theorem cmp_slt_iff : ∀ a : ℕ, a < 4 → ∀ b : ℕ, b < 4 →
    ((Scalar.cmpi .ne (Scalar.extui (Scalar.cmpi .slt (BitVec.ofNat 32 a) (BitVec.ofNat 32 b))) 0#32) = 1#1 ↔ a < b) := by
  decide
theorem cmp_eq_iff : ∀ a : ℕ, a < 4 → ∀ b : ℕ, b < 4 →
    ((Scalar.cmpi .ne (Scalar.extui (Scalar.cmpi .eq (BitVec.ofNat 32 a) (BitVec.ofNat 32 b))) 0#32) = 1#1 ↔ a = b) := by
  decide

theorem cond1_iff (i : grid1.Coords) (hi2 : (i 2).val < 4) : cond1 i ↔ (i 2).val = 0 :=
  cmp_eq_zero_iff _ hi2
theorem cond2_iff (i : grid1.Coords) (hi1 : (i 1).val < 4) (hi2 : (i 2).val < 4) : cond2 i ↔ (i 2).val < (i 1).val :=
  cmp_slt_iff _ hi2 _ hi1
theorem cond3_iff (i : grid1.Coords) (hi1 : (i 1).val < 4) (hi2 : (i 2).val < 4) : cond3 i ↔ (i 2).val = (i 1).val :=
  cmp_eq_iff _ hi2 _ hi1
theorem cond4_iff (i : grid1.Coords) (hi2 : (i 2).val < 4) : cond4 i ↔ (i 2).val = 3 :=
  cmp_eq_three_iff _ hi2

/-! ## Whole-buffer loads and stores -/

theorem zeros2 : (![0, 0] : Fin 2 → ℕ) = fun _ => 0 := by
  funext a; fin_cases a <;> rfl
theorem zeros3 : (![0, 0, 0] : Fin 3 → ℕ) = fun _ => 0 := by
  funext a; fin_cases a <;> rfl

section Whole
variable {Val : EltTy → Type} {S : Shape} {e : EltTy} {sg : RefSig} {κ : Kind} {sp : Space}

/-- A load through the whole-shape rectangle at zero offsets reads what the view reads. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h inb]

/-- After a store through the whole-shape rectangle, last, the view reads the stored payload. -/
theorem read_store_whole [∀ e, Nonempty (Val e)] (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through the whole-shape rectangle of what a store through it, last, left reads the payload. -/
theorem readCov_whole [∀ e, Nonempty (Val e)] (v : View sg κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Whole

/-! ## The body in each combination of conditionals the grid meets

Each run: the printed function is its skeleton, whose memory operations are run one after the other, the four
conditions decided by the case's hypotheses. Every load and store is of a whole buffer, so a load reads what the
buffer held, or the payload of the last store into it, and what a stored buffer ends with is the last payload. -/

set_option maxHeartbeats 4000000 in
/-- No conditional taken (kv after the diagonal, before the last tile): the body touches nothing. -/
theorem run_FFFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel

  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Only the last conditional taken (kv = 3 after the diagonal): the quotient goes to the output buffer. -/
theorem run_FFFT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : ¬cond3 i) (hc4 : cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (k1_pay8 s.2.2 s.2.1)
            ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel

  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    rw [read_store_whole (S := S1x512x1024) _ _ zeros3]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Only the second conditional taken (0 < kv < qi): one unmasked update. -/
theorem run_FTFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updOff qb kb vb s).1 ∗ owns (c : Thread nD τ) arg8 fullShare (updOff qb kb vb s).2.1 ∗ owns (c : Thread nD τ) arg9 fullShare (updOff qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- Only the third conditional taken (0 < kv = qi < 3): one masked update. -/
theorem run_FFTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updDiag qb kb vb s).1 ∗ owns (c : Thread nD τ) arg8 fullShare (updDiag qb kb vb s).2.1 ∗ owns (c : Thread nD τ) arg9 fullShare (updDiag qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The third and the last conditionals taken (kv = qi = 3): one masked update, then the quotient goes to the output buffer. -/
theorem run_FFTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : cond3 i) (hc4 : cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (k1_pay8 (updDiag qb kb vb s).2.2 (updDiag qb kb vb s).2.1)
            ∗ owns (c : Thread nD τ) arg7 fullShare (updDiag qb kb vb s).1 ∗ owns (c : Thread nD τ) arg8 fullShare (updDiag qb kb vb s).2.1 ∗ owns (c : Thread nD τ) arg9 fullShare (updDiag qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    rw [read_store_whole (S := S1x512x1024) _ _ zeros3]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The first and the second conditionals taken (kv = 0 < qi): the reset, then one unmasked update. -/
theorem run_TTFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : cond1 i) (hc2 : cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updOff qb kb vb ((k1_pay1 (F := F), k1_pay2 (F := F), k1_pay3 (F := F)) : St F)).1 ∗ owns (c : Thread nD τ) arg8 fullShare (updOff qb kb vb ((k1_pay1 (F := F), k1_pay2 (F := F), k1_pay3 (F := F)) : St F)).2.1 ∗ owns (c : Thread nD τ) arg9 fullShare (updOff qb kb vb ((k1_pay1 (F := F), k1_pay2 (F := F), k1_pay3 (F := F)) : St F)).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The first and the third conditionals taken (kv = qi = 0): the reset, then one masked update. -/
theorem run_TFTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : cond1 i) (hc2 : ¬cond2 i) (hc3 : cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updDiag qb kb vb ((k1_pay1 (F := F), k1_pay2 (F := F), k1_pay3 (F := F)) : St F)).1 ∗ owns (c : Thread nD τ) arg8 fullShare (updDiag qb kb vb ((k1_pay1 (F := F), k1_pay2 (F := F), k1_pay3 (F := F)) : St F)).2.1 ∗ owns (c : Thread nD τ) arg9 fullShare (updDiag qb kb vb ((k1_pay1 (F := F), k1_pay2 (F := F), k1_pay3 (F := F)) : St F)).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

/-! ## The body at any grid point -/

set_option maxHeartbeats 4000000 in
/-- The kernel body on whole buffers: the inputs are handed back as they were, the carried buffers at the state
    after the three updating conditionals, the output buffer at the quotient when kv = 3 and untouched otherwise.
    By cases on which conditionals the point takes. -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hi1 : (i 1).val < 4) (hi2 : (i 2).val < 4)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (outAfter i qb kb vb s o0)
            ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  by_cases h1 : (i 2).val = 0
  · have h4 : ¬(i 2).val = 3 := by omega
    by_cases h3 : (i 2).val = (i 1).val
    · have h2 : ¬(i 2).val < (i 1).val := by omega
      rw [show outAfter i qb kb vb s o0 = o0 by simp only [outAfter, st3, st2, st1, if_pos h1, if_neg h2, if_pos h3, if_neg h4],
        show st3 i qb kb vb s = updDiag qb kb vb ((k1_pay1 (F := F), k1_pay2 (F := F), k1_pay3 (F := F)) : St F) by simp only [st3, st2, st1, if_pos h1, if_neg h2, if_pos h3, if_neg h4]]
      exact run_TFTF c E i arg3 harg3 arg4 harg4 arg5 harg5 arg6 harg6 arg7 harg7 arg8 harg8 arg9 harg9 ((cond1_iff i hi2).2 h1) (mt (cond2_iff i hi1 hi2).1 h2) ((cond3_iff i hi1 hi2).2 h3) (mt (cond4_iff i hi2).1 h4) qb kb vb o0 s K
    · have h2 : (i 2).val < (i 1).val := by omega
      rw [show outAfter i qb kb vb s o0 = o0 by simp only [outAfter, st3, st2, st1, if_pos h1, if_pos h2, if_neg h3, if_neg h4],
        show st3 i qb kb vb s = updOff qb kb vb ((k1_pay1 (F := F), k1_pay2 (F := F), k1_pay3 (F := F)) : St F) by simp only [st3, st2, st1, if_pos h1, if_pos h2, if_neg h3, if_neg h4]]
      exact run_TTFF c E i arg3 harg3 arg4 harg4 arg5 harg5 arg6 harg6 arg7 harg7 arg8 harg8 arg9 harg9 ((cond1_iff i hi2).2 h1) ((cond2_iff i hi1 hi2).2 h2) (mt (cond3_iff i hi1 hi2).1 h3) (mt (cond4_iff i hi2).1 h4) qb kb vb o0 s K
  · by_cases h2 : (i 2).val < (i 1).val
    · have h3 : ¬(i 2).val = (i 1).val := by omega
      have h4 : ¬(i 2).val = 3 := by omega
      rw [show outAfter i qb kb vb s o0 = o0 by simp only [outAfter, st3, st2, st1, if_neg h1, if_pos h2, if_neg h3, if_neg h4],
        show st3 i qb kb vb s = updOff qb kb vb s by simp only [st3, st2, st1, if_neg h1, if_pos h2, if_neg h3, if_neg h4]]
      exact run_FTFF c E i arg3 harg3 arg4 harg4 arg5 harg5 arg6 harg6 arg7 harg7 arg8 harg8 arg9 harg9 (mt (cond1_iff i hi2).1 h1) ((cond2_iff i hi1 hi2).2 h2) (mt (cond3_iff i hi1 hi2).1 h3) (mt (cond4_iff i hi2).1 h4) qb kb vb o0 s K
    · by_cases h3 : (i 2).val = (i 1).val
      · by_cases h4 : (i 2).val = 3
        · rw [show outAfter i qb kb vb s o0 = k1_pay8 (updDiag qb kb vb s).2.2 (updDiag qb kb vb s).2.1 by simp only [outAfter, st3, st2, st1, if_neg h1, if_neg h2, if_pos h3, if_pos h4],
            show st3 i qb kb vb s = updDiag qb kb vb s by simp only [st3, st2, st1, if_neg h1, if_neg h2, if_pos h3, if_pos h4]]
          exact run_FFTT c E i arg3 harg3 arg4 harg4 arg5 harg5 arg6 harg6 arg7 harg7 arg8 harg8 arg9 harg9 (mt (cond1_iff i hi2).1 h1) (mt (cond2_iff i hi1 hi2).1 h2) ((cond3_iff i hi1 hi2).2 h3) ((cond4_iff i hi2).2 h4) qb kb vb o0 s K
        · rw [show outAfter i qb kb vb s o0 = o0 by simp only [outAfter, st3, st2, st1, if_neg h1, if_neg h2, if_pos h3, if_neg h4],
            show st3 i qb kb vb s = updDiag qb kb vb s by simp only [st3, st2, st1, if_neg h1, if_neg h2, if_pos h3, if_neg h4]]
          exact run_FFTF c E i arg3 harg3 arg4 harg4 arg5 harg5 arg6 harg6 arg7 harg7 arg8 harg8 arg9 harg9 (mt (cond1_iff i hi2).1 h1) (mt (cond2_iff i hi1 hi2).1 h2) ((cond3_iff i hi1 hi2).2 h3) (mt (cond4_iff i hi2).1 h4) qb kb vb o0 s K
      · by_cases h4 : (i 2).val = 3
        · rw [show outAfter i qb kb vb s o0 = k1_pay8 s.2.2 s.2.1 by simp only [outAfter, st3, st2, st1, if_neg h1, if_neg h2, if_neg h3, if_pos h4],
            show st3 i qb kb vb s = s by simp only [st3, st2, st1, if_neg h1, if_neg h2, if_neg h3, if_pos h4]]
          exact run_FFFT c E i arg3 harg3 arg4 harg4 arg5 harg5 arg6 harg6 arg7 harg7 arg8 harg8 arg9 harg9 (mt (cond1_iff i hi2).1 h1) (mt (cond2_iff i hi1 hi2).1 h2) (mt (cond3_iff i hi1 hi2).1 h3) ((cond4_iff i hi2).2 h4) qb kb vb o0 s K
        · rw [show outAfter i qb kb vb s o0 = o0 by simp only [outAfter, st3, st2, st1, if_neg h1, if_neg h2, if_neg h3, if_neg h4],
            show st3 i qb kb vb s = s by simp only [st3, st2, st1, if_neg h1, if_neg h2, if_neg h3, if_neg h4]]
          exact run_FFFF c E i arg3 harg3 arg4 harg4 arg5 harg5 arg6 harg6 arg7 harg7 arg8 harg8 arg9 harg9 (mt (cond1_iff i hi2).1 h1) (mt (cond2_iff i hi1 hi2).1 h2) (mt (cond3_iff i hi1 hi2).1 h3) (mt (cond4_iff i hi2).1 h4) qb kb vb o0 s K

end Cert.Kernel.Hand

end
-- ==== Proof.KRegion1.lean ====
/-
  Region 1, the attention kernel, at the buffer contents V the region is entered with.

  The body carries three buffers of its own (running maximum, denominator, numerator) from one grid
  point to the next. The state after the body at position n is defined by recursion on n from the
  body's state function; the region invariant names the three buffers' contents after each point; the
  output window is written only at the last key tile of a query tile, and handed back untouched elsewhere.
-/
import proofs.«102304_j24240795419222_2_alg».proof.Proof.Gen.Kernel.Launch
import proofs.«102304_j24240795419222_2_alg».proof.Proof.Gen.Kernel.Skeleton
import proofs.«102304_j24240795419222_2_alg».proof.Proof.Gen.Kernel.Points
import proofs.«102304_j24240795419222_2_alg».proof.Proof.KFlashDefs
import proofs.«102304_j24240795419222_2_alg».proof.Proof.KFlashBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's state functions at special points -/

/-- Off the last key tile the output buffer is left as found. -/
theorem outAfter_idle (i : grid1.Coords) (qb kb vb : Vec F S1x512x1024 .bf16) (s : St F) (o0 : Vec F S1x512x1024 .f32)
    (h : (i 2).val ≠ 3) : outAfter i qb kb vb s o0 = o0 := by
  unfold outAfter; exact if_neg h

/-- On the last key tile the output buffer does not depend on what it held. -/
theorem outAfter_live (i : grid1.Coords) (qb kb vb : Vec F S1x512x1024 .bf16) (s : St F) (o0 o0' : Vec F S1x512x1024 .f32)
    (h : (i 2).val = 3) : outAfter i qb kb vb s o0 = outAfter i qb kb vb s o0' := by
  unfold outAfter; rw [if_pos h, if_pos h]

/-- On the first key tile the reset discards the state found. -/
theorem st1_of_kv0 (i : grid1.Coords) (s s' : St F) (h : (i 2).val = 0) : st1 i s = st1 i s' := by
  unfold st1; rw [if_pos h, if_pos h]

/-- So the state the body leaves there does not depend on the state found. -/
theorem st3_of_kv0 (i : grid1.Coords) (qb kb vb : Vec F S1x512x1024 .bf16) (s s' : St F) (h : (i 2).val = 0) :
    st3 i qb kb vb s = st3 i qb kb vb s' := by
  unfold st3 st2; rw [st1_of_kv0 i s s' h]

/-! ## The grid: key tile fastest -/

/-- The key-tile coordinate of point t is t mod 4. -/
theorem kv_eq : ∀ t : Fin cfg1.N, ((grid1.coords t) 2).val = t.val % 4 :=
  (by decide +kernel : ∀ t : Fin grid1.N, ((grid1.coords t) 2).val = t.val % 4)
theorem qi_lt : ∀ t : Fin cfg1.N, ((grid1.coords t) 1).val < 4 :=
  (by decide +kernel : ∀ t : Fin grid1.N, ((grid1.coords t) 1).val < 4)
theorem kv_lt : ∀ t : Fin cfg1.N, ((grid1.coords t) 2).val < 4 :=
  (by decide +kernel : ∀ t : Fin grid1.N, ((grid1.coords t) 2).val < 4)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle off the last key tile, -/
theorem idleAt1_3 : ∀ t : Fin cfg1.N, t.val % 4 ≠ 3 → cfg1.idle 3 (grid1.coords t) = true :=
  (by decide +kernel : ∀ t : Fin grid1.N, t.val % 4 ≠ 3 → cfg1.idle 3 (grid1.coords t) = true)
/-- live on it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and not written back off it. -/
theorem noFlush1_3 (t : Fin cfg1.N) (h : t.val % 4 ≠ 3) : (cfg1.win 3).flush t = false :=
  Bool.eq_false_iff.mpr fun hf => h ((flush1_3 t).mp hf)

/-! ## The body's triple, specialised to the three kinds of point -/

/-- Off the last key tile: the output buffer comes back as found. -/
theorem sound_kernel1_idle (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (s : St F) (hkv : (i 2).val ≠ 3) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare s.1 ∗ owns (c : Thread nD τ) arg8 fullShare s.2.1 ∗ owns (c : Thread nD τ) arg9 fullShare s.2.2 ∗ (iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1 c E i arg3 harg3 arg4 harg4 arg5 harg5 arg6 harg6 arg7 harg7 arg8 harg8 arg9 harg9 hi1 hi2 qb kb vb o0 s K
  rw [outAfter_idle i qb kb vb s o0 hkv] at h
  exact h

/-- On the first key tile: moreover the carried buffers may hold anything, and the state left is that from any state s'. -/
theorem sound_kernel1_first (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (e0 e1 : Vec F S512x1 .f32) (e2 : Vec F S512x1024 .f32) (s' : St F) (hkv : (i 2).val = 0) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare e0 ∗ owns (c : Thread nD τ) arg8 fullShare e1 ∗ owns (c : Thread nD τ) arg9 fullShare e2 ∗ (iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare (st3 i qb kb vb s').1 ∗ owns (c : Thread nD τ) arg8 fullShare (st3 i qb kb vb s').2.1 ∗ owns (c : Thread nD τ) arg9 fullShare (st3 i qb kb vb s').2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1_idle c E i arg3 harg3 arg4 harg4 arg5 harg5 arg6 harg6 arg7 harg7 arg8 harg8 arg9 harg9 hi1 hi2 qb kb vb o0 (e0, e1, e2) (by omega) K
  rw [st3_of_kv0 i qb kb vb (e0, e1, e2) s' hkv] at h
  exact h

/-- On the last key tile: the output buffer is left at the quotient, whatever it held. -/
theorem sound_kernel1_live (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (s : St F) (o0' : Vec F S1x512x1024 .f32) (hkv : (i 2).val = 3) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare s.1 ∗ owns (c : Thread nD τ) arg8 fullShare s.2.1 ∗ owns (c : Thread nD τ) arg9 fullShare s.2.2 ∗ (iprop(owns (c : Thread nD τ) arg3 fullShare qb ∗ owns (c : Thread nD τ) arg4 fullShare kb ∗ owns (c : Thread nD τ) arg5 fullShare vb ∗ owns (c : Thread nD τ) arg6 fullShare (outAfter i qb kb vb s o0') ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1 c E i arg3 harg3 arg4 harg4 arg5 harg5 arg6 harg6 arg7 harg7 arg8 harg8 arg9 harg9 hi1 hi2 qb kb vb o0 s K
  rw [outAfter_live i qb kb vb s o0 o0' hkv] at h
  exact h

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried state, point by point -/

/-- A fixed state and a fixed output buffer, standing where the contents are discarded. -/
def junkSt : St F := (k1_pay1 (F := F), k1_pay2 (F := F), k1_pay3 (F := F))
def junkO : Vec F S1x512x1024 .f32 := k1_pay8 (k1_pay3 (F := F)) (k1_pay2 (F := F))

/-- The carried state after the body at position n: the body's state function at the point's blocks, from the
    state after position n - 1 (at position 0 from a fixed state: the first point resets). -/
def stAt1 (c : Dev nD) : (n : ℕ) → n < cfg1.N → St F
  | 0, hn => st3 (grid1.coords ⟨0, hn⟩) (iblk1 V c 0 ⟨0, hn⟩) (iblk1 V c 1 ⟨0, hn⟩) (iblk1 V c 2 ⟨0, hn⟩) junkSt
  | n + 1, hn => st3 (grid1.coords ⟨n + 1, hn⟩) (iblk1 V c 0 ⟨n + 1, hn⟩) (iblk1 V c 1 ⟨n + 1, hn⟩) (iblk1 V c 2 ⟨n + 1, hn⟩)
      (stAt1 c n (Nat.lt_of_succ_lt hn))

/-- The recursion, spelt out. -/
theorem stAt1_zero (c : Dev nD) (hn : 0 < cfg1.N) :
    stAt1 V c 0 hn = st3 (grid1.coords ⟨0, hn⟩) (iblk1 V c 0 ⟨0, hn⟩) (iblk1 V c 1 ⟨0, hn⟩) (iblk1 V c 2 ⟨0, hn⟩) junkSt := rfl
theorem stAt1_succ (c : Dev nD) (n : ℕ) (hn : n + 1 < cfg1.N) :
    stAt1 V c (n + 1) hn = st3 (grid1.coords ⟨n + 1, hn⟩) (iblk1 V c 0 ⟨n + 1, hn⟩) (iblk1 V c 1 ⟨n + 1, hn⟩) (iblk1 V c 2 ⟨n + 1, hn⟩)
      (stAt1 V c n (Nat.lt_of_succ_lt hn)) := rfl

/-- The carried state the body finds at position n. -/
def prevSt (c : Dev nD) (n : ℕ) (hn : n < cfg1.N) : St F :=
  if h : n = 0 then junkSt else stAt1 V c (n - 1) (Nat.lt_of_le_of_lt (Nat.sub_le _ _) hn)

theorem prevSt_zero (c : Dev nD) (n : ℕ) (hn : n < cfg1.N) (hz : n = 0) : prevSt V c n hn = junkSt := by
  unfold prevSt; rw [dif_pos hz]
theorem prevSt_pos (c : Dev nD) (n : ℕ) (hn : n < cfg1.N) (hz : n ≠ 0) :
    prevSt V c n hn = stAt1 V c (n - 1) (Nat.lt_of_le_of_lt (Nat.sub_le _ _) hn) := by
  unfold prevSt; rw [dif_neg hz]

/-- The state after point t is the body's state function of the state found there. -/
theorem stAt1_eq (c : Dev nD) (t : Fin cfg1.N) :
    stAt1 V c t.val t.isLt = st3 (grid1.coords t) (iblk1 V c 0 t) (iblk1 V c 1 t) (iblk1 V c 2 t) (prevSt V c t.val t.isLt) := by
  obtain ⟨n, hn⟩ := t
  cases n with
  | zero => rw [prevSt_zero V c 0 hn rfl]; rfl
  | succ n => rw [prevSt_pos V c (n + 1) hn (Nat.succ_ne_zero n)]; rfl

/-- The output buffer after the body at point t (consulted on the last key tile only, where it does not depend
    on what the buffer held). -/
def outAt1 (c : Dev nD) (t : Fin cfg1.N) : Vec F S1x512x1024 .f32 :=
  outAfter (grid1.coords t) (iblk1 V c 0 t) (iblk1 V c 1 t) (iblk1 V c 2 t) (prevSt V c t.val t.isLt) junkO

/-! ## The region invariant -/

/-- The kernel's own three buffers. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The core's scoped buffers that are no staging buffer of this call: the other call's staging buffers at
    anything, and the three carried buffers as P0, P1, P2 say. -/
def scopedWith (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P0 ∗ P1 ∗ P2)

/-- The class's invariant with the carried buffers as memrefs owned at some contents. -/
theorem PhiA1_eq (c : Dev nD) :
    (Pipeline.ΦA spec1 c : sProp 𝕄)
      = iprop(scopedWith c (iprop(∃ d, owns (c : Thread nD τ) scM1_0 fullShare d)) (iprop(∃ d, owns (c : Thread nD τ) scM1_1 fullShare d))
          (iprop(∃ d, owns (c : Thread nD τ) scM1_2 fullShare d)) ∗ (∃ r, prngReg c r)) := by
  unfold Pipeline.ΦA scopedWith; rw [scopedRest1_eq]; simp only [scM1_0, scM1_1, scM1_2, owns_whole]; try rfl

/-- The invariant with the carried buffers at state s. -/
def PhiAt (c : Dev nD) (s : St F) : sProp 𝕄 :=
  iprop(scopedWith c (owns (c : Thread nD τ) scM1_0 fullShare s.1) (owns (c : Thread nD τ) scM1_1 fullShare s.2.1)
      (owns (c : Thread nD τ) scM1_2 fullShare s.2.2) ∗ (∃ r, prngReg c r))

/-- The region invariant before position n: before the first point the class's; afterwards the carried buffers at
    the state the point before left. -/
def PhiS1 (c : Dev nD) : (n : ℕ) → n ≤ cfg1.N → sProp 𝕄
  | 0, _ => Pipeline.ΦA spec1 c
  | n + 1, hn => PhiAt c (stAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = PhiAt c (stAt1 V c n hn) := rfl
theorem PhiS1_pos (c : Dev nD) (n : ℕ) (h : n ≤ cfg1.N) (hz : n ≠ 0) :
    PhiS1 V c n h = PhiAt c (stAt1 V c (n - 1) (by omega)) := by
  cases n with
  | zero => exact absurd rfl hz
  | succ n => rfl

/-! ## The pipeline's proof data -/

/-- The proof data of pipeline 1 on core c: the arrays as the region finds them; after the body each input's buffer at
    its block and the output's at outAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The output buffer after the body, as the body's output function of the state found. -/
theorem after1_3_eq (c : Dev nD) (t : Fin cfg1.N) :
    (dat1 V c).after 3 t = outAfter (grid1.coords t) (iblk1 V c 0 t) (iblk1 V c 1 t) (iblk1 V c 2 t) (prevSt V c t.val t.isLt) junkO := by
  rw [after1_3]; rfl

/-- On the last key tile of a query tile the output buffer is left at numerator / denominator of the state left. -/
theorem after1_3_last (c : Dev nD) (t : Fin cfg1.N) (h : ((grid1.coords t) 2).val = 3) :
    (dat1 V c).after 3 t = k1_pay8 (stAt1 V c t.val t.isLt).2.2 (stAt1 V c t.val t.isLt).2.1 := by
  rw [after1_3, stAt1_eq]; unfold outAt1 outAfter; rw [if_pos h]
theorem after1_3_last' (c : Dev nD) (t : Fin cfg1.N) (h : t.val % 4 = 3) :
    (dat1 V c).after 3 t = k1_pay8 (stAt1 V c t.val t.isLt).2.2 (stAt1 V c t.val t.isLt).2.1 :=
  after1_3_last V c t ((kv_eq t).trans h)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the invariant hands the body the carried buffers at
    the state the point before left (at anything at the first point, which resets them) and takes them back at this
    point's state; the output's buffer comes back untouched off the last key tile and at the quotient on it; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, stAt1_eq V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h3 : t.val % 4 = 3
  · have hz : t.val ≠ 0 := by omega
    have hkv : ((grid1.coords t) 2).val = 3 := (kv_eq t).trans h3
    rw [show (dat1 V c).leavesExact 3 t = owns (c : Thread nD τ) (st1_3 t) fullShare ((dat1 V c).after 3 t) from by
      unfold Dat.leavesExact; rw [liveAt1_3 t h3], after1_3]
    unfold outAt1
    rw [PhiS1_castSucc V c t, PhiS1_pos V c _ _ hz, prevSt_pos V c _ _ hz]
    unfold PhiAt scopedWith
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply (sound_kernel1_live c Set.univ (grid1.coords t) _ _ _ _ _ _ _ _ _ _ _ _ _ _ (qi_lt t) (kv_lt t) (iblk1 V c 0 t) (iblk1 V c 1 t) (iblk1 V c 2 t) ((dat1 V c).before 3 t d3) (stAt1 V c (t.val - 1) _) junkO hkv _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [R1 R2 R3 R4 R5 R6 R7 R8 R9 HS0 HS1 HS2 Hg]
    · isplitl [R1 R2 R3 R4 R5 R6 R7 R8 R9 HS0 HS1 HS2]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · have hkv : ((grid1.coords t) 2).val ≠ 3 := fun h => h3 ((kv_eq t).symm.trans h)
    rw [Dat.leavesExact_idle (dat1 V c) 3 t (idleAt1_3 t h3) (noFlush1_3 t h3)]
    by_cases hz : t.val = 0
    · have hkv0 : ((grid1.coords t) 2).val = 0 := (kv_eq t).trans (by rw [hz])
      rw [PhiS1_castSucc V c t, PhiS1_zero V c _ _ hz, PhiA1_eq, prevSt_zero V c _ _ hz]
      unfold PhiAt scopedWith
      iintro ⟨⟨⟨R1, R2, R3, R4, R5, R6, R7, R8, R9, ⟨%e0, HS0⟩, ⟨%e1, HS1⟩, ⟨%e2, HS2⟩⟩, Hg⟩, Ho, ⟨%d0, H0⟩, ⟨%d1, H1⟩, ⟨%d2, H2⟩, ⟨%d3, H3⟩⟩
      iapply (sound_kernel1_first c Set.univ (grid1.coords t) _ _ _ _ _ _ _ _ _ _ _ _ _ _ (qi_lt t) (kv_lt t) (iblk1 V c 0 t) (iblk1 V c 1 t) (iblk1 V c 2 t) ((dat1 V c).before 3 t d3) e0 e1 e2 junkSt hkv0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [R1 R2 R3 R4 R5 R6 R7 R8 R9 HS0 HS1 HS2 Hg]
      · isplitl [R1 R2 R3 R4 R5 R6 R7 R8 R9 HS0 HS1 HS2]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz, prevSt_pos V c _ _ hz]
      unfold PhiAt scopedWith
      iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
      iapply (sound_kernel1_idle c Set.univ (grid1.coords t) _ _ _ _ _ _ _ _ _ _ _ _ _ _ (qi_lt t) (kv_lt t) (iblk1 V c 0 t) (iblk1 V c 1 t) (iblk1 V c 2 t) ((dat1 V c).before 3 t d3) (stAt1 V c (t.val - 1) _) hkv _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [R1 R2 R3 R4 R5 R6 R7 R8 R9 HS0 HS1 HS2 Hg]
      · isplitl [R1 R2 R3 R4 R5 R6 R7 R8 R9 HS0 HS1 HS2]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt scopedWith
  iintro ⟨⟨R1, R2, R3, R4, R5, R6, R7, R8, R9, HS0, HS1, HS2⟩, Hg⟩
  isplitl [R1 R2 R3 R4 R5 R6 R7 R8 R9 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KRun.lean ====
/-
  The run of the whole program: two stretches of host operations and two kernel launches, in order.
  The contents of every unscoped buffer at each of the five boundaries are a fold from the launch
  memory: a stretch applies its operations; a launch leaves each of its windows' arrays at what the
  write-backs of its blocks leave and every other buffer alone. Every weakly fair execution ends, and
  every final memory holds each unscoped buffer at the last of these contents — in particular the
  result array at what the second launch's write-backs leave, and each argument as launched.
-/
import proofs.«102304_j24240795419222_2_alg».proof.Proof.KRegion0
import proofs.«102304_j24240795419222_2_alg».proof.Proof.KRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch (weights concatenated and narrowed, the input re-laid as 8192 rows). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: q, k, v at what its blocks' write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (q, k, v re-laid as 4 batches of 2048 rows). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention launch: the result array at what its blocks' write-backs leave. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- Argument 0 reaches the end as launched: no host operation writes it and it is no window's array. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it and it is no window's array. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it and it is no window's array. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it and it is no window's array. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- The result array ends at what the attention launch's write-backs leave in its output window's array. -/
theorem W4_result (c : Dev nD) : W4 m c (Proc.devRef .tc main_v7) = (dat1 (V3 m) c).arrAt 3 cfg1.N :=
  W4_arr m c 3

/-! ## The proof data family and the thread state -/

abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

-- unification with the pinned configuration may unfold plain definitions in a metavariable's type
set_option backward.isDefEq.respectTransparency.types false in
/-- Region 0 over the thread state: entered with every unscoped buffer at the contents before it, left with them
    at the contents after it; its arrays are split out of the unscoped buffers and put back at what the
    write-backs leave; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered with every unscoped buffer at the contents before it, left with them
    at the contents after it; its arrays are split out of the unscoped buffers and put back at what the
    write-backs leave; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates without a
    fault, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every execution terminates and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.Region0.lean ====
/-
  Region 0, the projection kernel, at the buffer contents V the region is entered with.

  The body loads the x block (512 x 1024, f32) and the whole weight (1024 x 3072, bf16), and stores
  three whole rectangles: the truncated slices [0,1024), [1024,2048), [2048,3072) of the product into
  the three output windows. So each output window's buffer after the body is one whole-rectangle piece
  over the payload of the two loads, the inputs' buffers are left as found, and nothing else the
  pipeline owns is read or written.
-/
import proofs.«102304_j24240795419222_2_alg».proof.Proof.Gen.KernelIdeal.Launch
import proofs.«102304_j24240795419222_2_alg».proof.Proof.Gen.KernelIdeal.Skeleton
import proofs.«102304_j24240795419222_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block (the whole weight) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 rectangle. -/
abbrev rX : Rect S512x1024 := Rect.unit (s := S512x1024) ![0, 0] S512x1024.size inb_S512x1024_S512x1024_0_0
/-- The whole 1024 x 3072 rectangle. -/
abbrev rW : Rect S1024x3072 := Rect.unit (s := S1024x3072) ![0, 0] S1024x3072.size inb_S1024x3072_S1024x3072_0_0

/-! ## What the body leaves in each output window's buffer -/

/-- Window 2's buffer after the body: one whole-rectangle store of the first slice of the product. -/
def out0_2 (x0 : Vec F S512x1024 .f32) (x1 : Vec F S1024x3072 .bf16) : Vec F S512x1024 .bf16 :=
  View.canon [⟨rX, k0_pay2 (View.ld x0 rX) (View.ld x1 rW)⟩]
/-- Window 3's buffer after the body: the second slice. -/
def out0_3 (x0 : Vec F S512x1024 .f32) (x1 : Vec F S1024x3072 .bf16) : Vec F S512x1024 .bf16 :=
  View.canon [⟨rX, k0_pay3 (View.ld x0 rX) (View.ld x1 rW)⟩]
/-- Window 4's buffer after the body: the third slice. -/
def out0_4 (x0 : Vec F S512x1024 .f32) (x1 : Vec F S1024x3072 .bf16) : Vec F S512x1024 .bf16 :=
  View.canon [⟨rX, k0_pay4 (View.ld x0 rX) (View.ld x1 rW)⟩]

/-- The one store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The kernel body on whole staging memrefs, the inputs' at contents x0, x1 and the outputs' at anything, runs to
    the continuation holding the inputs' as they were and each output's at out0_W of the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c: the arrays as the region finds them; after the body at point t each
    input's buffer at its block and each output's at out0_W of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FlashDefs.lean ====
/-
  What one call of the attention kernel's body does to its three carried buffers and to its output
  buffer, as pure functions of the grid point and of what the body finds: the query, key and value
  blocks qb, kb, vb, the running maximum m0, the running denominator l0, the running numerator a0, and
  the output buffer's contents o0.

  The body is four conditionals in a row on the point (b, qi, kv):
    kv = 0   resets (m, l, a) to (-inf, 0, 0);
    kv < qi  one running-softmax update with the unmasked scores of the tile;
    kv = qi  one update with the scores masked below the diagonal;
    kv = 3   writes a / l into the output buffer.
  Each stage below is the state after that conditional; the arithmetic is the generated skeleton's
  payload terms.
-/
import proofs.«102304_j24240795419222_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- The carried state: running maximum, running denominator, running numerator. -/
abbrev St (F : FTy → Type) [FloatOps F] : Type := Vec F S512x1 .f32 × Vec F S512x1 .f32 × Vec F S512x1024 .f32

/-- After the first conditional: reset at kv = 0. -/
def st1 (i : grid1.Coords) (s : St F) : St F :=
  if (i 2).val = 0 then (k1_pay1 (F := F), k1_pay2 (F := F), k1_pay3 (F := F)) else s

/-- One update with the tile's unmasked scores. -/
def updOff (qb kb vb : Vec F S1x512x1024 .bf16) (s : St F) : St F :=
  (k1_pay5 (k1_pay10 qb kb s.1), k1_pay13 qb kb s.1 s.1 s.2.1, k1_pay4 (k1_pay14 qb kb s.1 s.1 s.2.2 vb))

/-- One update with the tile's scores masked below the diagonal. -/
def updDiag (qb kb vb : Vec F S1x512x1024 .bf16) (s : St F) : St F :=
  (k1_pay7 (k1_pay16 qb kb s.1), k1_pay19 qb kb s.1 s.1 s.2.1,
    k1_pay6 (k1_pay20 qb kb s.1 s.1 s.2.2) (k1_pay21 qb kb s.1) vb)

/-- After the second conditional: an unmasked update at kv < qi. -/
def st2 (i : grid1.Coords) (qb kb vb : Vec F S1x512x1024 .bf16) (s : St F) : St F :=
  if (i 2).val < (i 1).val then updOff qb kb vb (st1 i s) else st1 i s

/-- After the third conditional: a masked update at kv = qi. This is the state the body leaves. -/
def st3 (i : grid1.Coords) (qb kb vb : Vec F S1x512x1024 .bf16) (s : St F) : St F :=
  if (i 2).val = (i 1).val then updDiag qb kb vb (st2 i qb kb vb s) else st2 i qb kb vb s

/-- The output buffer after the body: the quotient numerator / denominator at kv = 3, untouched
    otherwise. -/
def outAfter (i : grid1.Coords) (qb kb vb : Vec F S1x512x1024 .bf16) (s : St F) (o0 : Vec F S1x512x1024 .f32) :
    Vec F S1x512x1024 .f32 :=
  if (i 2).val = 3 then k1_pay8 (st3 i qb kb vb s).2.2 (st3 i qb kb vb s).2.1 else o0

end Cert.KernelIdeal.Hand

end
-- ==== Proof.FlashBody.lean ====
/-
  The attention kernel's body as a separation-logic triple: on whole buffers holding the query, key
  and value blocks, the output buffer and the three carried buffers (running maximum, denominator,
  numerator), one call at grid point (b, qi, kv) leaves the inputs as they were, the carried buffers
  at the state the four conditionals compute, and the output buffer at the quotient when kv = 3.
-/
import proofs.«102304_j24240795419222_2_alg».proof.Proof.Gen.KernelIdeal.Launch
import proofs.«102304_j24240795419222_2_alg».proof.Proof.Gen.KernelIdeal.Skeleton
import proofs.«102304_j24240795419222_2_alg».proof.Proof.Gen.KernelIdeal.Points
import proofs.«102304_j24240795419222_2_alg».proof.Proof.FlashDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! ## The four conditions, from the grid coordinates -/

/-- The condition of the first conditional (kv = 0), as the body computes it. -/
abbrev cond1 (i : grid1.Coords) : Prop :=
  (Scalar.cmpi .ne (Scalar.extui (Scalar.cmpi .eq (BitVec.ofNat 32 (i 2).val) 0#32)) 0#32) = 1#1
/-- The condition of the second conditional (kv < qi). -/
abbrev cond2 (i : grid1.Coords) : Prop :=
  (Scalar.cmpi .ne (Scalar.extui (Scalar.cmpi .slt (BitVec.ofNat 32 (i 2).val) (BitVec.ofNat 32 (i 1).val))) 0#32) = 1#1
/-- The condition of the third conditional (kv = qi). -/
abbrev cond3 (i : grid1.Coords) : Prop :=
  (Scalar.cmpi .ne (Scalar.extui (Scalar.cmpi .eq (BitVec.ofNat 32 (i 2).val) (BitVec.ofNat 32 (i 1).val))) 0#32) = 1#1
/-- The condition of the fourth conditional (kv = 3). -/
abbrev cond4 (i : grid1.Coords) : Prop := k1_cond4 i = 1#1

theorem cmp_eq_zero_iff : ∀ a : ℕ, a < 4 →
    ((Scalar.cmpi .ne (Scalar.extui (Scalar.cmpi .eq (BitVec.ofNat 32 a) 0#32)) 0#32) = 1#1 ↔ a = 0) := by
  decide
theorem cmp_eq_three_iff : ∀ a : ℕ, a < 4 →
    ((Scalar.cmpi .ne (Scalar.extui (Scalar.cmpi .eq (BitVec.ofNat 32 a) 3#32)) 0#32) = 1#1 ↔ a = 3) := by
  decide
theorem cmp_slt_iff : ∀ a : ℕ, a < 4 → ∀ b : ℕ, b < 4 →
    ((Scalar.cmpi .ne (Scalar.extui (Scalar.cmpi .slt (BitVec.ofNat 32 a) (BitVec.ofNat 32 b))) 0#32) = 1#1 ↔ a < b) := by
  decide
theorem cmp_eq_iff : ∀ a : ℕ, a < 4 → ∀ b : ℕ, b < 4 →
    ((Scalar.cmpi .ne (Scalar.extui (Scalar.cmpi .eq (BitVec.ofNat 32 a) (BitVec.ofNat 32 b))) 0#32) = 1#1 ↔ a = b) := by
  decide

theorem cond1_iff (i : grid1.Coords) (hi2 : (i 2).val < 4) : cond1 i ↔ (i 2).val = 0 :=
  cmp_eq_zero_iff _ hi2
theorem cond2_iff (i : grid1.Coords) (hi1 : (i 1).val < 4) (hi2 : (i 2).val < 4) : cond2 i ↔ (i 2).val < (i 1).val :=
  cmp_slt_iff _ hi2 _ hi1
theorem cond3_iff (i : grid1.Coords) (hi1 : (i 1).val < 4) (hi2 : (i 2).val < 4) : cond3 i ↔ (i 2).val = (i 1).val :=
  cmp_eq_iff _ hi2 _ hi1
theorem cond4_iff (i : grid1.Coords) (hi2 : (i 2).val < 4) : cond4 i ↔ (i 2).val = 3 :=
  cmp_eq_three_iff _ hi2

/-! ## Whole-buffer loads and stores -/

theorem zeros2 : (![0, 0] : Fin 2 → ℕ) = fun _ => 0 := by
  funext a; fin_cases a <;> rfl
theorem zeros3 : (![0, 0, 0] : Fin 3 → ℕ) = fun _ => 0 := by
  funext a; fin_cases a <;> rfl

section Whole
variable {Val : EltTy → Type} {S : Shape} {e : EltTy} {sg : RefSig} {κ : Kind} {sp : Space}

/-- A load through the whole-shape rectangle at zero offsets reads what the view reads. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h inb]

/-- After a store through the whole-shape rectangle, last, the view reads the stored payload. -/
theorem read_store_whole [∀ e, Nonempty (Val e)] (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through the whole-shape rectangle of what a store through it, last, left reads the payload. -/
theorem readCov_whole [∀ e, Nonempty (Val e)] (v : View sg κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Whole

/-! ## The body in each combination of conditionals the grid meets

Each run: the printed function is its skeleton, whose memory operations are run one after the other, the four
conditions decided by the case's hypotheses. Every load and store is of a whole buffer, so a load reads what the
buffer held, or the payload of the last store into it, and what a stored buffer ends with is the last payload. -/

set_option maxHeartbeats 4000000 in
/-- No conditional taken (kv after the diagonal, before the last tile): the body touches nothing. -/
theorem run_FFFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel

  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Only the last conditional taken (kv = 3 after the diagonal): the quotient goes to the output buffer. -/
theorem run_FFFT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : ¬cond3 i) (hc4 : cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (k1_pay8 s.2.2 s.2.1)
            ∗ owns (c : Thread nD τ) arg7 fullShare (s).1 ∗ owns (c : Thread nD τ) arg8 fullShare (s).2.1 ∗ owns (c : Thread nD τ) arg9 fullShare (s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel

  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    rw [read_store_whole (S := S1x512x1024) _ _ zeros3]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H7]
  · iexists f7; isplitr; · ipureintro; exact hf7
    iexact H7
  isplitl [H8]
  · iexists f8; isplitr; · ipureintro; exact hf8
    iexact H8
  iexists f9; isplitr; · ipureintro; exact hf9
  iexact H9

set_option maxHeartbeats 4000000 in
/-- Only the second conditional taken (0 < kv < qi): one unmasked update. -/
theorem run_FTFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updOff qb kb vb s).1 ∗ owns (c : Thread nD τ) arg8 fullShare (updOff qb kb vb s).2.1 ∗ owns (c : Thread nD τ) arg9 fullShare (updOff qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- Only the third conditional taken (0 < kv = qi < 3): one masked update. -/
theorem run_FFTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updDiag qb kb vb s).1 ∗ owns (c : Thread nD τ) arg8 fullShare (updDiag qb kb vb s).2.1 ∗ owns (c : Thread nD τ) arg9 fullShare (updDiag qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The third and the last conditionals taken (kv = qi = 3): one masked update, then the quotient goes to the output buffer. -/
theorem run_FFTT (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : ¬cond1 i) (hc2 : ¬cond2 i) (hc3 : cond3 i) (hc4 : cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (k1_pay8 (updDiag qb kb vb s).2.2 (updDiag qb kb vb s).2.1)
            ∗ owns (c : Thread nD τ) arg7 fullShare (updDiag qb kb vb s).1 ∗ owns (c : Thread nD τ) arg8 fullShare (updDiag qb kb vb s).2.1 ∗ owns (c : Thread nD τ) arg9 fullShare (updDiag qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_run_names
    rw [read_store_whole (S := S1x512x1024) _ _ zeros3]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The first and the second conditionals taken (kv = 0 < qi): the reset, then one unmasked update. -/
theorem run_TTFF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : cond1 i) (hc2 : cond2 i) (hc3 : ¬cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updOff qb kb vb ((k1_pay1 (F := F), k1_pay2 (F := F), k1_pay3 (F := F)) : St F)).1 ∗ owns (c : Thread nD τ) arg8 fullShare (updOff qb kb vb ((k1_pay1 (F := F), k1_pay2 (F := F), k1_pay3 (F := F)) : St F)).2.1 ∗ owns (c : Thread nD τ) arg9 fullShare (updOff qb kb vb ((k1_pay1 (F := F), k1_pay2 (F := F), k1_pay3 (F := F)) : St F)).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

set_option maxHeartbeats 4000000 in
/-- The first and the third conditionals taken (kv = qi = 0): the reset, then one masked update. -/
theorem run_TFTF (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc1 : cond1 i) (hc2 : ¬cond2 i) (hc3 : cond3 i) (hc4 : ¬cond4 i)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (o0)
            ∗ owns (c : Thread nD τ) arg7 fullShare (updDiag qb kb vb ((k1_pay1 (F := F), k1_pay2 (F := F), k1_pay3 (F := F)) : St F)).1 ∗ owns (c : Thread nD τ) arg8 fullShare (updDiag qb kb vb ((k1_pay1 (F := F), k1_pay2 (F := F), k1_pay3 (F := F)) : St F)).2.1 ∗ owns (c : Thread nD τ) arg9 fullShare (updDiag qb kb vb ((k1_pay1 (F := F), k1_pay2 (F := F), k1_pay3 (F := F)) : St F)).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton, k1_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2 | exact hc3 | exact hc4)
  sl_step
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  isplitl [H8]
  · iexists _; isplitr
    swap; · iexact H8
    ipureintro
    sl_unfold_run_names
    rw [read_store_whole (S := S512x1) _ _ zeros2]
    simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
    first | done | rfl
  iexists _; isplitr
  swap; · iexact H9
  ipureintro
  sl_unfold_run_names
  rw [read_store_whole (S := S512x1024) _ _ zeros2]
  simp only [readAt_whole (S := S512x1) _ _ zeros2, readAt_whole (S := S512x1024) _ _ zeros2, readAt_whole (S := S1x512x1024) _ _ zeros3, readCov_whole (S := S512x1) _ zeros2, readCov_whole (S := S512x1024) _ zeros2, readCov_whole (S := S1x512x1024) _ zeros3, hf3, hf4, hf5, hf6, hf7, hf8, hf9]
  first | done | rfl

/-! ## The body at any grid point -/

set_option maxHeartbeats 4000000 in
/-- The kernel body on whole buffers: the inputs are handed back as they were, the carried buffers at the state
    after the three updating conditionals, the output buffer at the quotient when kv = 3 and untouched otherwise.
    By cases on which conditionals the point takes. -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hi1 : (i 1).val < 4) (hi2 : (i 2).val < 4)
    (qb kb vb : Vec F S1x512x1024 .bf16) (o0 : Vec F S1x512x1024 .f32) (s : St F) (K : PUnit → sProp 𝕄) :
    iprop(owns (c : Thread nD τ) arg3 fullShare qb ∗ owns (c : Thread nD τ) arg4 fullShare kb ∗ owns (c : Thread nD τ) arg5 fullShare vb
        ∗ owns (c : Thread nD τ) arg6 fullShare o0 ∗ owns (c : Thread nD τ) arg7 fullShare s.1 ∗ owns (c : Thread nD τ) arg8 fullShare s.2.1 ∗ owns (c : Thread nD τ) arg9 fullShare s.2.2
        ∗ (iprop(owns (c : Thread nD τ) arg3 fullShare qb ∗ owns (c : Thread nD τ) arg4 fullShare kb ∗ owns (c : Thread nD τ) arg5 fullShare vb
            ∗ owns (c : Thread nD τ) arg6 fullShare (outAfter i qb kb vb s o0)
            ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩))
      ⊢ wp frame (wpE (defs₀ (F := F)) Variants.none c none) E (cc1__flash_kernel i arg3 harg3 arg4 harg4 arg5 harg5 arg6 harg6 arg7 harg7 arg8 harg8 arg9 harg9) K := by
  by_cases h1 : (i 2).val = 0
  · have h4 : ¬(i 2).val = 3 := by omega
    by_cases h3 : (i 2).val = (i 1).val
    · have h2 : ¬(i 2).val < (i 1).val := by omega
      rw [show outAfter i qb kb vb s o0 = o0 by simp only [outAfter, st3, st2, st1, if_pos h1, if_neg h2, if_pos h3, if_neg h4],
        show st3 i qb kb vb s = updDiag qb kb vb ((k1_pay1 (F := F), k1_pay2 (F := F), k1_pay3 (F := F)) : St F) by simp only [st3, st2, st1, if_pos h1, if_neg h2, if_pos h3, if_neg h4]]
      exact run_TFTF c E i arg3 harg3 arg4 harg4 arg5 harg5 arg6 harg6 arg7 harg7 arg8 harg8 arg9 harg9 ((cond1_iff i hi2).2 h1) (mt (cond2_iff i hi1 hi2).1 h2) ((cond3_iff i hi1 hi2).2 h3) (mt (cond4_iff i hi2).1 h4) qb kb vb o0 s K
    · have h2 : (i 2).val < (i 1).val := by omega
      rw [show outAfter i qb kb vb s o0 = o0 by simp only [outAfter, st3, st2, st1, if_pos h1, if_pos h2, if_neg h3, if_neg h4],
        show st3 i qb kb vb s = updOff qb kb vb ((k1_pay1 (F := F), k1_pay2 (F := F), k1_pay3 (F := F)) : St F) by simp only [st3, st2, st1, if_pos h1, if_pos h2, if_neg h3, if_neg h4]]
      exact run_TTFF c E i arg3 harg3 arg4 harg4 arg5 harg5 arg6 harg6 arg7 harg7 arg8 harg8 arg9 harg9 ((cond1_iff i hi2).2 h1) ((cond2_iff i hi1 hi2).2 h2) (mt (cond3_iff i hi1 hi2).1 h3) (mt (cond4_iff i hi2).1 h4) qb kb vb o0 s K
  · by_cases h2 : (i 2).val < (i 1).val
    · have h3 : ¬(i 2).val = (i 1).val := by omega
      have h4 : ¬(i 2).val = 3 := by omega
      rw [show outAfter i qb kb vb s o0 = o0 by simp only [outAfter, st3, st2, st1, if_neg h1, if_pos h2, if_neg h3, if_neg h4],
        show st3 i qb kb vb s = updOff qb kb vb s by simp only [st3, st2, st1, if_neg h1, if_pos h2, if_neg h3, if_neg h4]]
      exact run_FTFF c E i arg3 harg3 arg4 harg4 arg5 harg5 arg6 harg6 arg7 harg7 arg8 harg8 arg9 harg9 (mt (cond1_iff i hi2).1 h1) ((cond2_iff i hi1 hi2).2 h2) (mt (cond3_iff i hi1 hi2).1 h3) (mt (cond4_iff i hi2).1 h4) qb kb vb o0 s K
    · by_cases h3 : (i 2).val = (i 1).val
      · by_cases h4 : (i 2).val = 3
        · rw [show outAfter i qb kb vb s o0 = k1_pay8 (updDiag qb kb vb s).2.2 (updDiag qb kb vb s).2.1 by simp only [outAfter, st3, st2, st1, if_neg h1, if_neg h2, if_pos h3, if_pos h4],
            show st3 i qb kb vb s = updDiag qb kb vb s by simp only [st3, st2, st1, if_neg h1, if_neg h2, if_pos h3, if_pos h4]]
          exact run_FFTT c E i arg3 harg3 arg4 harg4 arg5 harg5 arg6 harg6 arg7 harg7 arg8 harg8 arg9 harg9 (mt (cond1_iff i hi2).1 h1) (mt (cond2_iff i hi1 hi2).1 h2) ((cond3_iff i hi1 hi2).2 h3) ((cond4_iff i hi2).2 h4) qb kb vb o0 s K
        · rw [show outAfter i qb kb vb s o0 = o0 by simp only [outAfter, st3, st2, st1, if_neg h1, if_neg h2, if_pos h3, if_neg h4],
            show st3 i qb kb vb s = updDiag qb kb vb s by simp only [st3, st2, st1, if_neg h1, if_neg h2, if_pos h3, if_neg h4]]
          exact run_FFTF c E i arg3 harg3 arg4 harg4 arg5 harg5 arg6 harg6 arg7 harg7 arg8 harg8 arg9 harg9 (mt (cond1_iff i hi2).1 h1) (mt (cond2_iff i hi1 hi2).1 h2) ((cond3_iff i hi1 hi2).2 h3) (mt (cond4_iff i hi2).1 h4) qb kb vb o0 s K
      · by_cases h4 : (i 2).val = 3
        · rw [show outAfter i qb kb vb s o0 = k1_pay8 s.2.2 s.2.1 by simp only [outAfter, st3, st2, st1, if_neg h1, if_neg h2, if_neg h3, if_pos h4],
            show st3 i qb kb vb s = s by simp only [st3, st2, st1, if_neg h1, if_neg h2, if_neg h3, if_pos h4]]
          exact run_FFFT c E i arg3 harg3 arg4 harg4 arg5 harg5 arg6 harg6 arg7 harg7 arg8 harg8 arg9 harg9 (mt (cond1_iff i hi2).1 h1) (mt (cond2_iff i hi1 hi2).1 h2) (mt (cond3_iff i hi1 hi2).1 h3) ((cond4_iff i hi2).2 h4) qb kb vb o0 s K
        · rw [show outAfter i qb kb vb s o0 = o0 by simp only [outAfter, st3, st2, st1, if_neg h1, if_neg h2, if_neg h3, if_neg h4],
            show st3 i qb kb vb s = s by simp only [st3, st2, st1, if_neg h1, if_neg h2, if_neg h3, if_neg h4]]
          exact run_FFFF c E i arg3 harg3 arg4 harg4 arg5 harg5 arg6 harg6 arg7 harg7 arg8 harg8 arg9 harg9 (mt (cond1_iff i hi2).1 h1) (mt (cond2_iff i hi1 hi2).1 h2) (mt (cond3_iff i hi1 hi2).1 h3) (mt (cond4_iff i hi2).1 h4) qb kb vb o0 s K

end Cert.KernelIdeal.Hand

end
-- ==== Proof.Region1.lean ====
/-
  Region 1, the attention kernel, at the buffer contents V the region is entered with.

  The body carries three buffers of its own (running maximum, denominator, numerator) from one grid
  point to the next. The state after the body at position n is defined by recursion on n from the
  body's state function; the region invariant names the three buffers' contents after each point; the
  output window is written only at the last key tile of a query tile, and handed back untouched elsewhere.
-/
import proofs.«102304_j24240795419222_2_alg».proof.Proof.Gen.KernelIdeal.Launch
import proofs.«102304_j24240795419222_2_alg».proof.Proof.Gen.KernelIdeal.Skeleton
import proofs.«102304_j24240795419222_2_alg».proof.Proof.Gen.KernelIdeal.Points
import proofs.«102304_j24240795419222_2_alg».proof.Proof.FlashDefs
import proofs.«102304_j24240795419222_2_alg».proof.Proof.FlashBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's state functions at special points -/

/-- Off the last key tile the output buffer is left as found. -/
theorem outAfter_idle (i : grid1.Coords) (qb kb vb : Vec F S1x512x1024 .bf16) (s : St F) (o0 : Vec F S1x512x1024 .f32)
    (h : (i 2).val ≠ 3) : outAfter i qb kb vb s o0 = o0 := by
  unfold outAfter; exact if_neg h

/-- On the last key tile the output buffer does not depend on what it held. -/
theorem outAfter_live (i : grid1.Coords) (qb kb vb : Vec F S1x512x1024 .bf16) (s : St F) (o0 o0' : Vec F S1x512x1024 .f32)
    (h : (i 2).val = 3) : outAfter i qb kb vb s o0 = outAfter i qb kb vb s o0' := by
  unfold outAfter; rw [if_pos h, if_pos h]

/-- On the first key tile the reset discards the state found. -/
theorem st1_of_kv0 (i : grid1.Coords) (s s' : St F) (h : (i 2).val = 0) : st1 i s = st1 i s' := by
  unfold st1; rw [if_pos h, if_pos h]

/-- So the state the body leaves there does not depend on the state found. -/
theorem st3_of_kv0 (i : grid1.Coords) (qb kb vb : Vec F S1x512x1024 .bf16) (s s' : St F) (h : (i 2).val = 0) :
    st3 i qb kb vb s = st3 i qb kb vb s' := by
  unfold st3 st2; rw [st1_of_kv0 i s s' h]

/-! ## The grid: key tile fastest -/

/-- The key-tile coordinate of point t is t mod 4. -/
theorem kv_eq : ∀ t : Fin cfg1.N, ((grid1.coords t) 2).val = t.val % 4 :=
  (by decide +kernel : ∀ t : Fin grid1.N, ((grid1.coords t) 2).val = t.val % 4)
theorem qi_lt : ∀ t : Fin cfg1.N, ((grid1.coords t) 1).val < 4 :=
  (by decide +kernel : ∀ t : Fin grid1.N, ((grid1.coords t) 1).val < 4)
theorem kv_lt : ∀ t : Fin cfg1.N, ((grid1.coords t) 2).val < 4 :=
  (by decide +kernel : ∀ t : Fin grid1.N, ((grid1.coords t) 2).val < 4)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle off the last key tile, -/
theorem idleAt1_3 : ∀ t : Fin cfg1.N, t.val % 4 ≠ 3 → cfg1.idle 3 (grid1.coords t) = true :=
  (by decide +kernel : ∀ t : Fin grid1.N, t.val % 4 ≠ 3 → cfg1.idle 3 (grid1.coords t) = true)
/-- live on it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and not written back off it. -/
theorem noFlush1_3 (t : Fin cfg1.N) (h : t.val % 4 ≠ 3) : (cfg1.win 3).flush t = false :=
  Bool.eq_false_iff.mpr fun hf => h ((flush1_3 t).mp hf)

/-! ## The body's triple, specialised to the three kinds of point -/

/-- Off the last key tile: the output buffer comes back as found. -/
theorem sound_kernel1_idle (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (s : St F) (hkv : (i 2).val ≠ 3) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare s.1 ∗ owns (c : Thread nD τ) arg8 fullShare s.2.1 ∗ owns (c : Thread nD τ) arg9 fullShare s.2.2 ∗ (iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1 c E i arg3 harg3 arg4 harg4 arg5 harg5 arg6 harg6 arg7 harg7 arg8 harg8 arg9 harg9 hi1 hi2 qb kb vb o0 s K
  rw [outAfter_idle i qb kb vb s o0 hkv] at h
  exact h

/-- On the first key tile: moreover the carried buffers may hold anything, and the state left is that from any state s'. -/
theorem sound_kernel1_first (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (e0 e1 : Vec F S512x1 .f32) (e2 : Vec F S512x1024 .f32) (s' : St F) (hkv : (i 2).val = 0) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare e0 ∗ owns (c : Thread nD τ) arg8 fullShare e1 ∗ owns (c : Thread nD τ) arg9 fullShare e2 ∗ (iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare (st3 i qb kb vb s').1 ∗ owns (c : Thread nD τ) arg8 fullShare (st3 i qb kb vb s').2.1 ∗ owns (c : Thread nD τ) arg9 fullShare (st3 i qb kb vb s').2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1_idle c E i arg3 harg3 arg4 harg4 arg5 harg5 arg6 harg6 arg7 harg7 arg8 harg8 arg9 harg9 hi1 hi2 qb kb vb o0 (e0, e1, e2) (by omega) K
  rw [st3_of_kv0 i qb kb vb (e0, e1, e2) s' hkv] at h
  exact h

/-- On the last key tile: the output buffer is left at the quotient, whatever it held. -/
theorem sound_kernel1_live (c : Dev nD) (E : Set ℕ) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hi1 : (i 1).val < 4) (hi2 : (i 2).val < 4) (qb kb vb : Vec F S1x512x1024 .bf16) (o0 : Vec F S1x512x1024 .f32) (s : St F) (o0' : Vec F S1x512x1024 .f32) (hkv : (i 2).val = 3) (K : PUnit → sProp 𝕄) :
    iprop(owns (c : Thread nD τ) arg3 fullShare qb ∗ owns (c : Thread nD τ) arg4 fullShare kb ∗ owns (c : Thread nD τ) arg5 fullShare vb ∗ owns (c : Thread nD τ) arg6 fullShare o0 ∗ owns (c : Thread nD τ) arg7 fullShare s.1 ∗ owns (c : Thread nD τ) arg8 fullShare s.2.1 ∗ owns (c : Thread nD τ) arg9 fullShare s.2.2 ∗ (iprop(owns (c : Thread nD τ) arg3 fullShare qb ∗ owns (c : Thread nD τ) arg4 fullShare kb ∗ owns (c : Thread nD τ) arg5 fullShare vb ∗ owns (c : Thread nD τ) arg6 fullShare (outAfter i qb kb vb s o0') ∗ owns (c : Thread nD τ) arg7 fullShare (st3 i qb kb vb s).1 ∗ owns (c : Thread nD τ) arg8 fullShare (st3 i qb kb vb s).2.1 ∗ owns (c : Thread nD τ) arg9 fullShare (st3 i qb kb vb s).2.2) -∗ K ⟨⟩)) ⊢ wp frame (wpE (defs₀ (F := F)) Variants.none c none) E (cc1__flash_kernel i arg3 harg3 arg4 harg4 arg5 harg5 arg6 harg6 arg7 harg7 arg8 harg8 arg9 harg9) K := by
  have h := sound_kernel1 c E i arg3 harg3 arg4 harg4 arg5 harg5 arg6 harg6 arg7 harg7 arg8 harg8 arg9 harg9 hi1 hi2 qb kb vb o0 s K
  rw [outAfter_live i qb kb vb s o0 o0' hkv] at h
  exact h

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried state, point by point -/

/-- A fixed state and a fixed output buffer, standing where the contents are discarded. -/
def junkSt : St F := (k1_pay1 (F := F), k1_pay2 (F := F), k1_pay3 (F := F))
def junkO : Vec F S1x512x1024 .f32 := k1_pay8 (k1_pay3 (F := F)) (k1_pay2 (F := F))

/-- The carried state after the body at position n: the body's state function at the point's blocks, from the
    state after position n - 1 (at position 0 from a fixed state: the first point resets). -/
def stAt1 (c : Dev nD) : (n : ℕ) → n < cfg1.N → St F
  | 0, hn => st3 (grid1.coords ⟨0, hn⟩) (iblk1 V c 0 ⟨0, hn⟩) (iblk1 V c 1 ⟨0, hn⟩) (iblk1 V c 2 ⟨0, hn⟩) junkSt
  | n + 1, hn => st3 (grid1.coords ⟨n + 1, hn⟩) (iblk1 V c 0 ⟨n + 1, hn⟩) (iblk1 V c 1 ⟨n + 1, hn⟩) (iblk1 V c 2 ⟨n + 1, hn⟩)
      (stAt1 c n (Nat.lt_of_succ_lt hn))

/-- The recursion, spelt out. -/
theorem stAt1_zero (c : Dev nD) (hn : 0 < cfg1.N) :
    stAt1 V c 0 hn = st3 (grid1.coords ⟨0, hn⟩) (iblk1 V c 0 ⟨0, hn⟩) (iblk1 V c 1 ⟨0, hn⟩) (iblk1 V c 2 ⟨0, hn⟩) junkSt := rfl
theorem stAt1_succ (c : Dev nD) (n : ℕ) (hn : n + 1 < cfg1.N) :
    stAt1 V c (n + 1) hn = st3 (grid1.coords ⟨n + 1, hn⟩) (iblk1 V c 0 ⟨n + 1, hn⟩) (iblk1 V c 1 ⟨n + 1, hn⟩) (iblk1 V c 2 ⟨n + 1, hn⟩)
      (stAt1 V c n (Nat.lt_of_succ_lt hn)) := rfl

/-- The carried state the body finds at position n. -/
def prevSt (c : Dev nD) (n : ℕ) (hn : n < cfg1.N) : St F :=
  if h : n = 0 then junkSt else stAt1 V c (n - 1) (Nat.lt_of_le_of_lt (Nat.sub_le _ _) hn)

theorem prevSt_zero (c : Dev nD) (n : ℕ) (hn : n < cfg1.N) (hz : n = 0) : prevSt V c n hn = junkSt := by
  unfold prevSt; rw [dif_pos hz]
theorem prevSt_pos (c : Dev nD) (n : ℕ) (hn : n < cfg1.N) (hz : n ≠ 0) :
    prevSt V c n hn = stAt1 V c (n - 1) (Nat.lt_of_le_of_lt (Nat.sub_le _ _) hn) := by
  unfold prevSt; rw [dif_neg hz]

/-- The state after point t is the body's state function of the state found there. -/
theorem stAt1_eq (c : Dev nD) (t : Fin cfg1.N) :
    stAt1 V c t.val t.isLt = st3 (grid1.coords t) (iblk1 V c 0 t) (iblk1 V c 1 t) (iblk1 V c 2 t) (prevSt V c t.val t.isLt) := by
  obtain ⟨n, hn⟩ := t
  cases n with
  | zero => rw [prevSt_zero V c 0 hn rfl]; rfl
  | succ n => rw [prevSt_pos V c (n + 1) hn (Nat.succ_ne_zero n)]; rfl

/-- The output buffer after the body at point t (consulted on the last key tile only, where it does not depend
    on what the buffer held). -/
def outAt1 (c : Dev nD) (t : Fin cfg1.N) : Vec F S1x512x1024 .f32 :=
  outAfter (grid1.coords t) (iblk1 V c 0 t) (iblk1 V c 1 t) (iblk1 V c 2 t) (prevSt V c t.val t.isLt) junkO

/-! ## The region invariant -/

/-- The kernel's own three buffers. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The core's scoped buffers that are no staging buffer of this call: the other call's staging buffers at
    anything, and the three carried buffers as P0, P1, P2 say. -/
def scopedWith (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P0 ∗ P1 ∗ P2)

/-- The class's invariant with the carried buffers as memrefs owned at some contents. -/
theorem PhiA1_eq (c : Dev nD) :
    (Pipeline.ΦA spec1 c : sProp 𝕄)
      = iprop(scopedWith c (iprop(∃ d, owns (c : Thread nD τ) scM1_0 fullShare d)) (iprop(∃ d, owns (c : Thread nD τ) scM1_1 fullShare d))
          (iprop(∃ d, owns (c : Thread nD τ) scM1_2 fullShare d)) ∗ (∃ r, prngReg c r)) := by
  unfold Pipeline.ΦA scopedWith; rw [scopedRest1_eq]; simp only [scM1_0, scM1_1, scM1_2, owns_whole]; try rfl

/-- The invariant with the carried buffers at state s. -/
def PhiAt (c : Dev nD) (s : St F) : sProp 𝕄 :=
  iprop(scopedWith c (owns (c : Thread nD τ) scM1_0 fullShare s.1) (owns (c : Thread nD τ) scM1_1 fullShare s.2.1)
      (owns (c : Thread nD τ) scM1_2 fullShare s.2.2) ∗ (∃ r, prngReg c r))

/-- The region invariant before position n: before the first point the class's; afterwards the carried buffers at
    the state the point before left. -/
def PhiS1 (c : Dev nD) : (n : ℕ) → n ≤ cfg1.N → sProp 𝕄
  | 0, _ => Pipeline.ΦA spec1 c
  | n + 1, hn => PhiAt c (stAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = PhiAt c (stAt1 V c n hn) := rfl
theorem PhiS1_pos (c : Dev nD) (n : ℕ) (h : n ≤ cfg1.N) (hz : n ≠ 0) :
    PhiS1 V c n h = PhiAt c (stAt1 V c (n - 1) (by omega)) := by
  cases n with
  | zero => exact absurd rfl hz
  | succ n => rfl

/-! ## The pipeline's proof data -/

/-- The proof data of pipeline 1 on core c: the arrays as the region finds them; after the body each input's buffer at
    its block and the output's at outAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The output buffer after the body, as the body's output function of the state found. -/
theorem after1_3_eq (c : Dev nD) (t : Fin cfg1.N) :
    (dat1 V c).after 3 t = outAfter (grid1.coords t) (iblk1 V c 0 t) (iblk1 V c 1 t) (iblk1 V c 2 t) (prevSt V c t.val t.isLt) junkO := by
  rw [after1_3]; rfl

/-- On the last key tile of a query tile the output buffer is left at numerator / denominator of the state left. -/
theorem after1_3_last (c : Dev nD) (t : Fin cfg1.N) (h : ((grid1.coords t) 2).val = 3) :
    (dat1 V c).after 3 t = k1_pay8 (stAt1 V c t.val t.isLt).2.2 (stAt1 V c t.val t.isLt).2.1 := by
  rw [after1_3, stAt1_eq]; unfold outAt1 outAfter; rw [if_pos h]
theorem after1_3_last' (c : Dev nD) (t : Fin cfg1.N) (h : t.val % 4 = 3) :
    (dat1 V c).after 3 t = k1_pay8 (stAt1 V c t.val t.isLt).2.2 (stAt1 V c t.val t.isLt).2.1 :=
  after1_3_last V c t ((kv_eq t).trans h)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the invariant hands the body the carried buffers at
    the state the point before left (at anything at the first point, which resets them) and takes them back at this
    point's state; the output's buffer comes back untouched off the last key tile and at the quotient on it; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, stAt1_eq V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h3 : t.val % 4 = 3
  · have hz : t.val ≠ 0 := by omega
    have hkv : ((grid1.coords t) 2).val = 3 := (kv_eq t).trans h3
    rw [show (dat1 V c).leavesExact 3 t = owns (c : Thread nD τ) (st1_3 t) fullShare ((dat1 V c).after 3 t) from by
      unfold Dat.leavesExact; rw [liveAt1_3 t h3], after1_3]
    unfold outAt1
    rw [PhiS1_castSucc V c t, PhiS1_pos V c _ _ hz, prevSt_pos V c _ _ hz]
    unfold PhiAt scopedWith
    iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
    iapply (sound_kernel1_live c Set.univ (grid1.coords t) _ _ _ _ _ _ _ _ _ _ _ _ _ _ (qi_lt t) (kv_lt t) (iblk1 V c 0 t) (iblk1 V c 1 t) (iblk1 V c 2 t) ((dat1 V c).before 3 t d3) (stAt1 V c (t.val - 1) _) junkO hkv _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [R1 R2 R3 R4 R5 R6 R7 R8 R9 HS0 HS1 HS2 Hg]
    · isplitl [R1 R2 R3 R4 R5 R6 R7 R8 R9 HS0 HS1 HS2]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · have hkv : ((grid1.coords t) 2).val ≠ 3 := fun h => h3 ((kv_eq t).symm.trans h)
    rw [Dat.leavesExact_idle (dat1 V c) 3 t (idleAt1_3 t h3) (noFlush1_3 t h3)]
    by_cases hz : t.val = 0
    · have hkv0 : ((grid1.coords t) 2).val = 0 := (kv_eq t).trans (by rw [hz])
      rw [PhiS1_castSucc V c t, PhiS1_zero V c _ _ hz, PhiA1_eq, prevSt_zero V c _ _ hz]
      unfold PhiAt scopedWith
      iintro ⟨⟨⟨R1, R2, R3, R4, R5, R6, R7, R8, R9, ⟨%e0, HS0⟩, ⟨%e1, HS1⟩, ⟨%e2, HS2⟩⟩, Hg⟩, Ho, ⟨%d0, H0⟩, ⟨%d1, H1⟩, ⟨%d2, H2⟩, ⟨%d3, H3⟩⟩
      iapply (sound_kernel1_first c Set.univ (grid1.coords t) _ _ _ _ _ _ _ _ _ _ _ _ _ _ (qi_lt t) (kv_lt t) (iblk1 V c 0 t) (iblk1 V c 1 t) (iblk1 V c 2 t) ((dat1 V c).before 3 t d3) e0 e1 e2 junkSt hkv0 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [R1 R2 R3 R4 R5 R6 R7 R8 R9 HS0 HS1 HS2 Hg]
      · isplitl [R1 R2 R3 R4 R5 R6 R7 R8 R9 HS0 HS1 HS2]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz, prevSt_pos V c _ _ hz]
      unfold PhiAt scopedWith
      iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
      iapply (sound_kernel1_idle c Set.univ (grid1.coords t) _ _ _ _ _ _ _ _ _ _ _ _ _ _ (qi_lt t) (kv_lt t) (iblk1 V c 0 t) (iblk1 V c 1 t) (iblk1 V c 2 t) ((dat1 V c).before 3 t d3) (stAt1 V c (t.val - 1) _) hkv _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [R1 R2 R3 R4 R5 R6 R7 R8 R9 HS0 HS1 HS2 Hg]
      · isplitl [R1 R2 R3 R4 R5 R6 R7 R8 R9 HS0 HS1 HS2]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt scopedWith
  iintro ⟨⟨R1, R2, R3, R4, R5, R6, R7, R8, R9, HS0, HS1, HS2⟩, Hg⟩
  isplitl [R1 R2 R3 R4 R5 R6 R7 R8 R9 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.Run.lean ====
/-
  The run of the whole program: two stretches of host operations and two kernel launches, in order.
  The contents of every unscoped buffer at each of the five boundaries are a fold from the launch
  memory: a stretch applies its operations; a launch leaves each of its windows' arrays at what the
  write-backs of its blocks leave and every other buffer alone. Every weakly fair execution ends, and
  every final memory holds each unscoped buffer at the last of these contents — in particular the
  result array at what the second launch's write-backs leave, and each argument as launched.
-/
import proofs.«102304_j24240795419222_2_alg».proof.Proof.Region0
import proofs.«102304_j24240795419222_2_alg».proof.Proof.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch (weights concatenated and narrowed, the input re-laid as 8192 rows). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: q, k, v at what its blocks' write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (q, k, v re-laid as 4 batches of 2048 rows). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention launch: the result array at what its blocks' write-backs leave. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- Argument 0 reaches the end as launched: no host operation writes it and it is no window's array. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it and it is no window's array. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it and it is no window's array. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it and it is no window's array. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- The result array ends at what the attention launch's write-backs leave in its output window's array. -/
theorem W4_result (c : Dev nD) : W4 m c (Proc.devRef .tc main_v7) = (dat1 (V3 m) c).arrAt 3 cfg1.N :=
  W4_arr m c 3

/-! ## The proof data family and the thread state -/

abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

-- unification with the pinned configuration may unfold plain definitions in a metavariable's type
set_option backward.isDefEq.respectTransparency.types false in
/-- Region 0 over the thread state: entered with every unscoped buffer at the contents before it, left with them
    at the contents after it; its arrays are split out of the unscoped buffers and put back at what the
    write-backs leave; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered with every unscoped buffer at the contents before it, left with them
    at the contents after it; its arrays are split out of the unscoped buffers and put back at what the
    write-backs leave; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates without a
    fault, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every execution terminates and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.LibThreePieces.lean ====
/-
  THREE PIECES LAID END TO END.

  A host line whose operands are a literal family of THREE buffers (a concatenation of three pieces) writes its
  function of the three operands' contents, each read at its own buffer. And a concatenation, along the first axis,
  of three pieces of one extent n — three [n] vectors into a [N] vector, three [n, b] matrices into a [N, b] matrix —
  reads, at first coordinate q, piece 0 at q while q < n, piece 1 at q − n while n ≤ q < 2n, piece 2 at q − 2n from
  there on. Generic in the sizes and the element type.
-/
import Idealize.ShloMosaic.Lib.StableHlo.Run
import Idealize.ShloMosaic.Lib.Pipeline.Value
import Idealize.ShloMosaic.Lib.ValueIdx

noncomputable section

namespace Cert.Lib

open Idealize.ShloMosaic Idealize.ShloMosaic.ValueIdx Idealize.ShloMosaic.StableHlo

section Nary3

variable {τ : Topo} {sig : RefSig} {Val : EltTy → Type} {x a b y : Ref sig .tc}

/-- A line over a literal family of three operand buffers: its function of the three contents, each at its own
    buffer (so that what each operand holds can be read in turn). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- Read what a buffer holds after a literal list of host lines, three-operand lines included: unfold the list,
    then rewrite each line at its own result buffer to its function's value and at any other buffer to what was
    there before, outermost first. -/
macro "after_results3" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Concat3

variable {α : Type}

/-- Three [n] vectors end to end, at q, when q = pre + r falls in piece k (pre = k · n). -/
theorem concat3_vec_apply {n N : Nat} (X0 X1 X2 : (⟨1, ![n]⟩ : Shape).Idx → α)
    (h : Shape.Concatenates [(⟨1, ![n]⟩ : Shape), ⟨1, ![n]⟩, ⟨1, ![n]⟩] ⟨1, ![N]⟩ 0) (q : Fin N) (r : Fin n) :
    (r.val = q.val → concatenate ⟨1, ![N]⟩ 0 [⟨⟨1, ![n]⟩, X0⟩, ⟨⟨1, ![n]⟩, X1⟩, ⟨⟨1, ![n]⟩, X2⟩] h (ix1 q) = X0 (ix1 r))
    ∧ (n + r.val = q.val → concatenate ⟨1, ![N]⟩ 0 [⟨⟨1, ![n]⟩, X0⟩, ⟨⟨1, ![n]⟩, X1⟩, ⟨⟨1, ![n]⟩, X2⟩] h (ix1 q) = X1 (ix1 r))
    ∧ (n + n + r.val = q.val → concatenate ⟨1, ![N]⟩ 0 [⟨⟨1, ![n]⟩, X0⟩, ⟨⟨1, ![n]⟩, X1⟩, ⟨⟨1, ![n]⟩, X2⟩] h (ix1 q) = X2 (ix1 r)) := by
  have key := concatenate_apply_piece (t := ⟨1, ![N]⟩) (0 : Fin 1)
    ([⟨⟨1, ![n]⟩, X0⟩, ⟨⟨1, ![n]⟩, X1⟩, ⟨⟨1, ![n]⟩, X2⟩] : List ((s : Shape) × (s.Idx → α))) h (ix1 q)
  have hoff : ∀ bb : Fin 1, bb.cast (rfl : (1 : Nat) = 1) ≠ (0 : Fin 1) → ((ix1 r : (⟨1, ![n]⟩ : Shape).Idx) bb).val = ((ix1 q : (⟨1, ![N]⟩ : Shape).Idx) (bb.cast rfl)).val :=
    fun bb hb => absurd (Subsingleton.elim _ _) hb
  refine ⟨fun hq => ?_, fun hq => ?_, fun hq => ?_⟩
  · exact key 0 (by show 0 < 3; omega) ⟨1, ![n]⟩ X0 rfl rfl 0 rfl (ix1 r) hoff (by show 0 + r.val = q.val; omega)
  · exact key 1 (by show 1 < 3; omega) ⟨1, ![n]⟩ X1 rfl rfl n (by simp) (ix1 r) hoff (by show n + r.val = q.val; omega)
  · exact key 2 (by show 2 < 3; omega) ⟨1, ![n]⟩ X2 rfl rfl (n + n) (by simp) (ix1 r) hoff (by show n + n + r.val = q.val; omega)

/-- Three [n, b] matrices stacked by rows, at (q, e), when row q = pre + r falls in piece k (pre = k · n). -/
theorem concat3_rows_apply {n N b : Nat} (X0 X1 X2 : (⟨2, ![n, b]⟩ : Shape).Idx → α)
    (h : Shape.Concatenates [(⟨2, ![n, b]⟩ : Shape), ⟨2, ![n, b]⟩, ⟨2, ![n, b]⟩] ⟨2, ![N, b]⟩ 0) (q : Fin N) (e : Fin b) (r : Fin n) :
    (r.val = q.val → concatenate ⟨2, ![N, b]⟩ 0 [⟨⟨2, ![n, b]⟩, X0⟩, ⟨⟨2, ![n, b]⟩, X1⟩, ⟨⟨2, ![n, b]⟩, X2⟩] h (ix2 q e) = X0 (ix2 r e))
    ∧ (n + r.val = q.val → concatenate ⟨2, ![N, b]⟩ 0 [⟨⟨2, ![n, b]⟩, X0⟩, ⟨⟨2, ![n, b]⟩, X1⟩, ⟨⟨2, ![n, b]⟩, X2⟩] h (ix2 q e) = X1 (ix2 r e))
    ∧ (n + n + r.val = q.val → concatenate ⟨2, ![N, b]⟩ 0 [⟨⟨2, ![n, b]⟩, X0⟩, ⟨⟨2, ![n, b]⟩, X1⟩, ⟨⟨2, ![n, b]⟩, X2⟩] h (ix2 q e) = X2 (ix2 r e)) := by
  have hoff : ∀ bb : Fin 2, bb.cast (rfl : (2 : Nat) = 2) ≠ (0 : Fin 2) → ((ix2 r e : (⟨2, ![n, b]⟩ : Shape).Idx) bb).val = ((ix2 q e : (⟨2, ![N, b]⟩ : Shape).Idx) (bb.cast rfl)).val := by
    intro bb hb
    match bb with
    | ⟨0, _⟩ => exact absurd rfl hb
    | ⟨1, _⟩ => rfl
  have key := concatenate_apply_piece (t := ⟨2, ![N, b]⟩) (0 : Fin 2)
    ([⟨⟨2, ![n, b]⟩, X0⟩, ⟨⟨2, ![n, b]⟩, X1⟩, ⟨⟨2, ![n, b]⟩, X2⟩] : List ((s : Shape) × (s.Idx → α))) h (ix2 q e)
  refine ⟨fun hq => ?_, fun hq => ?_, fun hq => ?_⟩
  · exact key 0 (by show 0 < 3; omega) ⟨2, ![n, b]⟩ X0 rfl rfl 0 rfl (ix2 r e) hoff (by show 0 + r.val = q.val; omega)
  · exact key 1 (by show 1 < 3; omega) ⟨2, ![n, b]⟩ X1 rfl rfl n (by simp) (ix2 r e) hoff (by show n + r.val = q.val; omega)
  · exact key 2 (by show 2 < 3; omega) ⟨2, ![n, b]⟩ X2 rfl rfl (n + n) (by simp) (ix2 r e) hoff (by show n + n + r.val = q.val; omega)

end Concat3

end Cert.Lib

end
-- ==== Proof.LibThreeCols.lean ====
/-
  THREE MATRICES SIDE BY SIDE, AND A ROW BLOCK OF A MATRIX, READ AT AN ENTRY.

  Three matrices with the same R rows and A, B and C columns, concatenated along the columns into one R-by-T matrix:
  column k < A is the first one's column k, column A + k (k < B) the second one's column k, column A + B + k (k < C)
  the third one's column k. And rows off, …, off + a' − 1 of an n-by-b matrix cut out as an a'-by-b block: entry (q, k)
  is the matrix's entry (off + q, k). Generic in every size.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- Column kk = k < A of the three laid side by side is the first matrix's column k. -/
theorem concatenate_cols3_first {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin A) (kk : Fin T) (hk : kk.val = k.val) :
    concatenate ⟨2, ![R, T]⟩ 1 [⟨⟨2, ![R, A]⟩, a⟩, ⟨⟨2, ![R, B]⟩, b⟩, ⟨⟨2, ![R, C]⟩, c⟩] h (ix2 r kk) = a (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    0 (by show (0 : Nat) < 3; omega) ⟨2, ![R, A]⟩ a rfl rfl 0 rfl (ix2 r k)
    (fun d => match d with
      | ⟨0, _⟩ => fun _ => rfl
      | ⟨1, _⟩ => fun hd => absurd rfl hd)
    (show 0 + k.val = kk.val by omega)

/-- Column kk = A + k, k < B, is the second matrix's column k. -/
theorem concatenate_cols3_second {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin B) (kk : Fin T) (hk : kk.val = A + k.val) :
    concatenate ⟨2, ![R, T]⟩ 1 [⟨⟨2, ![R, A]⟩, a⟩, ⟨⟨2, ![R, B]⟩, b⟩, ⟨⟨2, ![R, C]⟩, c⟩] h (ix2 r kk) = b (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    1 (by show (1 : Nat) < 3; omega) ⟨2, ![R, B]⟩ b rfl rfl A rfl (ix2 r k)
    (fun d => match d with
      | ⟨0, _⟩ => fun _ => rfl
      | ⟨1, _⟩ => fun hd => absurd rfl hd)
    (show A + k.val = kk.val by omega)

/-- Column kk = A + B + k, k < C, is the third matrix's column k. -/
theorem concatenate_cols3_third {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin C) (kk : Fin T) (hk : kk.val = A + B + k.val) :
    concatenate ⟨2, ![R, T]⟩ 1 [⟨⟨2, ![R, A]⟩, a⟩, ⟨⟨2, ![R, B]⟩, b⟩, ⟨⟨2, ![R, C]⟩, c⟩] h (ix2 r kk) = c (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    2 (by show (2 : Nat) < 3; omega) ⟨2, ![R, C]⟩ c rfl rfl (A + B) rfl (ix2 r k)
    (fun d => match d with
      | ⟨0, _⟩ => fun _ => rfl
      | ⟨1, _⟩ => fun hd => absurd rfl hd)
    (show A + B + k.val = kk.val by omega)

/-- Rows off … of an n-by-b matrix cut out as an a'-by-b block at column offset 0: at (q, k), the matrix at
    (off + q, k). -/
theorem rows_block_apply {n b a' : Nat} (off : Nat) (X : (⟨2, ![n, b]⟩ : Shape).Idx → α)
    (hs : (⟨2, ![n, b]⟩ : Shape).Slices ![off, 0] ⟨2, ![a', b]⟩) (q : Fin a') (k : Fin b) (pp : Fin n)
    (hp : pp.val = off + q.val) :
    extractStridedSlice ⟨2, ![a', b]⟩ ![off, 0] X hs (ix2 q k) = X (ix2 pp k) :=
  extractStridedSlice_apply ![off, 0] X hs (ix2 q k) (ix2 pp k) (fun d => match d with
    | ⟨0, _⟩ => hp
    | ⟨1, _⟩ => (Nat.zero_add _).symm)

end Cert.Lib

end
-- ==== Proof.HostReads.lean ====
/-
  What the host operations around the two launches leave, read at an index, over the extended reals.

  Before the projection launch: the three weight matrices are laid side by side as one [1024, 3072]
  matrix (a change of float format is the identity on the extended reals), and the input
  [4, 2048, 1024] is re-laid as 8192 rows, row 2048·b + t being position t of batch b.
  Before the attention launch: each projected [8192, 1024] array is re-laid as [4, 2048, 1024] the
  same way.
-/
import proofs.«102304_j24240795419222_2_alg».proof.Proof.Run
import proofs.«102304_j24240795419222_2_alg».proof.Proof.LibThreePieces
import proofs.«102304_j24240795419222_2_alg».proof.Proof.LibThreeCols
import Idealize.ShloMosaic.Lib.ValueIdx
import Idealize.ShloMosaic.Lib.Pipeline.Value

noncomputable section

namespace Cert.KernelIdeal.Hand

open Idealize.ShloMosaic Idealize.ShloMosaic.TcCoe Idealize.ShloMosaic.StableHlo Idealize.ShloMosaic.ValueIdx
open Idealize.SL.Sem
open Cert.KernelIdeal Cert.KernelIdeal.Gen Cert.Lib

variable (m : (ℓ : Loc nD τ sig) → Buf (Elt Ideal) ℓ)

/-- The input as 8192 rows: the re-laid argument. -/
theorem V1_v2_eq (c : Dev nD) :
    (V1 (F := Ideal) m c main_v2 : S8192x1024.Idx → EReal)
      = shapeCast S8192x1024 (m ((c : Thread nD τ).loc main_arg0) : S4x2048x1024.Idx → EReal) shapeCasts_S4x2048x1024_S8192x1024 := by
  dsimp only [V1, W1, W0, hostOps0]
  after_results3
  rfl

/-- Row 2048·b + t of the re-laid input is position t of batch b. -/
theorem V1_v2_apply (c : Dev nD) (p : Fin 8192) (d : Fin 1024) (b : Fin 4) (t : Fin 2048) (hp : p.val = 2048 * b.val + t.val) :
    (V1 (F := Ideal) m c main_v2 : S8192x1024.Idx → EReal) (ix2 p d)
      = (m ((c : Thread nD τ).loc main_arg0) : S4x2048x1024.Idx → EReal) (ix3 b t d) := by
  rw [V1_v2_eq]
  refine shapeCast_apply _ _ _ (ix3 b t d) ?_
  rw [Shape.rowMajor_val_three, Shape.rowMajor_val_two]
  show (b.val * 2048 + t.val) * 1024 + d.val = p.val * 1024 + d.val
  omega

/-- The weights side by side. -/
theorem V1_v1_eq (c : Dev nD) :
    (V1 (F := Ideal) m c main_v1 : S1024x3072.Idx → EReal)
      = concatenate S1024x3072 1
          [⟨S1024x1024, (m ((c : Thread nD τ).loc main_arg1) : S1024x1024.Idx → EReal)⟩,
           ⟨S1024x1024, (m ((c : Thread nD τ).loc main_arg2) : S1024x1024.Idx → EReal)⟩,
           ⟨S1024x1024, (m ((c : Thread nD τ).loc main_arg3) : S1024x1024.Idx → EReal)⟩]
          concatenates_S1024x1024_S1024x1024_S1024x1024_S1024x3072_d1 := by
  dsimp only [V1, W1, W0, hostOps0]
  after_results3
  rfl

/-- Columns 0..1023 of the side-by-side weights are the first matrix. -/
theorem V1_v1_first (c : Dev nD) (d q : Fin 1024) (qq : Fin 3072) (hq : qq.val = q.val) :
    (V1 (F := Ideal) m c main_v1 : S1024x3072.Idx → EReal) (ix2 d qq)
      = (m ((c : Thread nD τ).loc main_arg1) : S1024x1024.Idx → EReal) (ix2 d q) := by
  rw [V1_v1_eq]
  exact concatenate_cols3_first _ _ _ _ d q qq hq

/-- Columns 1024..2047 are the second matrix. -/
theorem V1_v1_second (c : Dev nD) (d q : Fin 1024) (qq : Fin 3072) (hq : qq.val = 1024 + q.val) :
    (V1 (F := Ideal) m c main_v1 : S1024x3072.Idx → EReal) (ix2 d qq)
      = (m ((c : Thread nD τ).loc main_arg2) : S1024x1024.Idx → EReal) (ix2 d q) := by
  rw [V1_v1_eq]
  exact concatenate_cols3_second _ _ _ _ d q qq hq

/-- Columns 2048..3071 are the third matrix. -/
theorem V1_v1_third (c : Dev nD) (d q : Fin 1024) (qq : Fin 3072) (hq : qq.val = 1024 + 1024 + q.val) :
    (V1 (F := Ideal) m c main_v1 : S1024x3072.Idx → EReal) (ix2 d qq)
      = (m ((c : Thread nD τ).loc main_arg3) : S1024x1024.Idx → EReal) (ix2 d q) := by
  rw [V1_v1_eq]
  exact concatenate_cols3_third _ _ _ _ d q qq hq

/-- A projected array re-laid as [4, 2048, 1024]: entry (b, t, e) is row 2048·b + t, column e. -/
theorem relaid_apply (Y : S8192x1024.Idx → EReal) (p : Fin 8192) (e : Fin 1024) (b : Fin 4) (t : Fin 2048)
    (hp : p.val = 2048 * b.val + t.val) :
    shapeCast S4x2048x1024 Y shapeCasts_S8192x1024_S4x2048x1024 (ix3 b t e) = Y (ix2 p e) := by
  refine shapeCast_apply _ _ _ (ix2 p e) ?_
  rw [Shape.rowMajor_val_three, Shape.rowMajor_val_two]
  show p.val * 1024 + e.val = (b.val * 2048 + t.val) * 1024 + e.val
  omega

theorem V3_v4_eq (c : Dev nD) :
    (V3 (F := Ideal) m c main_v4 : S4x2048x1024.Idx → EReal)
      = shapeCast S4x2048x1024 (V2 (F := Ideal) m c main_v3_0 : S8192x1024.Idx → EReal) shapeCasts_S8192x1024_S4x2048x1024 := by
  dsimp only [V3, W3, hostOps1]
  after_results3
  rfl

theorem V3_v5_eq (c : Dev nD) :
    (V3 (F := Ideal) m c main_v5 : S4x2048x1024.Idx → EReal)
      = shapeCast S4x2048x1024 (V2 (F := Ideal) m c main_v3_1 : S8192x1024.Idx → EReal) shapeCasts_S8192x1024_S4x2048x1024 := by
  dsimp only [V3, W3, hostOps1]
  after_results3
  rfl

theorem V3_v6_eq (c : Dev nD) :
    (V3 (F := Ideal) m c main_v6 : S4x2048x1024.Idx → EReal)
      = shapeCast S4x2048x1024 (V2 (F := Ideal) m c main_v3_2 : S8192x1024.Idx → EReal) shapeCasts_S8192x1024_S4x2048x1024 := by
  dsimp only [V3, W3, hostOps1]
  after_results3
  rfl

end Cert.KernelIdeal.Hand

end
-- ==== Proof.PayProj.lean ====
/-
  The projection kernel's payload terms read at an index, over the extended reals.

  The body multiplies the 512 x 1024 block of x (narrowed to the 16-bit format, which changes nothing on
  the extended reals) with the whole 1024 x 3072 matrix w = [Wq | Wk | Wv] into a zero accumulator, and
  stores the three column ranges [0, 1024), [1024, 2048), [2048, 3072) of the product. At an index each
  stored entry is the dot product of a row of x with a column of w.
-/
import proofs.«102304_j24240795419222_2_alg».proof.Proof.Gen.KernelIdeal.Skeleton
import Idealize.ShloMosaic.Lib.ValueIdx
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-! ## The operand indices of the [512, 1024] x [1024, 3072] product -/

theorem projDot_lhs0 (j : S512x3072.Idx) (k : dot_S512x1024_S1024x3072_S512x3072_1_0_0_1_n_n.contr.Idx) :
    (dot_S512x1024_S1024x3072_S512x3072_1_0_0_1_n_n.lhsIdx j k 0).val = (j 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

theorem projDot_lhs1 (j : S512x3072.Idx) (k : dot_S512x1024_S1024x3072_S512x3072_1_0_0_1_n_n.contr.Idx) :
    (dot_S512x1024_S1024x3072_S512x3072_1_0_0_1_n_n.lhsIdx j k 1).val = (k ⟨0, by decide⟩).val :=
  dot_S512x1024_S1024x3072_S512x3072_1_0_0_1_n_n.lhsIdx_val_of_single rfl j k

theorem projDot_rhs0 (j : S512x3072.Idx) (k : dot_S512x1024_S1024x3072_S512x3072_1_0_0_1_n_n.contr.Idx) :
    (dot_S512x1024_S1024x3072_S512x3072_1_0_0_1_n_n.rhsIdx j k 0).val = (k ⟨0, by decide⟩).val :=
  dot_S512x1024_S1024x3072_S512x3072_1_0_0_1_n_n.rhsIdx_val_of_single rfl j k

theorem projDot_rhs1 (j : S512x3072.Idx) (k : dot_S512x1024_S1024x3072_S512x3072_1_0_0_1_n_n.contr.Idx) :
    (dot_S512x1024_S1024x3072_S512x3072_1_0_0_1_n_n.rhsIdx j k 1).val = (j 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-! ## The product at an index -/

/-- Entry (p, q) of the product: row p of x against column q of w. -/
theorem k0_pay1_apply (x : Vec Ideal S512x1024 .f32) (w : Vec Ideal S1024x3072 .bf16) (p : Fin 512) (q : Fin 3072) :
    k0_pay1 x w (ix2 p q) = ∑ d : Fin 1024, x (ix2 p d) * w (ix2 d q) := by
  unfold k0_pay1
  simp only [shapeCast_self]
  refine (Ideal.matmul_constant_zero_apply (φ₁ := .bf16) (φ₂ := .bf16) dot_S512x1024_S1024x3072_S512x3072_1_0_0_1_n_n none _ _ (ix2 p q)).trans ?_
  rw [← Equiv.sum_comp (contrEquiv1 dot_S512x1024_S1024x3072_S512x3072_1_0_0_1_n_n 1024 rfl rfl).symm]
  refine Finset.sum_congr rfl fun d _ => ?_
  have hk := contrEquiv1_symm_val dot_S512x1024_S1024x3072_S512x3072_1_0_0_1_n_n 1024 rfl rfl d
  have el : dot_S512x1024_S1024x3072_S512x3072_1_0_0_1_n_n.lhsIdx (ix2 p q)
      ((contrEquiv1 dot_S512x1024_S1024x3072_S512x3072_1_0_0_1_n_n 1024 rfl rfl).symm d) = ix2 p d :=
    funext fun a => Fin.ext (by
      match a with
      | ⟨0, _⟩ => exact projDot_lhs0 _ _
      | ⟨1, _⟩ => exact (projDot_lhs1 _ _).trans hk)
  have er : dot_S512x1024_S1024x3072_S512x3072_1_0_0_1_n_n.rhsIdx (ix2 p q)
      ((contrEquiv1 dot_S512x1024_S1024x3072_S512x3072_1_0_0_1_n_n 1024 rfl rfl).symm d) = ix2 d q :=
    funext fun a => Fin.ext (by
      match a with
      | ⟨0, _⟩ => exact (projDot_rhs0 _ _).trans hk
      | ⟨1, _⟩ => exact projDot_rhs1 _ _)
  rw [el, er]
  rfl

/-! ## The three stored column ranges -/

/-- The first stored block, columns [0, 1024) of the product. -/
theorem k0_pay2_apply (x : Vec Ideal S512x1024 .f32) (w : Vec Ideal S1024x3072 .bf16) (p : Fin 512) (q : Fin 1024) :
    k0_pay2 x w (ix2 p q) = ∑ d : Fin 1024, x (ix2 p d) * w (ix2 d ⟨q.val, by omega⟩) := by
  unfold k0_pay2
  refine (slice2_axis1_apply 0 (k0_pay1 x w) slices_S512x3072_o0_0_S512x1024 p q ⟨q.val, by omega⟩ (Nat.zero_add _).symm).trans ?_
  exact k0_pay1_apply x w p _

/-- The second stored block, columns [1024, 2048) of the product. -/
theorem k0_pay3_apply (x : Vec Ideal S512x1024 .f32) (w : Vec Ideal S1024x3072 .bf16) (p : Fin 512) (q : Fin 1024) :
    k0_pay3 x w (ix2 p q) = ∑ d : Fin 1024, x (ix2 p d) * w (ix2 d ⟨1024 + q.val, by omega⟩) := by
  unfold k0_pay3
  refine (slice2_axis1_apply 1024 (k0_pay1 x w) slices_S512x3072_o0_1024_S512x1024 p q ⟨1024 + q.val, by omega⟩ rfl).trans ?_
  exact k0_pay1_apply x w p _

/-- The third stored block, columns [2048, 3072) of the product. -/
theorem k0_pay4_apply (x : Vec Ideal S512x1024 .f32) (w : Vec Ideal S1024x3072 .bf16) (p : Fin 512) (q : Fin 1024) :
    k0_pay4 x w (ix2 p q) = ∑ d : Fin 1024, x (ix2 p d) * w (ix2 d ⟨2048 + q.val, by omega⟩) := by
  unfold k0_pay4
  refine (slice2_axis1_apply 2048 (k0_pay1 x w) slices_S512x3072_o0_2048_S512x1024 p q ⟨2048 + q.val, by omega⟩ rfl).trans ?_
  exact k0_pay1_apply x w p _

end Cert.KernelIdeal.Pay

end
-- ==== Proof.Val0.lean ====
/-
  The projection launch, read as values over the extended reals: after it, each of its three output
  arrays holds one third of the columns of the product of the re-laid input (8192 rows) with the
  side-by-side weights — entry (p, e) of the array for column offset off is
  ∑ d, x (p, d) · w (d, off + e). Point t of the 16 writes rows 512·t .. 512·t + 511; the blocks tile
  the arrays, so each array is one whole function of what the launch found.
-/
import proofs.«102304_j24240795419222_2_alg».proof.Proof.HostReads
import proofs.«102304_j24240795419222_2_alg».proof.Proof.PayProj

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

theorem hz0 : (![0, 0] : Fin 2 → Nat) = fun _ => 0 := funext fun a => by fin_cases a <;> rfl

/-- The re-laid input the launch finds: 8192 rows of 1024 features. -/
def xRows (c : Dev nD) : S8192x1024.Idx → EReal := V1 (F := Ideal) m c main_v2
/-- The side-by-side weights the launch finds. -/
def wCols (c : Dev nD) : S1024x3072.Idx → EReal := V1 (F := Ideal) m c main_v1

theorem xRows_apply (c : Dev nD) (p : Fin 8192) (d : Fin 1024) (b : Fin 4) (t : Fin 2048) (hp : p.val = 2048 * b.val + t.val) :
    xRows m c (ix2 p d) = (m ((c : Thread nD τ).loc main_arg0) : S4x2048x1024.Idx → EReal) (ix3 b t d) :=
  V1_v2_apply m c p d b t hp
theorem wCols_first (c : Dev nD) (d q : Fin 1024) (qq : Fin 3072) (hq : qq.val = q.val) :
    wCols m c (ix2 d qq) = (m ((c : Thread nD τ).loc main_arg1) : S1024x1024.Idx → EReal) (ix2 d q) :=
  V1_v1_first m c d q qq hq
theorem wCols_second (c : Dev nD) (d q : Fin 1024) (qq : Fin 3072) (hq : qq.val = 1024 + q.val) :
    wCols m c (ix2 d qq) = (m ((c : Thread nD τ).loc main_arg2) : S1024x1024.Idx → EReal) (ix2 d q) :=
  V1_v1_second m c d q qq hq
theorem wCols_third (c : Dev nD) (d q : Fin 1024) (qq : Fin 3072) (hq : qq.val = 1024 + 1024 + q.val) :
    wCols m c (ix2 d qq) = (m ((c : Thread nD τ).loc main_arg3) : S1024x1024.Idx → EReal) (ix2 d q) :=
  V1_v1_third m c d q qq hq

/-- Entry (p, e) of the product's columns off .. off + 1023, from what the launch finds in the re-laid
    input and the side-by-side weights. -/
def projArr (c : Dev nD) (off : ℕ) (hoff : off + 1024 ≤ 3072) : S8192x1024.Idx → EReal := fun i =>
  ∑ d : Fin 1024, xRows m c (ix2 (i 0) d)
    * wCols m c (ix2 d ⟨off + (i 1).val, by have h : (i 1).val < 1024 := (i 1).isLt; omega⟩)

/-- The printed index maps over the 16 points: the input block and the three output blocks move
    together down the rows; the weights' block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Output window 2: columns 0 .. 0+1023 of the product -/

/-- The body's stored block at a block index j. -/
theorem pay2_at (x : Vec Ideal S512x1024 .f32) (wt : Vec Ideal S1024x3072 .bf16) (j : S512x1024.Idx) :
    k0_pay2 x wt j = ∑ d : Fin 1024, x (ix2 (j 0) d) * wt (ix2 d ⟨(j 1).val, by have hj : (j 1).val < 1024 := (j 1).isLt; omega⟩) := by
  rw [eq_ix2 j]
  exact Pay.k0_pay2_apply x wt (j 0) (j 1)

/-- What point t writes back into window 2's array is block t of the product. -/
theorem flushed0_2_eq (c : Dev nD) (t : Fin cfg0.N) :
    (dat0 (V1 (F := Ideal) m) c).flushed 2 t = ((cfg0.win 2).blk t).view.read (Elt Ideal) (projArr m c 0 (by omega)) := by
  show (cfg0.win 2).cut (grid0.coords t) ((dat0 (V1 (F := Ideal) m) c).after 2 t) = _
  rw [after0_2]
  unfold out0_2
  rw [View.canon_unit_zero hz0]
  simp only [View.ld_unit_zero (S := S512x1024) hz0, View.ld_unit_zero (S := S1024x3072) hz0]
  obtain ⟨e0, e1, e2, e3, e4, e5, e6, e7, e8, e9⟩ := idx_facts0 t
  funext j
  refine (pay2_at _ _ j).trans ?_
  show ∑ d : Fin 1024, xRows m c (((cfg0.win 0).blk t).view.emb (ix2 (j 0) d))
        * wCols m c (((cfg0.win 1).blk t).view.emb (ix2 d ⟨(j 1).val, by have hj : (j 1).val < 1024 := (j 1).isLt; omega⟩))
      = projArr m c 0 (by omega) (((cfg0.win 2).blk t).view.emb j)
  unfold projArr
  refine Finset.sum_congr rfl fun d _ => ?_
  have h0 : ((cfg0.win 0).blk t).view.emb (ix2 (j 0) d) = ix2 ((((cfg0.win 2).blk t).view.emb j) 0) d := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * d.val = d.val; omega
  have h1 : ((cfg0.win 1).blk t).view.emb (ix2 d ⟨(j 1).val, by have hj : (j 1).val < 1024 := (j 1).isLt; omega⟩)
      = ix2 d ⟨0 + ((((cfg0.win 2).blk t).view.emb j) 1).val, by
          have hj : (j 1).val < 1024 := (j 1).isLt
          show 0 + (win0_2.index t (1 : Fin 2) * 1024 + 1 * (j 1).val) < 3072; omega⟩ := by
    funext a; apply Fin.ext
    match a with
    | ⟨0, _⟩ => show win0_1.index t (0 : Fin 2) * 1024 + 1 * d.val = d.val; omega
    | ⟨1, _⟩ =>
      show win0_1.index t (1 : Fin 2) * 3072 + 1 * ((j 1).val) = 0 + (win0_2.index t (1 : Fin 2) * 1024 + 1 * (j 1).val)
      omega
  exact congrArg₂ (· * ·) (congrArg (xRows m c) h0) (congrArg (wCols m c) h1)

theorem mem_blk0_2 (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3_0).slice (win0_2.rect t)).set ↔ _
  rw [View.set_slice_whole, Rect.mem_set_unit]
  exact Iff.rfl

/-- Every entry of the array is in the block of the point its row falls in. -/
theorem cover0_2 (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_2 _, ?_⟩
  obtain ⟨e0, e1, e2, e3, e4, e5, e6, e7, e8, e9⟩ := idx_facts0 ⟨(i 0).val / 512, by rw [hN]; omega⟩
  rw [mem_blk0_2]
  intro a
  match a with
  | ⟨0, _⟩ => show win0_2.index _ (0 : Fin 2) * 512 ≤ (i 0).val ∧ (i 0).val < win0_2.index _ (0 : Fin 2) * 512 + 512; (try dsimp only at *); omega
  | ⟨1, _⟩ => show win0_2.index _ (1 : Fin 2) * 1024 ≤ (i 1).val ∧ (i 1).val < win0_2.index _ (1 : Fin 2) * 1024 + 1024; omega

/-- After the projection launch window 2's array holds its third of the product. -/
theorem final0_2 (c : Dev nD) : (dat0 (V1 (F := Ideal) m) c).arrAt 2 cfg0.N = projArr m c 0 (by omega) :=
  (dat0 (V1 (F := Ideal) m) c).arrAt_eq_of_cover 2 (projArr m c 0 (by omega)) (fun t _ => flushed0_2_eq m c t) cover0_2

/-! ## Output window 3: columns 1024 .. 1024+1023 of the product -/

/-- The body's stored block at a block index j. -/
theorem pay3_at (x : Vec Ideal S512x1024 .f32) (wt : Vec Ideal S1024x3072 .bf16) (j : S512x1024.Idx) :
    k0_pay3 x wt j = ∑ d : Fin 1024, x (ix2 (j 0) d) * wt (ix2 d ⟨1024 + (j 1).val, by have hj : (j 1).val < 1024 := (j 1).isLt; omega⟩) := by
  rw [eq_ix2 j]
  exact Pay.k0_pay3_apply x wt (j 0) (j 1)

/-- What point t writes back into window 3's array is block t of the product. -/
theorem flushed0_3_eq (c : Dev nD) (t : Fin cfg0.N) :
    (dat0 (V1 (F := Ideal) m) c).flushed 3 t = ((cfg0.win 3).blk t).view.read (Elt Ideal) (projArr m c 1024 (by omega)) := by
  show (cfg0.win 3).cut (grid0.coords t) ((dat0 (V1 (F := Ideal) m) c).after 3 t) = _
  rw [after0_3]
  unfold out0_3
  rw [View.canon_unit_zero hz0]
  simp only [View.ld_unit_zero (S := S512x1024) hz0, View.ld_unit_zero (S := S1024x3072) hz0]
  obtain ⟨e0, e1, e2, e3, e4, e5, e6, e7, e8, e9⟩ := idx_facts0 t
  funext j
  refine (pay3_at _ _ j).trans ?_
  show ∑ d : Fin 1024, xRows m c (((cfg0.win 0).blk t).view.emb (ix2 (j 0) d))
        * wCols m c (((cfg0.win 1).blk t).view.emb (ix2 d ⟨1024 + (j 1).val, by have hj : (j 1).val < 1024 := (j 1).isLt; omega⟩))
      = projArr m c 1024 (by omega) (((cfg0.win 3).blk t).view.emb j)
  unfold projArr
  refine Finset.sum_congr rfl fun d _ => ?_
  have h0 : ((cfg0.win 0).blk t).view.emb (ix2 (j 0) d) = ix2 ((((cfg0.win 3).blk t).view.emb j) 0) d := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * d.val = d.val; omega
  have h1 : ((cfg0.win 1).blk t).view.emb (ix2 d ⟨1024 + (j 1).val, by have hj : (j 1).val < 1024 := (j 1).isLt; omega⟩)
      = ix2 d ⟨1024 + ((((cfg0.win 3).blk t).view.emb j) 1).val, by
          have hj : (j 1).val < 1024 := (j 1).isLt
          show 1024 + (win0_3.index t (1 : Fin 2) * 1024 + 1 * (j 1).val) < 3072; omega⟩ := by
    funext a; apply Fin.ext
    match a with
    | ⟨0, _⟩ => show win0_1.index t (0 : Fin 2) * 1024 + 1 * d.val = d.val; omega
    | ⟨1, _⟩ =>
      show win0_1.index t (1 : Fin 2) * 3072 + 1 * (1024 + (j 1).val) = 1024 + (win0_3.index t (1 : Fin 2) * 1024 + 1 * (j 1).val)
      omega
  exact congrArg₂ (· * ·) (congrArg (xRows m c) h0) (congrArg (wCols m c) h1)

theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_1).slice (win0_3.rect t)).set ↔ _
  rw [View.set_slice_whole, Rect.mem_set_unit]
  exact Iff.rfl

/-- Every entry of the array is in the block of the point its row falls in. -/
theorem cover0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_3 _, ?_⟩
  obtain ⟨e0, e1, e2, e3, e4, e5, e6, e7, e8, e9⟩ := idx_facts0 ⟨(i 0).val / 512, by rw [hN]; omega⟩
  rw [mem_blk0_3]
  intro a
  match a with
  | ⟨0, _⟩ => show win0_3.index _ (0 : Fin 2) * 512 ≤ (i 0).val ∧ (i 0).val < win0_3.index _ (0 : Fin 2) * 512 + 512; (try dsimp only at *); omega
  | ⟨1, _⟩ => show win0_3.index _ (1 : Fin 2) * 1024 ≤ (i 1).val ∧ (i 1).val < win0_3.index _ (1 : Fin 2) * 1024 + 1024; omega

/-- After the projection launch window 3's array holds its third of the product. -/
theorem final0_3 (c : Dev nD) : (dat0 (V1 (F := Ideal) m) c).arrAt 3 cfg0.N = projArr m c 1024 (by omega) :=
  (dat0 (V1 (F := Ideal) m) c).arrAt_eq_of_cover 3 (projArr m c 1024 (by omega)) (fun t _ => flushed0_3_eq m c t) cover0_3

/-! ## Output window 4: columns 2048 .. 2048+1023 of the product -/

/-- The body's stored block at a block index j. -/
theorem pay4_at (x : Vec Ideal S512x1024 .f32) (wt : Vec Ideal S1024x3072 .bf16) (j : S512x1024.Idx) :
    k0_pay4 x wt j = ∑ d : Fin 1024, x (ix2 (j 0) d) * wt (ix2 d ⟨2048 + (j 1).val, by have hj : (j 1).val < 1024 := (j 1).isLt; omega⟩) := by
  rw [eq_ix2 j]
  exact Pay.k0_pay4_apply x wt (j 0) (j 1)

/-- What point t writes back into window 4's array is block t of the product. -/
theorem flushed0_4_eq (c : Dev nD) (t : Fin cfg0.N) :
    (dat0 (V1 (F := Ideal) m) c).flushed 4 t = ((cfg0.win 4).blk t).view.read (Elt Ideal) (projArr m c 2048 (by omega)) := by
  show (cfg0.win 4).cut (grid0.coords t) ((dat0 (V1 (F := Ideal) m) c).after 4 t) = _
  rw [after0_4]
  unfold out0_4
  rw [View.canon_unit_zero hz0]
  simp only [View.ld_unit_zero (S := S512x1024) hz0, View.ld_unit_zero (S := S1024x3072) hz0]
  obtain ⟨e0, e1, e2, e3, e4, e5, e6, e7, e8, e9⟩ := idx_facts0 t
  funext j
  refine (pay4_at _ _ j).trans ?_
  show ∑ d : Fin 1024, xRows m c (((cfg0.win 0).blk t).view.emb (ix2 (j 0) d))
        * wCols m c (((cfg0.win 1).blk t).view.emb (ix2 d ⟨2048 + (j 1).val, by have hj : (j 1).val < 1024 := (j 1).isLt; omega⟩))
      = projArr m c 2048 (by omega) (((cfg0.win 4).blk t).view.emb j)
  unfold projArr
  refine Finset.sum_congr rfl fun d _ => ?_
  have h0 : ((cfg0.win 0).blk t).view.emb (ix2 (j 0) d) = ix2 ((((cfg0.win 4).blk t).view.emb j) 0) d := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * d.val = d.val; omega
  have h1 : ((cfg0.win 1).blk t).view.emb (ix2 d ⟨2048 + (j 1).val, by have hj : (j 1).val < 1024 := (j 1).isLt; omega⟩)
      = ix2 d ⟨2048 + ((((cfg0.win 4).blk t).view.emb j) 1).val, by
          have hj : (j 1).val < 1024 := (j 1).isLt
          show 2048 + (win0_4.index t (1 : Fin 2) * 1024 + 1 * (j 1).val) < 3072; omega⟩ := by
    funext a; apply Fin.ext
    match a with
    | ⟨0, _⟩ => show win0_1.index t (0 : Fin 2) * 1024 + 1 * d.val = d.val; omega
    | ⟨1, _⟩ =>
      show win0_1.index t (1 : Fin 2) * 3072 + 1 * (2048 + (j 1).val) = 2048 + (win0_4.index t (1 : Fin 2) * 1024 + 1 * (j 1).val)
      omega
  exact congrArg₂ (· * ·) (congrArg (xRows m c) h0) (congrArg (wCols m c) h1)

theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_2).slice (win0_4.rect t)).set ↔ _
  rw [View.set_slice_whole, Rect.mem_set_unit]
  exact Iff.rfl

/-- Every entry of the array is in the block of the point its row falls in. -/
theorem cover0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_4 _, ?_⟩
  obtain ⟨e0, e1, e2, e3, e4, e5, e6, e7, e8, e9⟩ := idx_facts0 ⟨(i 0).val / 512, by rw [hN]; omega⟩
  rw [mem_blk0_4]
  intro a
  match a with
  | ⟨0, _⟩ => show win0_4.index _ (0 : Fin 2) * 512 ≤ (i 0).val ∧ (i 0).val < win0_4.index _ (0 : Fin 2) * 512 + 512; (try dsimp only at *); omega
  | ⟨1, _⟩ => show win0_4.index _ (1 : Fin 2) * 1024 ≤ (i 1).val ∧ (i 1).val < win0_4.index _ (1 : Fin 2) * 1024 + 1024; omega

/-- After the projection launch window 4's array holds its third of the product. -/
theorem final0_4 (c : Dev nD) : (dat0 (V1 (F := Ideal) m) c).arrAt 4 cfg0.N = projArr m c 2048 (by omega) :=
  (dat0 (V1 (F := Ideal) m) c).arrAt_eq_of_cover 4 (projArr m c 2048 (by omega)) (fun t _ => flushed0_4_eq m c t) cover0_4

end Cert.KernelIdeal.Hand

end
-- ==== Proof.Spec.lean ====
/-
  The mathematics of causal attention with a running ("online") softmax, over the extended reals.

  A row of scaled scores L j (j over 2048 key positions; the entries after the query position are ⊥,
  minus infinity) and a row of values v j. The plain result is

      rowOut L v = ∑ j, (exp (L j - M) / ∑ j', exp (L j' - M)) * v j,   M = the supremum of the L j,

  with the extended exponential (exp ⊥ = 0) and the extended quotient. The tile-by-tile computation
  carries a running maximum, denominator and numerator through tiles of 512 columns, one `step` per
  tile, from (⊥, 0, 0).

  Attention itself: q, k, v are X·Wq, X·Wk, X·Wv (sums over the 1024 input features), the score of
  query i against key j is the dot product of their rows times 1/32 (1024 = 32², so dividing by
  sqrt 1024 is multiplying by 1/32), masked to ⊥ for j after i.
-/
import Mathlib
import Idealize.ShloMosaic.PureOps.Ideal

open scoped BigOperators
open Idealize.ShloMosaic

noncomputable section

namespace Cert.Attn

/-- One tile of the running softmax on extended-real scores s and values v (512 columns): the new
    maximum, the rescaled denominator plus this tile's exponentials, the rescaled numerator plus
    this tile's weighted values. -/
def step (st : EReal × EReal × EReal) (s v : Fin 512 → EReal) : EReal × EReal × EReal :=
  (max st.1 (Finset.univ.sup s),
   Ideal.exp (st.1 - max st.1 (Finset.univ.sup s)) * st.2.1
     + ∑ c, Ideal.exp (s c - max st.1 (Finset.univ.sup s)),
   Ideal.exp (st.1 - max st.1 (Finset.univ.sup s)) * st.2.2
     + ∑ c, Ideal.exp (s c - max st.1 (Finset.univ.sup s)) * v c)

/-- The plain softmax-weighted sum of a row. -/
def rowOut (L v : Fin 2048 → EReal) : EReal :=
  ∑ j, Ideal.div (Ideal.exp (L j - Finset.univ.sup L))
        (∑ j', Ideal.exp (L j' - Finset.univ.sup L)) * v j

/-- Key position 512 * kv + c. -/
def col (kv : Fin 4) (c : Fin 512) : Fin 2048 := ⟨512 * kv.val + c.val, by omega⟩

/-- The causal row of scores of query position i from unmasked scores sc: ⊥ after i. -/
def causal (sc : Fin 2048 → EReal) (i : Fin 2048) : Fin 2048 → EReal :=
  fun j => if j.val ≤ i.val then sc j else ⊥

/-- Tile kv of the scores as the kernel sees it for local row r of query tile qi: unmasked before
    the diagonal tile, masked to the columns c ≤ r on it. (Tiles after the diagonal are never
    visited.) -/
def tileScores (sc : Fin 2048 → EReal) (qi : Fin 4) (r : Fin 512) (kv : Fin 4) : Fin 512 → EReal :=
  fun c => if kv.val < qi.val then sc (col kv c) else if c.val ≤ r.val then sc (col kv c) else ⊥

/-- The running state after the first n tiles (n ≤ qi + 1) for local row r of query tile qi. -/
def flashRun (sc v : Fin 2048 → EReal) (qi : Fin 4) (r : Fin 512) : (n : ℕ) → n ≤ 4 → EReal × EReal × EReal
  | 0, _ => (⊥, 0, 0)
  | n + 1, h => step (flashRun sc v qi r n (Nat.le_of_succ_le h))
      (tileScores sc qi r ⟨n, h⟩) (fun c => v (col ⟨n, h⟩ c))

/-- Projection: (X·W) b t e. -/
def proj (X : Fin 4 → Fin 2048 → Fin 1024 → EReal) (W : Fin 1024 → Fin 1024 → EReal)
    (b : Fin 4) (t : Fin 2048) (e : Fin 1024) : EReal := ∑ d : Fin 1024, X b t d * W d e

/-- The scaled score of query i against key j in batch b. -/
def score (q k : Fin 4 → Fin 2048 → Fin 1024 → EReal) (b : Fin 4) (i j : Fin 2048) : EReal :=
  (∑ e : Fin 1024, q b i e * k b j e) * ((1 / 32 : ℝ) : EReal)

/-- Causal attention, entry (b, i, e). -/
def attn (X : Fin 4 → Fin 2048 → Fin 1024 → EReal) (Wq Wk Wv : Fin 1024 → Fin 1024 → EReal)
    (b : Fin 4) (i : Fin 2048) (e : Fin 1024) : EReal :=
  rowOut (causal (score (proj X Wq) (proj X Wk) b i) i) (fun j => proj X Wv b j e)

end Cert.Attn

end
-- ==== Proof.ValQKV.lean ====
/-
  What the attention launch is entered with: the three arrays q, k, v are the projections of the
  input by the three weight matrices — entry (b, t, e) of each is ∑ d, X (b, t, d) · W (d, e) —
  by the first launch's final arrays, the re-laying of 8192 rows as 4 batches of 2048, and the
  side-by-side weights read column by column.
-/
import proofs.«102304_j24240795419222_2_alg».proof.Proof.Val0
import proofs.«102304_j24240795419222_2_alg».proof.Proof.Spec

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The input argument by coordinates. -/
abbrev Xf (c : Dev nD) : Fin 4 → Fin 2048 → Fin 1024 → EReal :=
  fun b t d => (m ((c : Thread nD τ).loc main_arg0) : S4x2048x1024.Idx → EReal) (ix3 b t d)
/-- The weight arguments by coordinates. -/
abbrev Wqf (c : Dev nD) : Fin 1024 → Fin 1024 → EReal :=
  fun d e => (m ((c : Thread nD τ).loc main_arg1) : S1024x1024.Idx → EReal) (ix2 d e)
abbrev Wkf (c : Dev nD) : Fin 1024 → Fin 1024 → EReal :=
  fun d e => (m ((c : Thread nD τ).loc main_arg2) : S1024x1024.Idx → EReal) (ix2 d e)
abbrev Wvf (c : Dev nD) : Fin 1024 → Fin 1024 → EReal :=
  fun d e => (m ((c : Thread nD τ).loc main_arg3) : S1024x1024.Idx → EReal) (ix2 d e)

/-- The q array the attention launch finds. -/
def qArr (c : Dev nD) : S4x2048x1024.Idx → EReal := V3 (F := Ideal) m c main_v4

/-- Entry (b, t, e) of it is the projection of the input by the first weight matrix. -/
theorem q_apply (c : Dev nD) (b : Fin 4) (t : Fin 2048) (e : Fin 1024) :
    qArr m c (ix3 b t e) = Cert.Attn.proj (Xf m c) (Wqf m c) b t e := by
  have h1 : qArr m c (ix3 b t e) = projArr m c 0 (by omega) (ix2 ⟨2048 * b.val + t.val, by omega⟩ e) := by
    unfold qArr
    rw [V3_v4_eq, relaid_apply _ ⟨2048 * b.val + t.val, by omega⟩ e b t rfl]
    show (W2 (F := Ideal) m c (Proc.devRef .tc (Pipeline.arrRef spec0 2)) : S8192x1024.Idx → EReal) (ix2 ⟨2048 * b.val + t.val, by omega⟩ e) = _
    rw [W2_arr, final0_2]
  rw [h1]
  unfold projArr Cert.Attn.proj
  refine Finset.sum_congr rfl fun d _ => ?_
  rw [xRows_apply m c _ d b t rfl, wCols_first m c d e _ (Nat.zero_add _)]

/-- The k array the attention launch finds. -/
def kArr (c : Dev nD) : S4x2048x1024.Idx → EReal := V3 (F := Ideal) m c main_v5

/-- Entry (b, t, e) of it is the projection of the input by the second weight matrix. -/
theorem k_apply (c : Dev nD) (b : Fin 4) (t : Fin 2048) (e : Fin 1024) :
    kArr m c (ix3 b t e) = Cert.Attn.proj (Xf m c) (Wkf m c) b t e := by
  have h1 : kArr m c (ix3 b t e) = projArr m c 1024 (by omega) (ix2 ⟨2048 * b.val + t.val, by omega⟩ e) := by
    unfold kArr
    rw [V3_v5_eq, relaid_apply _ ⟨2048 * b.val + t.val, by omega⟩ e b t rfl]
    show (W2 (F := Ideal) m c (Proc.devRef .tc (Pipeline.arrRef spec0 3)) : S8192x1024.Idx → EReal) (ix2 ⟨2048 * b.val + t.val, by omega⟩ e) = _
    rw [W2_arr, final0_3]
  rw [h1]
  unfold projArr Cert.Attn.proj
  refine Finset.sum_congr rfl fun d _ => ?_
  rw [xRows_apply m c _ d b t rfl, wCols_second m c d e _ rfl]

/-- The v array the attention launch finds. -/
def vArr (c : Dev nD) : S4x2048x1024.Idx → EReal := V3 (F := Ideal) m c main_v6

/-- Entry (b, t, e) of it is the projection of the input by the third weight matrix. -/
theorem v_apply (c : Dev nD) (b : Fin 4) (t : Fin 2048) (e : Fin 1024) :
    vArr m c (ix3 b t e) = Cert.Attn.proj (Xf m c) (Wvf m c) b t e := by
  have h1 : vArr m c (ix3 b t e) = projArr m c 2048 (by omega) (ix2 ⟨2048 * b.val + t.val, by omega⟩ e) := by
    unfold vArr
    rw [V3_v6_eq, relaid_apply _ ⟨2048 * b.val + t.val, by omega⟩ e b t rfl]
    show (W2 (F := Ideal) m c (Proc.devRef .tc (Pipeline.arrRef spec0 4)) : S8192x1024.Idx → EReal) (ix2 ⟨2048 * b.val + t.val, by omega⟩ e) = _
    rw [W2_arr, final0_4]
  rw [h1]
  unfold projArr Cert.Attn.proj
  refine Finset.sum_congr rfl fun d _ => ?_
  rw [xRows_apply m c _ d b t rfl, wCols_third m c d e _ rfl]

end Cert.KernelIdeal.Hand

end
-- ==== Proof.Idx1.lean ====
/-
  The attention launch's windows as index facts. The grid is 4 × 4 × 4: point t has coordinates
  (b, qi, kv) = (t / 16, t / 4 % 4, t % 4). The query window and the output window take block
  (b, qi, 0) of a 4 × 2048 × 1024 array in blocks of 1 × 512 × 1024; the key and value windows take
  block (b, min kv qi, 0). A block's coordinate in the array is always block index × block size
  + the coordinate inside the block, so entry (0, r, e) of a block is entry
  (b, 512 · (block row index) + r, e) of the array. The output's blocks written back (at kv = 3)
  cover the whole array.
-/
import proofs.«102304_j24240795419222_2_alg».proof.Proof.Gen.KernelIdeal.Launch
import proofs.«102304_j24240795419222_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen

/-- A point of the grid is below 64. -/
theorem t1_lt (t : Fin cfg1.N) : t.val < 64 := lt_of_lt_of_eq t.isLt N_1

/-! ## The grid's coordinates and the printed index maps -/

/-- Point t has coordinates (t / 16, t / 4 % 4, t % 4). -/
theorem coords1 : ∀ t : Fin cfg1.N, ((grid1.coords t) 0).val = t.val / 16
    ∧ ((grid1.coords t) 1).val = t.val / 4 % 4 ∧ ((grid1.coords t) 2).val = t.val % 4 :=
  (by decide +kernel : ∀ t : Fin grid1.N, ((grid1.coords t) 0).val = t.val / 16
    ∧ ((grid1.coords t) 1).val = t.val / 4 % 4 ∧ ((grid1.coords t) 2).val = t.val % 4)

/-- The printed index maps over the 64 points: the query and output blocks are (b, qi, 0), the key
    and value blocks (b, min kv qi, 0). -/
theorem idx_facts1 : ∀ t : Fin cfg1.N,
    win1_0.index t (0 : Fin 3) = t.val / 16 ∧ win1_0.index t (1 : Fin 3) = t.val / 4 % 4
    ∧ win1_0.index t (2 : Fin 3) = 0
    ∧ win1_1.index t (0 : Fin 3) = t.val / 16
    ∧ win1_1.index t (1 : Fin 3) = min (t.val % 4) (t.val / 4 % 4)
    ∧ win1_1.index t (2 : Fin 3) = 0
    ∧ win1_2.index t (0 : Fin 3) = t.val / 16
    ∧ win1_2.index t (1 : Fin 3) = min (t.val % 4) (t.val / 4 % 4)
    ∧ win1_2.index t (2 : Fin 3) = 0
    ∧ win1_3.index t (0 : Fin 3) = t.val / 16 ∧ win1_3.index t (1 : Fin 3) = t.val / 4 % 4
    ∧ win1_3.index t (2 : Fin 3) = 0 :=
  (by decide +kernel : ∀ t : Fin grid1.N, _)

/-! ## Where a block's entry sits in the array -/

/-- Window 0 (queries): entry y of point t's block is entry (b, 512 · qi + y 1, y 2). -/
theorem emb1_0 (t : Fin cfg1.N) (y : ((cfg1.win 0).xblock (cfg1.grid.coords t)).Idx) :
    ((cfg1.win 0).blk t).view.emb y
      = ix3 (n0 := 4) (n1 := 2048) (n2 := 1024) ⟨t.val / 16, by have := t1_lt t; omega⟩
          ⟨512 * (t.val / 4 % 4) + (y 1).val, by
            have h1 : (y 1).val < 512 := (y 1).isLt
            omega⟩
          ⟨(y 2).val, (y 2).isLt⟩ := by
  obtain ⟨e0, e1, e2, -⟩ := idx_facts1 t
  funext a; apply Fin.ext
  match a with
  | ⟨0, _⟩ =>
    show win1_0.index t (0 : Fin 3) * 1 + 1 * (y 0).val = t.val / 16
    have h0 : (y 0).val < 1 := (y 0).isLt
    omega
  | ⟨1, _⟩ =>
    show win1_0.index t (1 : Fin 3) * 512 + 1 * (y 1).val = 512 * (t.val / 4 % 4) + (y 1).val
    omega
  | ⟨2, _⟩ =>
    show win1_0.index t (2 : Fin 3) * 1024 + 1 * (y 2).val = (y 2).val
    omega

/-- Window 1 (keys): entry y of point t's block is entry (b, 512 · min kv qi + y 1, y 2). -/
theorem emb1_1 (t : Fin cfg1.N) (y : ((cfg1.win 1).xblock (cfg1.grid.coords t)).Idx) :
    ((cfg1.win 1).blk t).view.emb y
      = ix3 (n0 := 4) (n1 := 2048) (n2 := 1024) ⟨t.val / 16, by have := t1_lt t; omega⟩
          ⟨512 * (min (t.val % 4) (t.val / 4 % 4)) + (y 1).val, by
            have h1 : (y 1).val < 512 := (y 1).isLt
            omega⟩
          ⟨(y 2).val, (y 2).isLt⟩ := by
  obtain ⟨-, -, -, e0, e1, e2, -⟩ := idx_facts1 t
  funext a; apply Fin.ext
  match a with
  | ⟨0, _⟩ =>
    show win1_1.index t (0 : Fin 3) * 1 + 1 * (y 0).val = t.val / 16
    have h0 : (y 0).val < 1 := (y 0).isLt
    omega
  | ⟨1, _⟩ =>
    show win1_1.index t (1 : Fin 3) * 512 + 1 * (y 1).val = 512 * (min (t.val % 4) (t.val / 4 % 4)) + (y 1).val
    omega
  | ⟨2, _⟩ =>
    show win1_1.index t (2 : Fin 3) * 1024 + 1 * (y 2).val = (y 2).val
    omega

/-- Window 2 (values): entry y of point t's block is entry (b, 512 · min kv qi + y 1, y 2). -/
theorem emb1_2 (t : Fin cfg1.N) (y : ((cfg1.win 2).xblock (cfg1.grid.coords t)).Idx) :
    ((cfg1.win 2).blk t).view.emb y
      = ix3 (n0 := 4) (n1 := 2048) (n2 := 1024) ⟨t.val / 16, by have := t1_lt t; omega⟩
          ⟨512 * (min (t.val % 4) (t.val / 4 % 4)) + (y 1).val, by
            have h1 : (y 1).val < 512 := (y 1).isLt
            omega⟩
          ⟨(y 2).val, (y 2).isLt⟩ := by
  obtain ⟨-, -, -, -, -, -, e0, e1, e2, -⟩ := idx_facts1 t
  funext a; apply Fin.ext
  match a with
  | ⟨0, _⟩ =>
    show win1_2.index t (0 : Fin 3) * 1 + 1 * (y 0).val = t.val / 16
    have h0 : (y 0).val < 1 := (y 0).isLt
    omega
  | ⟨1, _⟩ =>
    show win1_2.index t (1 : Fin 3) * 512 + 1 * (y 1).val = 512 * (min (t.val % 4) (t.val / 4 % 4)) + (y 1).val
    omega
  | ⟨2, _⟩ =>
    show win1_2.index t (2 : Fin 3) * 1024 + 1 * (y 2).val = (y 2).val
    omega

/-- Window 3 (output): entry y of point t's block is entry (b, 512 · qi + y 1, y 2). -/
theorem emb1_3 (t : Fin cfg1.N) (y : ((cfg1.win 3).xblock (cfg1.grid.coords t)).Idx) :
    ((cfg1.win 3).blk t).view.emb y
      = ix3 (n0 := 4) (n1 := 2048) (n2 := 1024) ⟨t.val / 16, by have := t1_lt t; omega⟩
          ⟨512 * (t.val / 4 % 4) + (y 1).val, by
            have h1 : (y 1).val < 512 := (y 1).isLt
            omega⟩
          ⟨(y 2).val, (y 2).isLt⟩ := by
  obtain ⟨-, -, -, -, -, -, -, -, -, e0, e1, e2⟩ := idx_facts1 t
  funext a; apply Fin.ext
  match a with
  | ⟨0, _⟩ =>
    show win1_3.index t (0 : Fin 3) * 1 + 1 * (y 0).val = t.val / 16
    have h0 : (y 0).val < 1 := (y 0).isLt
    omega
  | ⟨1, _⟩ =>
    show win1_3.index t (1 : Fin 3) * 512 + 1 * (y 1).val = 512 * (t.val / 4 % 4) + (y 1).val
    omega
  | ⟨2, _⟩ =>
    show win1_3.index t (2 : Fin 3) * 1024 + 1 * (y 2).val = (y 2).val
    omega

/-! ## The output window's blocks cover its array -/

/-- An index of the output array is in point t's block iff each coordinate is in the block's range
    on its axis. -/
theorem mem_blk1_3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v7).slice (win1_3.rect t)).set ↔ _
  rw [View.set_slice_whole, Rect.mem_set_unit]
  exact Iff.rfl

/-- Every entry (b, i, e) of the output array is in the block written back at the point
    16 · b + 4 · (i / 512) + 3. -/
theorem cover1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 64 := N_1
  refine ⟨⟨16 * (i 0).val + 4 * ((i 1).val / 512) + 3, by rw [hN]; omega⟩,
    (flush1_3 _).mpr (by show (16 * (i 0).val + 4 * ((i 1).val / 512) + 3) % 4 = 3; omega), ?_⟩
  obtain ⟨-, -, -, -, -, -, -, -, -, e0, e1, e2⟩ :=
    idx_facts1 ⟨16 * (i 0).val + 4 * ((i 1).val / 512) + 3, by rw [hN]; omega⟩
  rw [mem_blk1_3]
  intro a
  match a with
  | ⟨0, _⟩ =>
    show win1_3.index _ (0 : Fin 3) * 1 ≤ (i 0).val ∧ (i 0).val < win1_3.index _ (0 : Fin 3) * 1 + 1
    (try dsimp only at *); omega
  | ⟨1, _⟩ =>
    show win1_3.index _ (1 : Fin 3) * 512 ≤ (i 1).val ∧ (i 1).val < win1_3.index _ (1 : Fin 3) * 512 + 512
    (try dsimp only at *); omega
  | ⟨2, _⟩ =>
    show win1_3.index _ (2 : Fin 3) * 1024 ≤ (i 2).val ∧ (i 2).val < win1_3.index _ (2 : Fin 3) * 1024 + 1024
    (try dsimp only at *); omega

end Cert.KernelIdeal.Hand

end
-- ==== Proof.Finite.lean ====
/-
  From the precondition to finiteness: the precondition says that every entry x of the four argument
  arrays satisfies |x| < +infinity, all four conjoined; over the extended reals that is "x is a real".
-/
import proofs.«102304_j24240795419222_2_alg».proof.Defs
import proofs.«102304_j24240795419222_2_alg».proof.Proof.Gen.Pre_finite_inputs
import Idealize.ShloMosaic.Lib.ReduceAll
import Idealize.ShloMosaic.Lib.ValueIdx

open Idealize.ShloMosaic Idealize.SL.Sem Idealize.ShloMosaic.TcCoe

noncomputable section

namespace Cert.Finite

/-- The scalar shape has one index. -/
instance : Subsingleton Cert.Pre_finite_inputs.S_.Idx := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => exact absurd h (by simp [Ideal.cmp])
  | coe r => exact ⟨r, rfl⟩
  | top => exact absurd h (by simp [Ideal.cmp])

/-- One array whose "all entries have |x| < +infinity" bit is 1 has only real entries. -/
theorem real_of_all {S : Shape} (x : FVec Ideal S .f32) (hb : Cert.Pre_finite_inputs.S_.BroadcastsInDim S ![])
    {axes : List (Fin S.rank)} (hr : S.ReducesTo axes Cert.Pre_finite_inputs.S_) (hu : 0 < Cert.Pre_finite_inputs.S_.numel)
    (e : Host.reduce IntOp.andi
          (cmpf .olt (Host.absf x) (broadcastInDim S ![] hb (constant (F := Ideal) Cert.Pre_finite_inputs.S_ .f32 0x7F800000#32)))
          (constantI Cert.Pre_finite_inputs.S_ 1 1#1) hr hu ValueIdx.ix0 = 1#1) (i : S.Idx) :
    ∃ r : ℝ, x i = (r : EReal) :=
  real_of_abs_lt (x i) (Host.reduce_andi_all _ _ hr hu ValueIdx.ix0 e i)

/-- Under the precondition every entry of the four argument arrays is a real. -/
theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨ha, hb⟩ := IntOp.andi_eq_one.mp h01
  exact ⟨fun i => real_of_all _ _ _ _ ha i, fun i => real_of_all _ _ _ _ hb i,
    fun i => real_of_all _ _ _ _ h2 i, fun i => real_of_all _ _ _ _ h3 i⟩

end Cert.Finite

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«102304_j24240795419222_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.PayFlash.lean ====
/-
  The attention kernel's payload terms read at an index, over the extended reals.

  Scores: entry (r, c) of the tile is the dot product of query row r with key row c times 1/32; on the
  diagonal tile the entries with c after r are replaced by minus infinity. One update of the running
  softmax, row by row, is the specification's step. The reset values are minus infinity, 0 and 0, and the
  final value is the quotient numerator / denominator.
-/
import proofs.«102304_j24240795419222_2_alg».proof.Proof.FlashDefs
import proofs.«102304_j24240795419222_2_alg».proof.Proof.Spec
import Idealize.ShloMosaic.Lib.ValueIdx
import Idealize.ShloMosaic.Lib.ValueLayout
import Idealize.ShloMosaic.PureOps.Ideal.Laws
import Idealize.ShloMosaic.PureOps.IdealRules
import proofs.«102304_j24240795419222_2_alg».proof.Proof.LibRowReads
import proofs.«102304_j24240795419222_2_alg».proof.Proof.LibColBroadcast
import proofs.«102304_j24240795419222_2_alg».proof.Proof.LibColCast
import proofs.«102304_j24240795419222_2_alg».proof.Proof.LibLaneSums

open scoped BigOperators

noncomputable section

namespace Cert.KernelIdeal.Pay

open Idealize.ShloMosaic Idealize.ShloMosaic.ValueIdx Cert.KernelIdeal Cert.KernelIdeal.Gen Cert.KernelIdeal.Hand

/-! ## The three float words the body spells -/

/-- The word 0x3D000000 is 2^(-5) = 1/32. -/
theorem ofBits_scale : Ideal.ofBits .f32 0x3D000000#32 = ((1 / 32 : ℝ) : EReal) := by
  simp [Ideal.ofBits, Ideal.ieee, -EReal.coe_mul]; norm_num

/-- The word 0xFF800000 is minus infinity. -/
theorem ofBits_negInf : Ideal.ofBits .f32 0xFF800000#32 = ⊥ := by
  simp [Ideal.ofBits, Ideal.ieee]

/-- The mask's fill value is named, and the name denotes minus infinity. -/
theorem neg_big_eq : Named.named (F := Ideal) Cert.KernelIdeal.κ "neg_big" (φ := .f32) 0xFF333332#32 = ⊥ :=
  IdealRules.named_const.ideal_named_scalar _ _ _ _ rfl

/-! ## The operand indices of the score product q · kᵀ, [512, 1024] x [512, 1024] contracting the second axes -/

theorem scoreDot_lhs0 (j : S512x512.Idx) (k : dot_S512x1024_S512x1024_S512x512_1_1_0_0_n_n.contr.Idx) :
    (dot_S512x1024_S512x1024_S512x512_1_1_0_0_n_n.lhsIdx j k 0).val = (j 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

theorem scoreDot_lhs1 (j : S512x512.Idx) (k : dot_S512x1024_S512x1024_S512x512_1_1_0_0_n_n.contr.Idx) :
    (dot_S512x1024_S512x1024_S512x512_1_1_0_0_n_n.lhsIdx j k 1).val = (k ⟨0, by decide⟩).val :=
  dot_S512x1024_S512x1024_S512x512_1_1_0_0_n_n.lhsIdx_val_of_single rfl j k

theorem scoreDot_rhs0 (j : S512x512.Idx) (k : dot_S512x1024_S512x1024_S512x512_1_1_0_0_n_n.contr.Idx) :
    (dot_S512x1024_S512x1024_S512x512_1_1_0_0_n_n.rhsIdx j k 0).val = (j 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

theorem scoreDot_rhs1 (j : S512x512.Idx) (k : dot_S512x1024_S512x1024_S512x512_1_1_0_0_n_n.contr.Idx) :
    (dot_S512x1024_S512x1024_S512x512_1_1_0_0_n_n.rhsIdx j k 1).val = (k ⟨0, by decide⟩).val :=
  dot_S512x1024_S512x1024_S512x512_1_1_0_0_n_n.rhsIdx_val_of_single rfl j k

/-- The score product at (r, c): row r of the first operand against row c of the second. -/
theorem scoreDot_apply (a b : FVec Ideal S512x1024 .bf16) (r c : Fin 512) :
    matmul dot_S512x1024_S512x1024_S512x512_1_1_0_0_n_n none a b (constant S512x512 .f32 0x00000000#32) (ix2 r c)
      = ∑ e : Fin 1024, a (ix2 r e) * b (ix2 c e) := by
  refine (Ideal.matmul_constant_zero_apply (φ₁ := .bf16) (φ₂ := .bf16) dot_S512x1024_S512x1024_S512x512_1_1_0_0_n_n none a b (ix2 r c)).trans ?_
  rw [← Equiv.sum_comp (contrEquiv1 dot_S512x1024_S512x1024_S512x512_1_1_0_0_n_n 1024 rfl rfl).symm]
  refine Finset.sum_congr rfl fun e _ => ?_
  have hk := contrEquiv1_symm_val dot_S512x1024_S512x1024_S512x512_1_1_0_0_n_n 1024 rfl rfl e
  have el : dot_S512x1024_S512x1024_S512x512_1_1_0_0_n_n.lhsIdx (ix2 r c)
      ((contrEquiv1 dot_S512x1024_S512x1024_S512x512_1_1_0_0_n_n 1024 rfl rfl).symm e) = ix2 r e :=
    funext fun x => Fin.ext (by
      match x with
      | ⟨0, _⟩ => exact scoreDot_lhs0 _ _
      | ⟨1, _⟩ => exact (scoreDot_lhs1 _ _).trans hk)
  have er : dot_S512x1024_S512x1024_S512x512_1_1_0_0_n_n.rhsIdx (ix2 r c)
      ((contrEquiv1 dot_S512x1024_S512x1024_S512x512_1_1_0_0_n_n 1024 rfl rfl).symm e) = ix2 c e :=
    funext fun x => Fin.ext (by
      match x with
      | ⟨0, _⟩ => exact scoreDot_rhs0 _ _
      | ⟨1, _⟩ => exact (scoreDot_rhs1 _ _).trans hk)
  rw [el, er]

/-! ## The scores of a tile -/

/-- The unmasked score (r, c): query row r against key row c, times 1/32. -/
theorem k1_pay9_apply (qb kb : Vec Ideal S1x512x1024 .bf16) (r c : Fin 512) :
    k1_pay9 qb kb (ix2 r c) = (∑ e : Fin 1024, qb (ix3 0 r e) * kb (ix3 0 c e)) * ((1 / 32 : ℝ) : EReal) := by
  unfold k1_pay9
  refine (mulf_apply (φ := .f32) _ _ _).trans ?_
  refine congr (congrArg _ ?_) ?_
  · refine (scoreDot_apply _ _ r c).trans (Finset.sum_congr rfl fun e _ => ?_)
    rw [shapeCast_1ab_ab_apply, shapeCast_1ab_ab_apply]
  · exact ofBits_scale

/-- Signed comparison of two row / column numbers below 512 written as 32-bit words. -/
theorem cmpi_sge_ofNat (r c : Fin 512) :
    IntOp.cmpi .sge (BitVec.ofNat 32 r.val) (BitVec.ofNat 32 c.val) = if c.val ≤ r.val then 1#1 else 0#1 := by
  have hr : (BitVec.ofNat 32 r.val).toInt = (r.val : Int) := by
    rw [BitVec.toInt_eq_toNat_of_lt (by rw [BitVec.toNat_ofNat]; omega), BitVec.toNat_ofNat]; omega
  have hc : (BitVec.ofNat 32 c.val).toInt = (c.val : Int) := by
    rw [BitVec.toInt_eq_toNat_of_lt (by rw [BitVec.toNat_ofNat]; omega), BitVec.toNat_ofNat]; omega
  unfold IntOp.cmpi
  simp only [BitVec.sle, hr, hc]
  by_cases h : c.val ≤ r.val
  · rw [if_pos h, decide_eq_true (by exact_mod_cast h)]; rfl
  · rw [if_neg h, decide_eq_false (by exact_mod_cast h)]; rfl

/-- The masked score (r, c) of the diagonal tile: the unmasked one up to the diagonal, minus infinity after it. -/
theorem k1_pay15_apply (qb kb : Vec Ideal S1x512x1024 .bf16) (r c : Fin 512) :
    k1_pay15 qb kb (ix2 r c)
      = if c.val ≤ r.val then (∑ e : Fin 1024, qb (ix3 0 r e) * kb (ix3 0 c e)) * ((1 / 32 : ℝ) : EReal) else ⊥ := by
  have h9 := k1_pay9_apply qb kb r c
  unfold k1_pay9 at h9
  unfold k1_pay15
  refine (select_apply _ _ _ _).trans ?_
  rw [show cmpi .sge (iota .tc S512x512 32 [0] iota_S512x512_d0_w32) (iota .tc S512x512 32 [1] iota_S512x512_d1_w32) (ix2 r c)
      = IntOp.cmpi .sge (BitVec.ofNat 32 r.val) (BitVec.ofNat 32 c.val) from by
        show IntOp.cmpi .sge _ _ = _
        rw [iota_single_apply, iota_single_apply]]
  rw [cmpi_sge_ofNat]
  by_cases h : c.val ≤ r.val
  · rw [if_pos h, if_pos h, select_one]; exact h9
  · rw [if_neg h, if_neg h, select_zero]; exact neg_big_eq

/-! ## The reset values and the final quotient -/

/-- The running maximum is reset to minus infinity. -/
theorem k1_pay1_apply (r : Fin 512) : k1_pay1 (F := Ideal) (ix2 r 0) = ⊥ := by
  unfold k1_pay1
  rw [shapeCast_self]
  exact ofBits_negInf

/-- The running denominator is reset to 0. -/
theorem k1_pay2_apply (r : Fin 512) : k1_pay2 (F := Ideal) (ix2 r 0) = 0 := by
  unfold k1_pay2
  rw [shapeCast_self]
  exact Ideal.ofBits_zero_f32

/-- The running numerator is reset to 0. -/
theorem k1_pay3_apply (r : Fin 512) (e : Fin 1024) : k1_pay3 (F := Ideal) (ix2 r e) = 0 := by
  unfold k1_pay3
  rw [shapeCast_self]
  exact Ideal.ofBits_zero_f32

/-- The output entry (0, r, e) is numerator (r, e) / denominator r. -/
theorem k1_pay8_apply (acc : Vec Ideal S512x1024 .f32) (l : Vec Ideal S512x1 .f32) (r : Fin 512) (e : Fin 1024) :
    k1_pay8 acc l (ix3 0 r e) = Ideal.div (acc (ix2 r e)) (l (ix2 r 0)) := by
  unfold k1_pay8
  refine (shapeCast_ab_1ab_apply _ _ 0 r e).trans ?_
  refine (divf_apply (φ := .f32) _ _ _).trans ?_
  rw [Cert.Lib.broadcastTo_a1_ab_apply]

/-! ## One update of the running softmax, for any 512 x 512 tile of scores

The unmasked and the masked update are the same operations applied to two score tiles, so each operation is read once,
for an arbitrary tile S. -/

/-- The row maxima of a tile, laid out as a column: at row r, the supremum of that row. -/
theorem rowMax_apply (S : FVec Ideal S512x512 .f32) (r : Fin 512) (u : Fin 1) :
    shapeCast S512x1 (multiReduction (F := Ideal) .maximumf [1] S512 S 0xFF800000#32 reduces_S512x512_S512 (.inl rfl) rfl)
        shapeCasts_S512_S512x1 (ix2 r u)
      = Finset.univ.sup fun c : Fin 512 => S (ix2 r c) := by
  refine (Cert.Lib.shapeCast_a_a1_apply _ _ r u).trans ?_
  refine (Ideal.multiReduction_maximumf_single S 0xFF800000#32 reduces_S512x512_S512 (.inl rfl) rfl (ix1 r)).trans ?_
  have hf : (S ∘ reduces_S512x512_S512.lift (ix1 r)) = fun c : Fin 512 => S (ix2 r c) :=
    funext fun c => congrArg S (funext fun a => Fin.ext (by
      match a with
      | ⟨0, _⟩ => rfl
      | ⟨1, _⟩ => rfl))
  rw [hf]
  show (Finset.univ : Finset (Fin 512)).fold max (Ideal.ofBits .f32 0xFF800000#32) _ = _
  rw [ofBits_negInf]
  rfl

/-- The row sums of a tile, laid out as a column: at row r, the sum of that row. -/
theorem rowSumCol_apply (T : FVec Ideal S512x512 .f32) (r : Fin 512) (u : Fin 1) :
    shapeCast S512x1 (multiReduction (F := Ideal) .add [1] S512 T 0x00000000#32 reduces_S512x512_S512 (.inl rfl) rfl)
        shapeCasts_S512_S512x1 (ix2 r u)
      = ∑ c : Fin 512, T (ix2 r c) := by
  refine (Cert.Lib.shapeCast_a_a1_apply _ _ r u).trans ?_
  exact Cert.Lib.rowSum_apply T 0x00000000#32 reduces_S512x512_S512 (.inl rfl) rfl r

/-- The product of a 512 x 512 tile of weights with the value block at (r, e): the weights of row r against column e of
    the values. -/
theorem weightedValues_apply (T : FVec Ideal S512x512 .bf16) (vb : Vec Ideal S1x512x1024 .bf16) (r : Fin 512) (e : Fin 1024) :
    matmul (φ₁ := .bf16) (φ₂ := .bf16) dot_S512x512_S512x1024_S512x1024_1_0_0_1_n_n none T
        (shapeCast S512x1024 vb shapeCasts_S1x512x1024_S512x1024) (constant S512x1024 .f32 0x00000000#32) (ix2 r e)
      = ∑ c : Fin 512, T (ix2 r c) * vb (ix3 0 c e) := by
  refine (Cert.Lib.matmul_zero_at dot_S512x512_S512x1024_S512x1024_1_0_0_1_n_n rfl rfl rfl rfl rfl rfl
    (φ₁ := .bf16) (φ₂ := .bf16) none T _ r e).trans (Finset.sum_congr rfl fun c _ => ?_)
  rw [shapeCast_1ab_ab_apply]

/-! ## The update as one function of the tile

The state after an update, written over an arbitrary tile S of scores: the new maximum, the factor exp (old maximum -
new maximum) that rescales what was accumulated, the weights exp (score - new maximum), the new denominator and the new
numerator. The kernel's two updates are this function at its two score tiles. -/

/-- The new running maximum: the old one against the tile's row maxima. -/
def newMax (S : FVec Ideal S512x512 .f32) (m : Vec Ideal S512x1 .f32) : FVec Ideal S512x1 .f32 :=
  maximumf m (shapeCast S512x1
    (multiReduction (F := Ideal) .maximumf [1] S512 S 0xFF800000#32 reduces_S512x512_S512 (.inl rfl) rfl) shapeCasts_S512_S512x1)

/-- The factor that rescales the accumulated denominator and numerator. -/
def rescale (S : FVec Ideal S512x512 .f32) (m : Vec Ideal S512x1 .f32) : FVec Ideal S512x1 .f32 :=
  exp (subf m (newMax S m))

/-- The tile's weights. -/
def weights (S : FVec Ideal S512x512 .f32) (m : Vec Ideal S512x1 .f32) : FVec Ideal S512x512 .f32 :=
  exp (subf S (broadcastTo S512x512 (newMax S m) broadcasts_S512x1_S512x512))

/-- The new running denominator. -/
def newDen (S : FVec Ideal S512x512 .f32) (m l : Vec Ideal S512x1 .f32) : FVec Ideal S512x1 .f32 :=
  addf (mulf (rescale S m) l) (shapeCast S512x1
    (multiReduction (F := Ideal) .add [1] S512 (weights S m) 0x00000000#32 reduces_S512x512_S512 (.inl rfl) rfl) shapeCasts_S512_S512x1)

/-- The new running numerator. -/
def newNum (S : FVec Ideal S512x512 .f32) (m : Vec Ideal S512x1 .f32) (acc : Vec Ideal S512x1024 .f32)
    (vb : Vec Ideal S1x512x1024 .bf16) : FVec Ideal S512x1024 .f32 :=
  addf (mulf (broadcastTo S512x1024 (rescale S m) broadcasts_S512x1_S512x1024) acc)
    (matmul (φ₁ := .bf16) (φ₂ := .bf16) dot_S512x512_S512x1024_S512x1024_1_0_0_1_n_n none
      (truncf .bf16 (weights S m) bitsLt_bf16_f32) (shapeCast S512x1024 vb shapeCasts_S1x512x1024_S512x1024)
      (constant S512x1024 .f32 0x00000000#32))

/-- One update with the score tile S. -/
def tileUpd (S : FVec Ideal S512x512 .f32) (vb : Vec Ideal S1x512x1024 .bf16) (s : St Ideal) : St Ideal :=
  (newMax S s.1, newDen S s.1 s.2.1, newNum S s.1 s.2.2 vb)

/-- The unmasked update is the update with the unmasked scores. -/
theorem updOff_eq (qb kb vb : Vec Ideal S1x512x1024 .bf16) (s : St Ideal) :
    updOff qb kb vb s = tileUpd (k1_pay9 qb kb) vb s := by
  unfold updOff k1_pay5 k1_pay4 k1_pay13
  simp only [shapeCast_self]
  rfl

/-- The masked update is the update with the masked scores. -/
theorem updDiag_eq (qb kb vb : Vec Ideal S1x512x1024 .bf16) (s : St Ideal) :
    updDiag qb kb vb s = tileUpd (k1_pay15 qb kb) vb s := by
  unfold updDiag k1_pay7 k1_pay6 k1_pay19
  simp only [shapeCast_self]
  rfl

section AtAnIndex

variable (S : FVec Ideal S512x512 .f32) (m l : Vec Ideal S512x1 .f32) (acc : Vec Ideal S512x1024 .f32)
  (vb : Vec Ideal S1x512x1024 .bf16) (r : Fin 512)

/-- The new maximum of row r. -/
theorem newMax_apply (u : Fin 1) :
    newMax S m (ix2 r u) = max (m (ix2 r u)) (Finset.univ.sup fun c : Fin 512 => S (ix2 r c)) := by
  unfold newMax
  refine (maximumf_apply (φ := .f32) _ _ _).trans ?_
  exact congrArg (max (m (ix2 r u))) (rowMax_apply S r u)

/-- The rescaling factor of row r. -/
theorem rescale_apply (u : Fin 1) : rescale S m (ix2 r u) = Ideal.exp (m (ix2 r u) - newMax S m (ix2 r u)) := rfl

/-- The weight (r, c). -/
theorem weights_apply (c : Fin 512) : weights S m (ix2 r c) = Ideal.exp (S (ix2 r c) - newMax S m (ix2 r 0)) := by
  unfold weights
  show Ideal.exp (S (ix2 r c) - broadcastTo S512x512 (newMax S m) broadcasts_S512x1_S512x512 (ix2 r c)) = _
  rw [Cert.Lib.broadcastTo_a1_ab_apply]

/-- The new denominator of row r. -/
theorem newDen_apply (u : Fin 1) :
    newDen S m l (ix2 r u) = rescale S m (ix2 r u) * l (ix2 r u) + ∑ c : Fin 512, weights S m (ix2 r c) := by
  unfold newDen
  refine (addf_apply (φ := .f32) _ _ _).trans ?_
  exact congrArg (fun z => rescale S m (ix2 r u) * l (ix2 r u) + z) (rowSumCol_apply (weights S m) r u)

/-- The new numerator (r, e). -/
theorem newNum_apply (e : Fin 1024) :
    newNum S m acc vb (ix2 r e)
      = rescale S m (ix2 r 0) * acc (ix2 r e) + ∑ c : Fin 512, weights S m (ix2 r c) * vb (ix3 0 c e) := by
  unfold newNum
  refine (addf_apply (φ := .f32) _ _ _).trans ?_
  refine congr (congrArg _ ?_) ?_
  · refine (mulf_apply (φ := .f32) _ _ _).trans ?_
    rw [Cert.Lib.broadcastTo_a1_ab_apply]
  · exact weightedValues_apply (truncf .bf16 (weights S m) bitsLt_bf16_f32) vb r e

end AtAnIndex

/-- One update, row r and output column e, is the specification's step on the row's scores and the column's values. -/
theorem tileUpd_step (S : FVec Ideal S512x512 .f32) (vb : Vec Ideal S1x512x1024 .bf16) (s : St Ideal)
    (r : Fin 512) (e : Fin 1024) :
    ((tileUpd S vb s).1 (ix2 r 0), (tileUpd S vb s).2.1 (ix2 r 0), (tileUpd S vb s).2.2 (ix2 r e))
      = Cert.Attn.step (s.1 (ix2 r 0), s.2.1 (ix2 r 0), s.2.2 (ix2 r e)) (fun c => S (ix2 r c)) (fun c => vb (ix3 0 c e)) := by
  have hM := newMax_apply S s.1 r 0
  unfold Cert.Attn.step
  refine Prod.ext ?_ (Prod.ext ?_ ?_)
  · exact hM
  · show newDen S s.1 s.2.1 (ix2 r 0) = _
    rw [newDen_apply, rescale_apply, hM]
    exact congrArg _ (Finset.sum_congr rfl fun c _ => by rw [weights_apply, hM])
  · show newNum S s.1 s.2.2 vb (ix2 r e) = _
    rw [newNum_apply, rescale_apply, hM]
    exact congrArg _ (Finset.sum_congr rfl fun c _ => by rw [weights_apply, hM])

/-- The unmasked update of the carried state, row r and output column e, is the specification's step on the unmasked
    scores of row r. -/
theorem updOff_step (qb kb vb : Vec Ideal S1x512x1024 .bf16) (s : St Ideal) (r : Fin 512) (e : Fin 1024) :
    ((updOff qb kb vb s).1 (ix2 r 0), (updOff qb kb vb s).2.1 (ix2 r 0), (updOff qb kb vb s).2.2 (ix2 r e))
      = Cert.Attn.step (s.1 (ix2 r 0), s.2.1 (ix2 r 0), s.2.2 (ix2 r e))
          (fun c => k1_pay9 qb kb (ix2 r c)) (fun c => vb (ix3 0 c e)) := by
  rw [updOff_eq]
  exact tileUpd_step (k1_pay9 qb kb) vb s r e

/-- The masked update of the carried state, row r and output column e, is the specification's step on the masked scores
    of row r. -/
theorem updDiag_step (qb kb vb : Vec Ideal S1x512x1024 .bf16) (s : St Ideal) (r : Fin 512) (e : Fin 1024) :
    ((updDiag qb kb vb s).1 (ix2 r 0), (updDiag qb kb vb s).2.1 (ix2 r 0), (updDiag qb kb vb s).2.2 (ix2 r e))
      = Cert.Attn.step (s.1 (ix2 r 0), s.2.1 (ix2 r 0), s.2.2 (ix2 r e))
          (fun c => k1_pay15 qb kb (ix2 r c)) (fun c => vb (ix3 0 c e)) := by
  rw [updDiag_eq]
  exact tileUpd_step (k1_pay15 qb kb) vb s r e

end Cert.KernelIdeal.Pay

end
-- ==== Proof.FlashStep.lean ====
/-
  One call of the attention kernel's body, row by row, against the specification's tile-by-tile run.

  The body's three conditionals act on row r of the carried state (maximum, denominator, numerator at
  output column e) as: reset to (-inf, 0, 0) at kv = 0; one running-softmax step with the unmasked scores
  at kv < qi; one step with the masked scores at kv = qi. If the state found at the point is the
  specification's run over the tiles before kv (capped at the diagonal), the state left is the run over
  the tiles up to kv (capped at the diagonal). At kv = 3 the output block is numerator / denominator.
-/
import proofs.«102304_j24240795419222_2_alg».proof.Proof.FlashDefs
import proofs.«102304_j24240795419222_2_alg».proof.Proof.PayFlash
import proofs.«102304_j24240795419222_2_alg».proof.Proof.Spec

open scoped BigOperators

noncomputable section

namespace Cert.KernelIdeal.Hand

open Idealize.ShloMosaic Idealize.ShloMosaic.ValueIdx Cert.KernelIdeal Cert.KernelIdeal.Gen Cert.KernelIdeal.Pay

/-- Row r of a carried state, with the numerator at output column e. -/
abbrev rowOf (s : St Ideal) (r : Fin 512) (e : Fin 1024) : EReal × EReal × EReal :=
  (s.1 (ix2 r 0), s.2.1 (ix2 r 0), s.2.2 (ix2 r e))

/-! ## The three conditionals, row by row -/

/-- After the reset conditional. -/
theorem st1_row (i : grid1.Coords) (s : St Ideal) (r : Fin 512) (e : Fin 1024) :
    rowOf (st1 i s) r e = if (i 2).val = 0 then ((⊥ : EReal), (0 : EReal), (0 : EReal)) else rowOf s r e := by
  unfold st1
  by_cases h : (i 2).val = 0
  · rw [if_pos h, if_pos h]
    exact Prod.ext (k1_pay1_apply r) (Prod.ext (k1_pay2_apply r) (k1_pay3_apply r e))
  · rw [if_neg h, if_neg h]

/-- After the unmasked-update conditional. -/
theorem st2_row (i : grid1.Coords) (qb kb vb : Vec Ideal S1x512x1024 .bf16) (s : St Ideal) (r : Fin 512) (e : Fin 1024) :
    rowOf (st2 i qb kb vb s) r e
      = if (i 2).val < (i 1).val then
          Cert.Attn.step (rowOf (st1 i s) r e) (fun c => k1_pay9 qb kb (ix2 r c)) (fun c => vb (ix3 0 c e))
        else rowOf (st1 i s) r e := by
  unfold st2
  by_cases h : (i 2).val < (i 1).val
  · rw [if_pos h, if_pos h]
    exact updOff_step qb kb vb (st1 i s) r e
  · rw [if_neg h, if_neg h]

/-- After the masked-update conditional. -/
theorem st3_row' (i : grid1.Coords) (qb kb vb : Vec Ideal S1x512x1024 .bf16) (s : St Ideal) (r : Fin 512) (e : Fin 1024) :
    rowOf (st3 i qb kb vb s) r e
      = if (i 2).val = (i 1).val then
          Cert.Attn.step (rowOf (st2 i qb kb vb s) r e) (fun c => k1_pay15 qb kb (ix2 r c)) (fun c => vb (ix3 0 c e))
        else rowOf (st2 i qb kb vb s) r e := by
  unfold st3
  by_cases h : (i 2).val = (i 1).val
  · rw [if_pos h, if_pos h]
    exact updDiag_step qb kb vb (st2 i qb kb vb s) r e
  · rw [if_neg h, if_neg h]

/-- Row r of the state the body leaves: reset, then the unmasked step, then the masked step, each under its condition. -/
theorem st3_row (i : grid1.Coords) (qb kb vb : Vec Ideal S1x512x1024 .bf16) (s : St Ideal) (r : Fin 512) (e : Fin 1024) :
    ((st3 i qb kb vb s).1 (ix2 r 0), (st3 i qb kb vb s).2.1 (ix2 r 0), (st3 i qb kb vb s).2.2 (ix2 r e))
      = (let s1 : EReal × EReal × EReal :=
            if (i 2).val = 0 then ((⊥ : EReal), (0 : EReal), (0 : EReal)) else (s.1 (ix2 r 0), s.2.1 (ix2 r 0), s.2.2 (ix2 r e))
         let s2 : EReal × EReal × EReal :=
            if (i 2).val < (i 1).val then
              Cert.Attn.step s1 (fun c => k1_pay9 qb kb (ix2 r c)) (fun c => vb (ix3 0 c e))
            else s1
         if (i 2).val = (i 1).val then
           Cert.Attn.step s2 (fun c => k1_pay15 qb kb (ix2 r c)) (fun c => vb (ix3 0 c e))
         else s2) := by
  have h := st3_row' i qb kb vb s r e
  rw [st2_row, st1_row] at h
  exact h

/-! ## The specification's run, one tile further -/

/-- The run does not depend on how its length is written. -/
theorem flashRun_congr (sc vv : Fin 2048 → EReal) (qi : Fin 4) (r : Fin 512) {n n' : ℕ} (h : n = n') (hn : n ≤ 4) (hn' : n' ≤ 4) :
    Cert.Attn.flashRun sc vv qi r n hn = Cert.Attn.flashRun sc vv qi r n' hn' := by
  subst h; rfl

/-- One more tile is one more step. -/
theorem flashRun_succ (sc vv : Fin 2048 → EReal) (qi : Fin 4) (r : Fin 512) (n : ℕ) (h : n + 1 ≤ 4) :
    Cert.Attn.flashRun sc vv qi r (n + 1) h
      = Cert.Attn.step (Cert.Attn.flashRun sc vv qi r n (Nat.le_of_succ_le h))
          (Cert.Attn.tileScores sc qi r ⟨n, h⟩) (fun c => vv (Cert.Attn.col ⟨n, h⟩ c)) := rfl

/-- The state the body leaves at (b, qi, kv), row r, is the run over the tiles up to kv, capped at the diagonal tile —
    given that the state found is the run over the tiles before kv. -/
theorem st3_flashRun (i : grid1.Coords) (qb kb vb : Vec Ideal S1x512x1024 .bf16) (s : St Ideal) (r : Fin 512) (e : Fin 1024)
    (sc vv : Fin 2048 → EReal) (qi kv : Fin 4) (hqi : (i 1).val = qi.val) (hkv : (i 2).val = kv.val)
    (hsc : kv.val ≤ qi.val → ∀ c : Fin 512, k1_pay9 qb kb (ix2 r c) = sc (Cert.Attn.col kv c))
    (hv : kv.val ≤ qi.val → ∀ c : Fin 512, vb (ix3 0 c e) = vv (Cert.Attn.col kv c))
    (hprev : 0 < kv.val → (s.1 (ix2 r 0), s.2.1 (ix2 r 0), s.2.2 (ix2 r e))
        = Cert.Attn.flashRun sc vv qi r (min (kv.val - 1) qi.val + 1) (by have := qi.isLt; omega)) :
    ((st3 i qb kb vb s).1 (ix2 r 0), (st3 i qb kb vb s).2.1 (ix2 r 0), (st3 i qb kb vb s).2.2 (ix2 r e))
      = Cert.Attn.flashRun sc vv qi r (min kv.val qi.val + 1) (by have := qi.isLt; omega) := by
  have hq := qi.isLt
  have hk := kv.isLt
  rw [st3_row]
  simp only [hkv, hqi]
  -- the state after the reset conditional is the run over the tiles before kv
  have hs1 : (if kv.val = 0 then ((⊥ : EReal), (0 : EReal), (0 : EReal)) else (s.1 (ix2 r 0), s.2.1 (ix2 r 0), s.2.2 (ix2 r e)))
      = Cert.Attn.flashRun sc vv qi r (min kv.val (qi.val + 1)) (by omega) := by
    by_cases h0 : kv.val = 0
    · rw [if_pos h0]
      exact flashRun_congr sc vv qi r (by omega) (Nat.zero_le 4) _
    · rw [if_neg h0, hprev (by omega)]
      exact flashRun_congr sc vv qi r (by omega) _ _
  rw [hs1]
  -- the two score rows and the value column, as the specification's tiles
  have hoff : kv.val < qi.val → (fun c => k1_pay9 qb kb (ix2 r c)) = Cert.Attn.tileScores sc qi r kv := fun hlt => by
    funext c
    unfold Cert.Attn.tileScores
    rw [if_pos hlt]
    exact hsc (by omega) c
  have hdiag : kv.val = qi.val → (fun c => k1_pay15 qb kb (ix2 r c)) = Cert.Attn.tileScores sc qi r kv := fun heq => by
    funext c
    unfold Cert.Attn.tileScores
    rw [if_neg (by omega), k1_pay15_apply, ← k1_pay9_apply, hsc (by omega) c]
  have hval : kv.val ≤ qi.val → (fun c => vb (ix3 0 c e)) = fun c => vv (Cert.Attn.col kv c) := fun hle =>
    funext fun c => hv hle c
  rcases Nat.lt_trichotomy kv.val qi.val with hlt | heq | hgt
  · rw [if_pos hlt, if_neg (show ¬ kv.val = qi.val by omega), hoff hlt, hval (by omega)]
    refine Eq.trans ?_ (flashRun_congr sc vv qi r (by omega : kv.val + 1 = min kv.val qi.val + 1) (by omega) _)
    rw [flashRun_succ sc vv qi r kv.val (by omega)]
    exact congrArg (fun z => Cert.Attn.step z (Cert.Attn.tileScores sc qi r kv) (fun c => vv (Cert.Attn.col kv c)))
      (flashRun_congr sc vv qi r (by omega) _ _)
  · rw [if_neg (show ¬ kv.val < qi.val by omega), if_pos heq, hdiag heq, hval (by omega)]
    refine Eq.trans ?_ (flashRun_congr sc vv qi r (by omega : kv.val + 1 = min kv.val qi.val + 1) (by omega) _)
    rw [flashRun_succ sc vv qi r kv.val (by omega)]
    exact congrArg (fun z => Cert.Attn.step z (Cert.Attn.tileScores sc qi r kv) (fun c => vv (Cert.Attn.col kv c)))
      (flashRun_congr sc vv qi r (by omega) _ _)
  · rw [if_neg (show ¬ kv.val < qi.val by omega), if_neg (show ¬ kv.val = qi.val by omega)]
    exact flashRun_congr sc vv qi r (by omega) _ _

/-! ## The output block at the last tile -/

/-- At kv = 3 the output entry (0, r, e) is numerator (r, e) / denominator r of the state the body leaves. -/
theorem outAfter_last (i : grid1.Coords) (qb kb vb : Vec Ideal S1x512x1024 .bf16) (s : St Ideal)
    (o0 : Vec Ideal S1x512x1024 .f32) (h3 : (i 2).val = 3) (r : Fin 512) (e : Fin 1024) :
    outAfter i qb kb vb s o0 (ix3 0 r e)
      = Ideal.div ((st3 i qb kb vb s).2.2 (ix2 r e)) ((st3 i qb kb vb s).2.1 (ix2 r 0)) := by
  unfold outAfter
  rw [if_pos h3]
  exact k1_pay8_apply _ _ r e

end Cert.KernelIdeal.Hand

end
-- ==== Proof.LibOnlineSoftmax.lean ====
/-
  The tile-by-tile ("online") softmax-weighted sum equals the plain softmax-weighted sum,
  over the extended reals, for finite (real) inputs.

  A row of scores is cut into T tiles of columns; tile j holds the scores s j c and
  the values v j c (c ranges over a finite nonempty type of columns). The online computation carries a
  running maximum m, a running denominator l and a running numerator a, starting from
  m = ⊥ (minus infinity), l = 0, a = 0, and at tile j replaces them by

      m' = max m (max over c of s j c),
      l' = exp (m - m') * l + ∑ c, exp (s j c - m'),
      a' = exp (m - m') * a + ∑ c, exp (s j c - m') * v j c,

  where exp is the extended exponential (exp ⊥ = 0, exp ⊤ = ⊤, and the real exponential on a
  real). The plain computation takes the maximum M of all the scores, the weights
  exp (s j c - M) / Z with Z = ∑ j c, exp (s j c - M), and the sum of weight times value.

  The results: after all T tiles (T ≥ 1) the running maximum is M, the running denominator is
  Z (the coercion of a positive real), the running numerator is ∑ j c, exp (s j c - M) * v j c,
  and the quotient numerator / denominator equals the plain softmax-weighted sum.

  The first tile is the only place an infinity appears (exp (⊥ - m') = exp ⊥ = 0 kills the
  initial denominator and numerator); from then on every quantity is the coercion of a real, and
  the step is exp (M - M') * exp (x - M) = exp (x - M') under a finite sum.
-/
import Mathlib
import Idealize.ShloMosaic.PureOps.Ideal

open scoped BigOperators
open Idealize.ShloMosaic

noncomputable section

namespace OnlineSoftmax

/-! ### Coercions of reals into the extended reals -/

/-- The coercion of a finite sum of reals is the sum of the coercions. -/
theorem coe_sum {κ : Type*} (t : Finset κ) (f : κ → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The extended exponential of a difference of two reals is the real exponential of the
    difference. -/
theorem exp_coe_sub (x y : ℝ) :
    Ideal.exp ((x : EReal) - (y : EReal)) = ((Real.exp (x - y) : ℝ) : EReal) := by
  rw [← EReal.coe_sub, Ideal.exp_coe]

/-- The extended quotient of two reals with a nonzero denominator is the real quotient. -/
theorem div_coe (x y : ℝ) (hy : y ≠ 0) :
    Ideal.div (x : EReal) (y : EReal) = ((x / y : ℝ) : EReal) := by
  rw [Ideal.div, if_neg (EReal.coe_ne_zero.mpr hy), ← EReal.coe_inv, ← EReal.coe_mul,
    div_eq_mul_inv]

/-- A fold of max from ⊥ over a finite set is the supremum over that set. -/
theorem fold_max_bot {κ : Type*} (t : Finset κ) (f : κ → EReal) :
    t.fold max ⊥ f = t.sup f := rfl

variable {ι : Type*} [Fintype ι]

/-! ### One tile -/

/-- The maximum of one tile of scores in the extended reals: the supremum over the columns,
    which is ⊥ folded with max over the columns. -/
def tileMax (s : ι → ℝ) : EReal := Finset.univ.sup fun c => (s c : EReal)

/-- The maximum of a nonempty tile of real scores is (the coercion of) a real: one of the
    scores. -/
theorem tileMax_eq_coe [Nonempty ι] (s : ι → ℝ) : ∃ r : ℝ, tileMax s = (r : EReal) := by
  obtain ⟨c, -, hc⟩ :=
    Finset.exists_mem_eq_sup Finset.univ Finset.univ_nonempty (fun c => (s c : EReal))
  exact ⟨s c, hc⟩

/-- One step of the online computation: from the state (m, l, a) and a tile of scores s and
    values v, the new maximum m' = max m (tile maximum), the rescaled denominator
    exp (m - m') * l + ∑ c, exp (s c - m') and the rescaled numerator
    exp (m - m') * a + ∑ c, exp (s c - m') * v c. -/
def step (st : EReal × EReal × EReal) (s v : ι → ℝ) : EReal × EReal × EReal :=
  (max st.1 (tileMax s),
   Ideal.exp (st.1 - max st.1 (tileMax s)) * st.2.1
     + ∑ c, Ideal.exp ((s c : EReal) - max st.1 (tileMax s)),
   Ideal.exp (st.1 - max st.1 (tileMax s)) * st.2.2
     + ∑ c, Ideal.exp ((s c : EReal) - max st.1 (tileMax s)) * (v c : EReal))

/-- The first step, from (⊥, 0, 0): exp (⊥ - r) = exp ⊥ = 0 removes the initial denominator and
    numerator, and the state becomes real: the tile maximum r, ∑ c, exp (s c - r) and
    ∑ c, exp (s c - r) * v c. -/
theorem step_bot (s v : ι → ℝ) (r : ℝ) (hr : tileMax s = (r : EReal)) :
    step (⊥, 0, 0) s v
      = ((r : EReal), ((∑ c, Real.exp (s c - r) : ℝ) : EReal),
          ((∑ c, Real.exp (s c - r) * v c : ℝ) : EReal)) := by
  simp only [step, hr, bot_sup_eq, max_bot_left, EReal.bot_sub, Ideal.exp_bot, zero_mul, zero_add,
    exp_coe_sub, ← EReal.coe_mul, ← coe_sum]

/-- A later step, from a real state (M, L, A) and a tile whose maximum is the real r: the state
    stays real, with maximum max M r, denominator exp (M - max M r) * L + ∑ c, exp (s c - max M r)
    and numerator exp (M - max M r) * A + ∑ c, exp (s c - max M r) * v c. -/
theorem step_coe (M L A : ℝ) (s v : ι → ℝ) (r : ℝ) (hr : tileMax s = (r : EReal)) :
    step ((M : EReal), (L : EReal), (A : EReal)) s v
      = (((max M r : ℝ) : EReal),
          ((Real.exp (M - max M r) * L + ∑ c, Real.exp (s c - max M r) : ℝ) : EReal),
          ((Real.exp (M - max M r) * A + ∑ c, Real.exp (s c - max M r) * v c : ℝ) : EReal)) := by
  simp only [step, hr, ← coe_max, exp_coe_sub, ← EReal.coe_mul, ← coe_sum, ← EReal.coe_add]

/-! ### The tiles before a given one -/

variable {T : ℕ}

/-- The tiles of index below j. -/
def before (T j : ℕ) : Finset (Fin T) := Finset.univ.filter fun i => i.val < j

/-- No tile has index below 0. -/
theorem before_zero : before T 0 = ∅ := by simp [before]

/-- The tiles of index below j + 1 are tile j together with the tiles of index below j. -/
theorem before_succ (j : ℕ) (h : j < T) : before T (j + 1) = insert ⟨j, h⟩ (before T j) := by
  ext i
  simp only [before, Finset.mem_filter, Finset.mem_univ, true_and, Finset.mem_insert, Fin.ext_iff]
  omega

/-- Tile j is not among the tiles of index below j. -/
theorem not_mem_before (j : ℕ) (h : j < T) : (⟨j, h⟩ : Fin T) ∉ before T j := by
  simp [before]

/-- Every one of the T tiles has index below T. -/
theorem before_self : before T T = Finset.univ := by
  ext i; simp [before]

/-! ### The online computation -/

/-- The state (maximum, denominator, numerator) of the online computation after the first j
    tiles: (⊥, 0, 0) before any tile, then one step per tile. -/
def run (s v : Fin T → ι → ℝ) : (j : ℕ) → j ≤ T → EReal × EReal × EReal
  | 0, _ => (⊥, 0, 0)
  | j + 1, h => step (run s v j (Nat.le_of_succ_le h)) (s ⟨j, h⟩) (v ⟨j, h⟩)

/-- Before any tile the state is (⊥, 0, 0). -/
theorem run_zero (s v : Fin T → ι → ℝ) (h : 0 ≤ T) : run s v 0 h = (⊥, 0, 0) := rfl

/-- The state after j + 1 tiles is one step, on tile j, from the state after j tiles. -/
theorem run_succ (s v : Fin T → ι → ℝ) (j : ℕ) (h : j + 1 ≤ T) :
    run s v (j + 1) h = step (run s v j (Nat.le_of_succ_le h)) (s ⟨j, h⟩) (v ⟨j, h⟩) := rfl

/-- The running maximum after j tiles is the supremum of the maxima of those tiles. -/
theorem run_fst (s v : Fin T → ι → ℝ) (j : ℕ) (h : j ≤ T) :
    (run s v j h).1 = (before T j).sup fun i => tileMax (s i) := by
  classical
  induction j with
  | zero => rw [before_zero, Finset.sup_empty]; rfl
  | succ j ih =>
    rw [before_succ j h, Finset.sup_insert, ← ih (Nat.le_of_succ_le h), sup_comm]
    rfl

/-- The invariant. After j + 1 tiles the state is real: the maximum is a real M, the denominator
    is the sum over the tiles so far of exp (s i c - M), and the numerator is the sum over the tiles
    so far of exp (s i c - M) * v i c. -/
theorem run_closed [Nonempty ι] (s v : Fin T → ι → ℝ) (j : ℕ) (h : j + 1 ≤ T) :
    ∃ M : ℝ, run s v (j + 1) h
      = ((M : EReal),
          ((∑ i ∈ before T (j + 1), ∑ c, Real.exp (s i c - M) : ℝ) : EReal),
          ((∑ i ∈ before T (j + 1), ∑ c, Real.exp (s i c - M) * v i c : ℝ) : EReal)) := by
  classical
  induction j with
  | zero =>
    obtain ⟨r, hr⟩ := tileMax_eq_coe (s ⟨0, h⟩)
    refine ⟨r, ?_⟩
    rw [run_succ, run_zero, step_bot _ _ r hr, before_succ 0 h, before_zero]
    simp
  | succ j ih =>
    obtain ⟨M, hM⟩ := ih (Nat.le_of_succ_le h)
    obtain ⟨r, hr⟩ := tileMax_eq_coe (s ⟨j + 1, h⟩)
    refine ⟨max M r, ?_⟩
    have hx : ∀ x : ℝ, M - max M r + (x - M) = x - max M r := fun x => by ring
    rw [run_succ, hM, step_coe _ _ _ _ _ r hr, before_succ (j + 1) h,
      Finset.sum_insert (not_mem_before _ _), Finset.sum_insert (not_mem_before _ _)]
    congr 3
    · rw [Finset.mul_sum, add_comm]
      congr 1
      refine Finset.sum_congr rfl fun i _ => ?_
      rw [Finset.mul_sum]
      refine Finset.sum_congr rfl fun c _ => ?_
      rw [← Real.exp_add, hx]
    · rw [Finset.mul_sum, add_comm]
      congr 1
      refine Finset.sum_congr rfl fun i _ => ?_
      rw [Finset.mul_sum]
      refine Finset.sum_congr rfl fun c _ => ?_
      rw [← mul_assoc, ← Real.exp_add, hx]

/-! ### The plain computation, and the equality -/

/-- The maximum of all the scores in the extended reals: the supremum over all tiles and
    columns. -/
def globalMax (s : Fin T → ι → ℝ) : EReal :=
  Finset.univ.sup fun p : Fin T × ι => (s p.1 p.2 : EReal)

/-- The maximum of all the scores is the supremum over the tiles of the tile maxima. -/
theorem globalMax_eq_sup_tileMax (s : Fin T → ι → ℝ) :
    globalMax s = Finset.univ.sup fun j => tileMax (s j) := by
  unfold globalMax tileMax
  rw [← Finset.univ_product_univ, Finset.sup_product_left]

/-- After all the tiles the running maximum is the maximum of all the scores. -/
theorem run_final_fst (s v : Fin T → ι → ℝ) :
    (run s v T le_rfl).1 = globalMax s := by
  rw [run_fst, before_self, globalMax_eq_sup_tileMax]

/-- After all T ≥ 1 tiles the state is real and in closed form: there are reals M and L with
    0 < L such that the maximum of all the scores is M, the running maximum is M, the running
    denominator is L = ∑ j c, exp (s j c - M), and the running numerator is
    ∑ j c, exp (s j c - M) * v j c. -/
theorem run_final_real [NeZero T] [Nonempty ι] (s v : Fin T → ι → ℝ) :
    ∃ M L : ℝ, globalMax s = (M : EReal) ∧ 0 < L ∧ L = ∑ j, ∑ c, Real.exp (s j c - M) ∧
      run s v T le_rfl
        = ((M : EReal), (L : EReal), ((∑ j, ∑ c, Real.exp (s j c - M) * v j c : ℝ) : EReal)) := by
  obtain ⟨n, rfl⟩ := Nat.exists_eq_succ_of_ne_zero (NeZero.ne T)
  obtain ⟨M, hM⟩ := run_closed s v n le_rfl
  rw [before_self] at hM
  refine ⟨M, _, ?_, ?_, rfl, hM⟩
  · rw [← run_final_fst s v, hM]
  · exact Finset.sum_pos (fun j _ => Finset.sum_pos (fun c _ => Real.exp_pos _)
      Finset.univ_nonempty) Finset.univ_nonempty

/-- After all T ≥ 1 tiles the running denominator is the coercion of a positive real; in
    particular it is neither zero nor infinite. -/
theorem run_final_denominator_pos [NeZero T] [Nonempty ι] (s v : Fin T → ι → ℝ) :
    ∃ L : ℝ, 0 < L ∧ (run s v T le_rfl).2.1 = (L : EReal) := by
  obtain ⟨M, L, -, hL, -, hrun⟩ := run_final_real s v
  exact ⟨L, hL, by rw [hrun]⟩

/-- After all T ≥ 1 tiles the running denominator is the plain denominator
    ∑ j c, exp (s j c - M), with M the maximum of all the scores. -/
theorem run_final_denominator [NeZero T] [Nonempty ι] (s v : Fin T → ι → ℝ) :
    (run s v T le_rfl).2.1 = ∑ j, ∑ c, Ideal.exp ((s j c : EReal) - globalMax s) := by
  obtain ⟨M, L, hM, -, hL, hrun⟩ := run_final_real s v
  rw [hrun, hM, hL]
  simp only [exp_coe_sub, ← coe_sum]

/-- After all T ≥ 1 tiles the running numerator is the plain numerator
    ∑ j c, exp (s j c - M) * v j c, with M the maximum of all the scores. -/
theorem run_final_numerator [NeZero T] [Nonempty ι] (s v : Fin T → ι → ℝ) :
    (run s v T le_rfl).2.2
      = ∑ j, ∑ c, Ideal.exp ((s j c : EReal) - globalMax s) * (v j c : EReal) := by
  obtain ⟨M, L, hM, -, -, hrun⟩ := run_final_real s v
  rw [hrun, hM]
  simp only [exp_coe_sub, ← EReal.coe_mul, ← coe_sum]

/-- The online softmax-weighted sum equals the plain one. After all T ≥ 1 tiles, the running
    numerator divided by the running denominator is ∑ j c, (exp (s j c - M) / Z) * v j c, where M
    is the maximum of all the scores and Z = ∑ j c, exp (s j c - M). -/
theorem online_softmax [NeZero T] [Nonempty ι] (s v : Fin T → ι → ℝ) :
    Ideal.div (run s v T le_rfl).2.2 (run s v T le_rfl).2.1
      = ∑ j, ∑ c,
          Ideal.div (Ideal.exp ((s j c : EReal) - globalMax s))
              (∑ j', ∑ c', Ideal.exp ((s j' c' : EReal) - globalMax s))
            * (v j c : EReal) := by
  obtain ⟨M, L, hM, hLpos, hL, hrun⟩ := run_final_real s v
  have hZ : (∑ j', ∑ c', Ideal.exp ((s j' c' : EReal) - globalMax s)) = (L : EReal) := by
    rw [← run_final_denominator s v, hrun]
  rw [hZ, hrun, hM]
  simp only [exp_coe_sub, div_coe _ _ hLpos.ne', ← EReal.coe_mul, ← coe_sum]
  congr 1
  rw [Finset.sum_div]
  refine Finset.sum_congr rfl fun j _ => ?_
  rw [Finset.sum_div]
  refine Finset.sum_congr rfl fun c _ => ?_
  ring

end OnlineSoftmax
-- ==== Proof.FlashRow.lean ====
/-
  The tile-by-tile running softmax over a causal row equals the plain softmax-weighted sum.

  A row of 2048 scores of which the entries after the query position i = 512 * qi + r are ⊥ (minus
  infinity) is cut into tiles of 512 columns. The running computation visits tiles 0 .. qi, carries
  a maximum, a denominator and a numerator from (⊥, 0, 0), and at the end divides numerator by
  denominator. Every entry of the row is either a real or ⊥, so for a real shift M the extended
  exponential exp (y - M) of an entry y is the coercion of a real weight: exp of a real for a
  real y, 0 for y = ⊥. With this weight the argument is the one for real scores: the first tile has
  a real entry (column 0), so after it the state is real, and the step is
  exp (M - M') * weight M y = weight M' y under finite sums. The tiles after qi hold only ⊥, weigh 0,
  and the 4 × 512 grouped sums are the sums over the 2048 positions.

  Also here: the projections and scores of real inputs are real.
-/
import Mathlib
import Idealize.ShloMosaic.PureOps.Ideal
import proofs.«102304_j24240795419222_2_alg».proof.Proof.Spec
import proofs.«102304_j24240795419222_2_alg».proof.Proof.LibOnlineSoftmax

open scoped BigOperators
open Idealize.ShloMosaic
open OnlineSoftmax (coe_sum coe_max exp_coe_sub before before_zero before_succ not_mem_before)

noncomputable section

namespace Cert.Attn

/-! ### The weight of an entry that is a real or ⊥ -/

/-- The weight of the entry y under the shift M: exp (y - M) for a real y, 0 for y = ⊥. -/
def wt (M : ℝ) (y : EReal) : ℝ := if y = ⊥ then 0 else Real.exp (y.toReal - M)

theorem wt_bot (M : ℝ) : wt M ⊥ = 0 := if_pos rfl

theorem wt_coe (M x : ℝ) : wt M (x : EReal) = Real.exp (x - M) := by
  rw [wt, if_neg (EReal.coe_ne_bot x), EReal.toReal_coe]

theorem wt_nonneg (M : ℝ) (y : EReal) : 0 ≤ wt M y := by
  unfold wt
  split_ifs
  · exact le_rfl
  · exact (Real.exp_pos _).le

/-- The extended exponential of an entry below ⊤ minus a real shift is the coercion of its
    weight. -/
theorem exp_sub_coe {y : EReal} (hy : y ≠ ⊤) (M : ℝ) :
    Ideal.exp (y - (M : EReal)) = ((wt M y : ℝ) : EReal) := by
  induction y using EReal.rec with
  | bot => rw [EReal.bot_sub, Ideal.exp_bot, wt_bot, EReal.coe_zero]
  | coe x => rw [exp_coe_sub, wt_coe]
  | top => exact absurd rfl hy

/-- Changing the shift: exp (M - M') * weight M y = weight M' y. -/
theorem wt_rescale (M M' : ℝ) (y : EReal) : Real.exp (M - M') * wt M y = wt M' y := by
  unfold wt
  split_ifs
  · rw [mul_zero]
  · rw [← Real.exp_add]
    congr 1
    ring

/-! ### One tile -/

/-- The supremum of a tile with no ⊤ entry is not ⊤: it is one of the entries. -/
theorem tile_sup_ne_top (s : Fin 512 → EReal) (hs : ∀ c, s c ≠ ⊤) : Finset.univ.sup s ≠ ⊤ := by
  obtain ⟨c, -, hc⟩ := Finset.exists_mem_eq_sup Finset.univ Finset.univ_nonempty s
  rw [hc]
  exact hs c

/-- The supremum of a tile with no ⊤ entry and some entry above ⊥ is a real. -/
theorem tile_sup_real (s : Fin 512 → EReal) (hs : ∀ c, s c ≠ ⊤) (c0 : Fin 512) (h0 : s c0 ≠ ⊥) :
    ∃ m : ℝ, Finset.univ.sup s = (m : EReal) := by
  refine ⟨(Finset.univ.sup s).toReal, (EReal.coe_toReal (tile_sup_ne_top s hs) ?_).symm⟩
  intro hbot
  have hle : s c0 ≤ Finset.univ.sup s := Finset.le_sup (Finset.mem_univ c0)
  rw [hbot] at hle
  exact h0 (le_bot_iff.mp hle)

/-- The larger of a real and an entry below ⊤ is a real. -/
theorem max_coe_real (M : ℝ) (t : EReal) (ht : t ≠ ⊤) : ∃ M' : ℝ, max (M : EReal) t = (M' : EReal) := by
  induction t using EReal.rec with
  | bot => exact ⟨M, max_bot_right _⟩
  | coe x => exact ⟨max M x, (coe_max M x).symm⟩
  | top => exact absurd rfl ht

/-- The first step, from (⊥, 0, 0), on a tile whose supremum is the real m: exp (⊥ - m) = 0 removes
    the initial denominator and numerator and the state becomes real. -/
theorem step_bot (s : Fin 512 → EReal) (vt : Fin 512 → ℝ) (hs : ∀ c, s c ≠ ⊤) (m : ℝ)
    (hm : Finset.univ.sup s = (m : EReal)) :
    step (⊥, 0, 0) s (fun c => (vt c : EReal))
      = ((m : EReal), ((∑ c, wt m (s c) : ℝ) : EReal), ((∑ c, wt m (s c) * vt c : ℝ) : EReal)) := by
  simp only [step, hm, bot_sup_eq, max_bot_left, EReal.bot_sub, Ideal.exp_bot, zero_mul, zero_add,
    exp_sub_coe (hs _), ← EReal.coe_mul, ← coe_sum]

/-- A later step, from a real state (M, L, A), the new maximum being the real M': the state stays
    real. -/
theorem step_coe (M L A : ℝ) (s : Fin 512 → EReal) (vt : Fin 512 → ℝ) (hs : ∀ c, s c ≠ ⊤) (M' : ℝ)
    (hM' : max (M : EReal) (Finset.univ.sup s) = (M' : EReal)) :
    step ((M : EReal), (L : EReal), (A : EReal)) s (fun c => (vt c : EReal))
      = ((M' : EReal),
          ((Real.exp (M - M') * L + ∑ c, wt M' (s c) : ℝ) : EReal),
          ((Real.exp (M - M') * A + ∑ c, wt M' (s c) * vt c : ℝ) : EReal)) := by
  simp only [step, hM', exp_coe_sub, exp_sub_coe (hs _), ← EReal.coe_mul, ← coe_sum,
    ← EReal.coe_add]

/-! ### The 2048 positions as 4 tiles of 512 columns -/

/-- Every position is column j % 512 of tile j / 512. -/
theorem col_div_mod (j : Fin 2048) :
    col ⟨j.val / 512, by omega⟩ ⟨j.val % 512, Nat.mod_lt _ (by norm_num)⟩ = j := by
  apply Fin.ext
  simp only [col]
  omega

/-- The pairs (tile, column) are the positions. -/
def tileEquiv : Fin 4 × Fin 512 ≃ Fin 2048 where
  toFun p := col p.1 p.2
  invFun j := (⟨j.val / 512, by omega⟩, ⟨j.val % 512, Nat.mod_lt _ (by norm_num)⟩)
  left_inv p := by
    obtain ⟨⟨a, ha⟩, ⟨c, hc⟩⟩ := p
    simp only [col, Prod.mk.injEq, Fin.mk.injEq]
    omega
  right_inv j := col_div_mod j

/-- A sum over the positions grouped by tile. -/
theorem sum_tiles (f : Fin 2048 → ℝ) : ∑ kv : Fin 4, ∑ c : Fin 512, f (col kv c) = ∑ j, f j := by
  rw [← Finset.sum_product', Finset.univ_product_univ]
  exact Fintype.sum_equiv tileEquiv _ _ (fun _ => rfl)

/-! ### The causal row and its tiles -/

variable (sc v : Fin 2048 → ℝ) (qi : Fin 4) (r : Fin 512)

/-- The query position 512 * qi + r. -/
def qpos : Fin 2048 := ⟨512 * qi.val + r.val, by omega⟩

/-- The causal row of query position 512 * qi + r. -/
def crow : Fin 2048 → EReal := causal (fun j => (sc j : EReal)) (qpos qi r)

theorem crow_ne_top (j : Fin 2048) : crow sc qi r j ≠ ⊤ := by
  unfold crow causal
  split_ifs
  · exact EReal.coe_ne_top _
  · exact bot_ne_top

/-- Up to the diagonal tile, the tile the running computation sees is the tile of the causal
    row. -/
theorem tileScores_eq (kv : Fin 4) (hkv : kv.val ≤ qi.val) (c : Fin 512) :
    tileScores (fun j => (sc j : EReal)) qi r kv c = crow sc qi r (col kv c) := by
  unfold tileScores crow causal qpos col
  by_cases h1 : kv.val < qi.val
  · rw [if_pos h1, if_pos (by simp only; omega)]
  · have h2 : kv.val = qi.val := by omega
    rw [if_neg h1]
    by_cases h3 : c.val ≤ r.val
    · rw [if_pos h3, if_pos (by simp only; omega)]
    · rw [if_neg h3, if_neg (by simp only; omega)]

/-- After the diagonal tile the causal row holds only ⊥. -/
theorem crow_after (kv : Fin 4) (hkv : qi.val < kv.val) (c : Fin 512) :
    crow sc qi r (col kv c) = ⊥ := by
  unfold crow causal qpos col
  rw [if_neg (by simp only; omega)]

/-- Column 0 of tile 0 is a real entry of the causal row. -/
theorem crow_zero : crow sc qi r (col 0 0) ≠ ⊥ := by
  unfold crow causal qpos col
  rw [if_pos (by simp)]
  exact EReal.coe_ne_bot _

/-! ### The running computation -/

theorem flashRun_succ (s w : Fin 2048 → EReal) (n : ℕ) (h : n + 1 ≤ 4) :
    flashRun s w qi r (n + 1) h
      = step (flashRun s w qi r n (Nat.le_of_succ_le h)) (tileScores s qi r ⟨n, h⟩)
          (fun c => w (col ⟨n, h⟩ c)) := rfl

/-- The running maximum after n tiles is the supremum of the suprema of those tiles. -/
theorem flashRun_fst (s w : Fin 2048 → EReal) (n : ℕ) (h : n ≤ 4) :
    (flashRun s w qi r n h).1
      = (before 4 n).sup fun kv => Finset.univ.sup (tileScores s qi r kv) := by
  classical
  induction n with
  | zero => rw [before_zero, Finset.sup_empty]; rfl
  | succ n ih =>
    rw [before_succ n h, Finset.sup_insert, ← ih (Nat.le_of_succ_le h), sup_comm]
    rfl

/-- The invariant. After n + 1 ≤ qi + 1 tiles the state is real: a real maximum M, the sum over the
    tiles so far of the weights, and the sum over the tiles so far of weight times value. -/
theorem flashRun_closed (n : ℕ) (h : n + 1 ≤ 4) (hn : n ≤ qi.val) :
    ∃ M : ℝ, flashRun (fun j => (sc j : EReal)) (fun j => (v j : EReal)) qi r (n + 1) h
      = ((M : EReal),
          ((∑ kv ∈ before 4 (n + 1), ∑ c, wt M (crow sc qi r (col kv c)) : ℝ) : EReal),
          ((∑ kv ∈ before 4 (n + 1), ∑ c, wt M (crow sc qi r (col kv c)) * v (col kv c) : ℝ)
            : EReal)) := by
  classical
  induction n with
  | zero =>
    have htile : tileScores (fun j => (sc j : EReal)) qi r ⟨0, h⟩
        = fun c => crow sc qi r (col ⟨0, h⟩ c) :=
      funext fun c => tileScores_eq sc qi r ⟨0, h⟩ (Nat.zero_le _) c
    have hs : ∀ c, crow sc qi r (col ⟨0, h⟩ c) ≠ ⊤ := fun c => crow_ne_top sc qi r _
    obtain ⟨m, hm⟩ := tile_sup_real (fun c => crow sc qi r (col ⟨0, h⟩ c)) hs 0 (crow_zero sc qi r)
    refine ⟨m, ?_⟩
    rw [flashRun_succ, htile]
    change step (⊥, 0, 0) _ (fun c => ((v (col ⟨0, h⟩ c) : ℝ) : EReal)) = _
    rw [step_bot _ _ hs m hm, before_succ 0 h, before_zero]
    simp
  | succ n ih =>
    obtain ⟨M, hM⟩ := ih (Nat.le_of_succ_le h) (Nat.le_of_succ_le hn)
    have htile : tileScores (fun j => (sc j : EReal)) qi r ⟨n + 1, h⟩
        = fun c => crow sc qi r (col ⟨n + 1, h⟩ c) :=
      funext fun c => tileScores_eq sc qi r ⟨n + 1, h⟩ hn c
    have hs : ∀ c, crow sc qi r (col ⟨n + 1, h⟩ c) ≠ ⊤ := fun c => crow_ne_top sc qi r _
    obtain ⟨M', hM'⟩ := max_coe_real M _ (tile_sup_ne_top _ hs)
    refine ⟨M', ?_⟩
    rw [flashRun_succ, hM, htile]
    change step _ _ (fun c => ((v (col ⟨n + 1, h⟩ c) : ℝ) : EReal)) = _
    rw [step_coe _ _ _ _ _ hs M' hM', before_succ (n + 1) h,
      Finset.sum_insert (not_mem_before _ _), Finset.sum_insert (not_mem_before _ _)]
    congr 3
    · rw [Finset.mul_sum, add_comm]
      congr 1
      refine Finset.sum_congr rfl fun kv _ => ?_
      rw [Finset.mul_sum]
      refine Finset.sum_congr rfl fun c _ => ?_
      rw [wt_rescale]
    · rw [Finset.mul_sum, add_comm]
      congr 1
      refine Finset.sum_congr rfl fun kv _ => ?_
      rw [Finset.mul_sum]
      refine Finset.sum_congr rfl fun c _ => ?_
      rw [← mul_assoc, wt_rescale]

/-! ### The final maximum is the supremum of the causal row -/

/-- After qi + 1 tiles the running maximum is the supremum of the causal row. -/
theorem flashRun_final_fst (w : Fin 2048 → EReal) (h : qi.val + 1 ≤ 4) :
    (flashRun (fun j => (sc j : EReal)) w qi r (qi.val + 1) h).1
      = Finset.univ.sup (crow sc qi r) := by
  rw [flashRun_fst]
  apply le_antisymm
  · refine Finset.sup_le fun kv hkv => Finset.sup_le fun c _ => ?_
    have hk : kv.val ≤ qi.val := by
      have := (Finset.mem_filter.mp hkv).2
      omega
    rw [tileScores_eq sc qi r kv hk c]
    exact Finset.le_sup (Finset.mem_univ _)
  · refine Finset.sup_le fun j _ => ?_
    by_cases hj : j.val ≤ (qpos qi r).val
    · have hk : j.val / 512 ≤ qi.val := by
        have : (qpos qi r).val = 512 * qi.val + r.val := rfl
        omega
      have hmem : (⟨j.val / 512, by omega⟩ : Fin 4) ∈ before 4 (qi.val + 1) := by
        simp only [before, Finset.mem_filter, Finset.mem_univ, true_and]
        omega
      have h1 := tileScores_eq sc qi r ⟨j.val / 512, by omega⟩ hk
        ⟨j.val % 512, Nat.mod_lt _ (by norm_num)⟩
      rw [col_div_mod] at h1
      rw [← h1]
      exact le_trans
        (Finset.le_sup (f := tileScores (fun j => (sc j : EReal)) qi r ⟨j.val / 512, by omega⟩)
          (Finset.mem_univ _))
        (Finset.le_sup
          (f := fun kv => Finset.univ.sup (tileScores (fun j => (sc j : EReal)) qi r kv)) hmem)
    · have : crow sc qi r j = ⊥ := by
        unfold crow causal
        rw [if_neg hj]
      rw [this]
      exact bot_le

/-! ### The theorem -/

/-- The sum over the tiles up to the diagonal one of a function that vanishes on the later tiles is
    the sum over all positions. -/
theorem sum_visited (f : Fin 2048 → ℝ) (hf : ∀ kv : Fin 4, qi.val < kv.val → ∀ c, f (col kv c) = 0) :
    ∑ kv ∈ before 4 (qi.val + 1), ∑ c, f (col kv c) = ∑ j, f j := by
  rw [← sum_tiles f]
  refine Finset.sum_subset (Finset.subset_univ _) fun kv _ hkv => ?_
  have hk : qi.val < kv.val := by
    simp only [before, Finset.mem_filter, Finset.mem_univ, true_and] at hkv
    omega
  exact Finset.sum_eq_zero fun c _ => hf kv hk c

/-- The running softmax over tiles 0 .. qi of the causal row of query position 512 * qi + r,
    numerator over denominator, is the plain softmax-weighted sum of that row. -/
theorem flash_row (sc v : Fin 2048 → ℝ) (qi : Fin 4) (r : Fin 512) :
    Ideal.div
        (flashRun (fun j => (sc j : EReal)) (fun j => (v j : EReal)) qi r (qi.val + 1)
          (by omega)).2.2
        (flashRun (fun j => (sc j : EReal)) (fun j => (v j : EReal)) qi r (qi.val + 1)
          (by omega)).2.1
      = rowOut (causal (fun j => (sc j : EReal)) ⟨512 * qi.val + r.val, by omega⟩)
          (fun j => (v j : EReal)) := by
  have h4 : qi.val + 1 ≤ 4 := by omega
  obtain ⟨M, hM⟩ := flashRun_closed sc v qi r qi.val h4 le_rfl
  have hsup : Finset.univ.sup (crow sc qi r) = (M : EReal) := by
    rw [← flashRun_final_fst sc qi r (fun j => (v j : EReal)) h4, hM]
  have hZ : ∑ kv ∈ before 4 (qi.val + 1), ∑ c, wt M (crow sc qi r (col kv c))
      = ∑ j, wt M (crow sc qi r j) :=
    sum_visited qi (fun j => wt M (crow sc qi r j)) fun kv hk c => by
      rw [crow_after sc qi r kv hk c, wt_bot]
  have hA : ∑ kv ∈ before 4 (qi.val + 1), ∑ c, wt M (crow sc qi r (col kv c)) * v (col kv c)
      = ∑ j, wt M (crow sc qi r j) * v j :=
    sum_visited qi (fun j => wt M (crow sc qi r j) * v j) fun kv hk c => by
      rw [crow_after sc qi r kv hk c, wt_bot, zero_mul]
  have hpos : 0 < ∑ j, wt M (crow sc qi r j) := by
    refine Finset.sum_pos' (fun j _ => wt_nonneg M _) ⟨col 0 0, Finset.mem_univ _, ?_⟩
    unfold wt
    rw [if_neg (crow_zero sc qi r)]
    exact Real.exp_pos _
  rw [hM, hZ, hA]
  change _ = rowOut (crow sc qi r) (fun j => (v j : EReal))
  unfold rowOut
  rw [hsup]
  simp only [exp_sub_coe (crow_ne_top sc qi r _), ← coe_sum,
    OnlineSoftmax.div_coe _ _ hpos.ne', ← EReal.coe_mul]
  congr 1
  rw [Finset.sum_div]
  refine Finset.sum_congr rfl fun j _ => ?_
  ring

/-! ### Real inputs give real projections and scores -/

/-- The projection of real inputs is real. -/
theorem proj_coe (x : Fin 4 → Fin 2048 → Fin 1024 → ℝ) (w : Fin 1024 → Fin 1024 → ℝ)
    (b : Fin 4) (t : Fin 2048) (e : Fin 1024) :
    proj (fun b t d => (x b t d : EReal)) (fun d e => (w d e : EReal)) b t e
      = ((∑ d, x b t d * w d e : ℝ) : EReal) := by
  simp only [proj, ← EReal.coe_mul, ← coe_sum]

/-- The score of real queries and keys is real. -/
theorem score_coe (q k : Fin 4 → Fin 2048 → Fin 1024 → ℝ) (b : Fin 4) (i j : Fin 2048) :
    score (fun b t e => (q b t e : EReal)) (fun b t e => (k b t e : EReal)) b i j
      = (((∑ e, q b i e * k b j e) * (1 / 32) : ℝ) : EReal) := by
  simp only [score, ← EReal.coe_mul, ← coe_sum]

/-- If X and W are real-valued then so is the projection. -/
theorem proj_real (X : Fin 4 → Fin 2048 → Fin 1024 → EReal) (W : Fin 1024 → Fin 1024 → EReal)
    (hX : ∀ b t d, ∃ x : ℝ, X b t d = (x : EReal)) (hW : ∀ d e, ∃ w : ℝ, W d e = (w : EReal)) :
    ∃ f : Fin 4 → Fin 2048 → Fin 1024 → ℝ, ∀ b t e, proj X W b t e = (f b t e : EReal) := by
  choose x hx using hX
  choose w hw using hW
  refine ⟨fun b t e => ∑ d, x b t d * w d e, fun b t e => ?_⟩
  have hX' : X = fun b t d => (x b t d : EReal) := by funext b t d; exact hx b t d
  have hW' : W = fun d e => (w d e : EReal) := by funext d e; exact hw d e
  rw [hX', hW', proj_coe]

/-- If q and k are real-valued then so is the score. -/
theorem score_real (q k : Fin 4 → Fin 2048 → Fin 1024 → EReal)
    (hq : ∀ b t e, ∃ x : ℝ, q b t e = (x : EReal)) (hk : ∀ b t e, ∃ x : ℝ, k b t e = (x : EReal)) :
    ∃ f : Fin 4 → Fin 2048 → Fin 2048 → ℝ, ∀ b i j, score q k b i j = (f b i j : EReal) := by
  choose x hx using hq
  choose y hy using hk
  refine ⟨fun b i j => (∑ e, x b i e * y b j e) * (1 / 32), fun b i j => ?_⟩
  have hq' : q = fun b t e => (x b t e : EReal) := by funext b t e; exact hx b t e
  have hk' : k = fun b t e => (y b t e : EReal) := by funext b t e; exact hy b t e
  rw [hq', hk', score_coe]

/-! ### Attention of real inputs, tile by tile -/

/-- For real-valued inputs, the running softmax over tiles 0 .. qi of the scores of query position
    512 * qi + r against the keys, with the values' column e, numerator over denominator, is causal
    attention at (b, 512 * qi + r, e). -/
theorem flash_attn (X : Fin 4 → Fin 2048 → Fin 1024 → EReal) (Wq Wk Wv : Fin 1024 → Fin 1024 → EReal)
    (hX : ∀ b t d, ∃ x : ℝ, X b t d = (x : EReal))
    (hWq : ∀ d e, ∃ w : ℝ, Wq d e = (w : EReal)) (hWk : ∀ d e, ∃ w : ℝ, Wk d e = (w : EReal))
    (hWv : ∀ d e, ∃ w : ℝ, Wv d e = (w : EReal))
    (b : Fin 4) (qi : Fin 4) (r : Fin 512) (e : Fin 1024) :
    Ideal.div
        (flashRun (score (proj X Wq) (proj X Wk) b ⟨512 * qi.val + r.val, by omega⟩)
          (fun j => proj X Wv b j e) qi r (qi.val + 1) (by omega)).2.2
        (flashRun (score (proj X Wq) (proj X Wk) b ⟨512 * qi.val + r.val, by omega⟩)
          (fun j => proj X Wv b j e) qi r (qi.val + 1) (by omega)).2.1
      = attn X Wq Wk Wv b ⟨512 * qi.val + r.val, by omega⟩ e := by
  obtain ⟨fq, hfq⟩ := proj_real X Wq hX hWq
  obtain ⟨fk, hfk⟩ := proj_real X Wk hX hWk
  obtain ⟨fv, hfv⟩ := proj_real X Wv hX hWv
  obtain ⟨fs, hfs⟩ := score_real (proj X Wq) (proj X Wk) (fun b t e => ⟨_, hfq b t e⟩)
    (fun b t e => ⟨_, hfk b t e⟩)
  have h1 : score (proj X Wq) (proj X Wk) b ⟨512 * qi.val + r.val, by omega⟩
      = fun j => ((fs b ⟨512 * qi.val + r.val, by omega⟩ j : ℝ) : EReal) := funext (hfs b _)
  have h2 : (fun j => proj X Wv b j e) = fun j => ((fv b j e : ℝ) : EReal) :=
    funext fun j => hfv b j e
  unfold attn
  rw [h1, h2]
  exact flash_row _ _ qi r

end Cert.Attn

end
-- ==== Proof.Val1Blocks.lean ====
/-
  What the attention kernel's score and value tiles are at a grid point, in the specification's
  words. At point t = 16 · b + 4 · qi + kv with kv ≤ qi, the query block is rows
  512 · qi .. 512 · qi + 511 of q in batch b, the key and value blocks rows
  512 · kv .. 512 · kv + 511 of k and v; so entry (r, cc) of the unmasked score tile is the scaled
  score of query position 512 · qi + r against key position 512 · kv + cc, and entry (cc, e) of the
  value block is the projected value at key position 512 · kv + cc.
-/
import proofs.«102304_j24240795419222_2_alg».proof.Proof.ValQKV
import proofs.«102304_j24240795419222_2_alg».proof.Proof.Idx1
import proofs.«102304_j24240795419222_2_alg».proof.Proof.PayFlash
import proofs.«102304_j24240795419222_2_alg».proof.Proof.Spec

set_option maxRecDepth 16384

open scoped BigOperators

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## The coordinates of a grid point -/

/-- The batch of point t. -/
abbrev bOf (t : Fin cfg1.N) : Fin 4 := ⟨t.val / 16, by have := t1_lt t; omega⟩
/-- The query tile of point t. -/
abbrev qiOf (t : Fin cfg1.N) : Fin 4 := ⟨t.val / 4 % 4, by omega⟩
/-- The key tile of point t. -/
abbrev kvOf (t : Fin cfg1.N) : Fin 4 := ⟨t.val % 4, by omega⟩

/-! ## The entries of the three input blocks -/

/-- Entry (0, r, e) of the query block at point t is entry (b, 512 · qi + r, e) of q. -/
theorem qblk_apply (c : Dev nD) (t : Fin cfg1.N) (r : Fin 512) (e : Fin 1024) :
    (((cfg1.win 0).blk t).view.read (Elt Ideal) (V3 (F := Ideal) m c (Pipeline.arrRef spec1 0))
        : Vec Ideal S1x512x1024 .bf16) (ix3 0 r e)
      = Cert.Attn.proj (Xf m c) (Wqf m c) (bOf t) ⟨512 * (qiOf t).val + r.val, by omega⟩ e := by
  show qArr m c (((cfg1.win 0).blk t).view.emb (ix3 0 r e)) = _
  rw [emb1_0 t (ix3 0 r e)]
  exact q_apply m c _ _ _

/-- Entry (0, cc, e) of the key block at a point at or below the diagonal (kv ≤ qi) is entry
    (b, 512 · kv + cc, e) of k. -/
theorem kblk_apply (c : Dev nD) (t : Fin cfg1.N) (cc : Fin 512) (e : Fin 1024)
    (hle : t.val % 4 ≤ t.val / 4 % 4) :
    (((cfg1.win 1).blk t).view.read (Elt Ideal) (V3 (F := Ideal) m c (Pipeline.arrRef spec1 1))
        : Vec Ideal S1x512x1024 .bf16) (ix3 0 cc e)
      = Cert.Attn.proj (Xf m c) (Wkf m c) (bOf t) (Cert.Attn.col (kvOf t) cc) e := by
  show kArr m c (((cfg1.win 1).blk t).view.emb (ix3 0 cc e)) = _
  rw [emb1_1 t (ix3 0 cc e), k_apply]
  exact congrArg (fun i => Cert.Attn.proj (Xf m c) (Wkf m c) (bOf t) i e)
    (Fin.ext (by
      show 512 * min (t.val % 4) (t.val / 4 % 4) + cc.val = 512 * (t.val % 4) + cc.val
      rw [min_eq_left hle]))

/-- Entry (0, cc, e) of the value block at a point at or below the diagonal (kv ≤ qi) is entry
    (b, 512 · kv + cc, e) of v. -/
theorem value_tile (c : Dev nD) (t : Fin cfg1.N) (cc : Fin 512) (e : Fin 1024)
    (hle : t.val % 4 ≤ t.val / 4 % 4) :
    (((cfg1.win 2).blk t).view.read (Elt Ideal) (V3 (F := Ideal) m c (Pipeline.arrRef spec1 2))
        : Vec Ideal S1x512x1024 .bf16) (ix3 0 cc e)
      = Cert.Attn.proj (Xf m c) (Wvf m c) (bOf t) (Cert.Attn.col (kvOf t) cc) e := by
  show vArr m c (((cfg1.win 2).blk t).view.emb (ix3 0 cc e)) = _
  rw [emb1_2 t (ix3 0 cc e), v_apply]
  exact congrArg (fun i => Cert.Attn.proj (Xf m c) (Wvf m c) (bOf t) i e)
    (Fin.ext (by
      show 512 * min (t.val % 4) (t.val / 4 % 4) + cc.val = 512 * (t.val % 4) + cc.val
      rw [min_eq_left hle]))

/-! ## The score tile -/

/-- At a point at or below the diagonal (kv ≤ qi), entry (r, cc) of the unmasked score tile is the
    scaled score of query position 512 · qi + r against key position 512 · kv + cc in batch b. -/
theorem score_tile (c : Dev nD) (t : Fin cfg1.N) (r cc : Fin 512) (hle : t.val % 4 ≤ t.val / 4 % 4) :
    k1_pay9
        (((cfg1.win 0).blk t).view.read (Elt Ideal) (V3 (F := Ideal) m c (Pipeline.arrRef spec1 0))
          : Vec Ideal S1x512x1024 .bf16)
        (((cfg1.win 1).blk t).view.read (Elt Ideal) (V3 (F := Ideal) m c (Pipeline.arrRef spec1 1))
          : Vec Ideal S1x512x1024 .bf16)
        (ix2 r cc)
      = Cert.Attn.score (Cert.Attn.proj (Xf m c) (Wqf m c)) (Cert.Attn.proj (Xf m c) (Wkf m c)) (bOf t)
          ⟨512 * (qiOf t).val + r.val, by omega⟩ (Cert.Attn.col (kvOf t) cc) := by
  rw [Pay.k1_pay9_apply]
  unfold Cert.Attn.score
  refine congrArg (· * (((1 / 32 : ℝ)) : EReal)) (Finset.sum_congr rfl fun e _ => ?_)
  rw [qblk_apply m c t r e, kblk_apply m c t cc e hle]

end Cert.KernelIdeal.Hand

end
-- ==== Proof.Val1Inv.lean ====
/-
  The attention launch over its 64 grid points, row by row.

  Point t has coordinates (b, qi, kv) = (t / 16, t / 4 % 4, t % 4). The carried state after the body at
  point t is, for local row r and output column e, the specification's running softmax of query position
  512 · qi + r over the key tiles 0 .. min kv qi — by induction along the points: the point's query, key
  and value blocks are tiles of the projections q, k, v, the first key tile resets, and a point past the
  diagonal leaves the state alone. At the last key tile (kv = 3) the output block gets
  numerator / denominator, which for real inputs is causal attention at (b, 512 · qi + r, e).
-/
import proofs.«102304_j24240795419222_2_alg».proof.Proof.FlashStep
import proofs.«102304_j24240795419222_2_alg».proof.Proof.Idx1
import proofs.«102304_j24240795419222_2_alg».proof.Proof.FlashRow
import proofs.«102304_j24240795419222_2_alg».proof.Proof.ValQKV
import proofs.«102304_j24240795419222_2_alg».proof.Proof.Val1Blocks

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.Pay

variable (m : (ℓ : Loc nD τ sig) → Buf (Elt Ideal) ℓ) (c : Dev nD)

/-! ## The blocks a point finds, and the point's coordinates -/

/-- The query block of point t. -/
abbrev blkQ1 (t : Fin cfg1.N) : Vec Ideal S1x512x1024 .bf16 :=
  ((cfg1.win 0).blk t).view.read (Elt Ideal) (V3 (F := Ideal) m c (Pipeline.arrRef spec1 0))
/-- The key block of point t. -/
abbrev blkK1 (t : Fin cfg1.N) : Vec Ideal S1x512x1024 .bf16 :=
  ((cfg1.win 1).blk t).view.read (Elt Ideal) (V3 (F := Ideal) m c (Pipeline.arrRef spec1 1))
/-- The value block of point t. -/
abbrev blkV1 (t : Fin cfg1.N) : Vec Ideal S1x512x1024 .bf16 :=
  ((cfg1.win 2).blk t).view.read (Elt Ideal) (V3 (F := Ideal) m c (Pipeline.arrRef spec1 2))

/-- The query position of local row r at point t. -/
abbrev qposOf (t : Fin cfg1.N) (r : Fin 512) : Fin 2048 := ⟨512 * (t.val / 4 % 4) + r.val, by omega⟩

/-- The scaled scores of query (b, i) against every key. -/
abbrev scoreRow (b : Fin 4) (i : Fin 2048) : Fin 2048 → EReal :=
  Cert.Attn.score (Cert.Attn.proj (Xf m c) (Wqf m c)) (Cert.Attn.proj (Xf m c) (Wkf m c)) b i
/-- Column e of the values of batch b. -/
abbrev valCol (b : Fin 4) (e : Fin 1024) : Fin 2048 → EReal := fun j => Cert.Attn.proj (Xf m c) (Wvf m c) b j e

/-! ## The carried state, point by point -/

/-- The carried state after the body at position n: the body's state function at the point's blocks, from the state
    after position n - 1 (at position 0 from the reset values: the first point resets anyway). -/
def stSeq : (n : ℕ) → n < cfg1.N → St Ideal
  | 0, hn => st3 (grid1.coords ⟨0, hn⟩) (blkQ1 m c ⟨0, hn⟩) (blkK1 m c ⟨0, hn⟩) (blkV1 m c ⟨0, hn⟩)
      (k1_pay1 (F := Ideal), k1_pay2 (F := Ideal), k1_pay3 (F := Ideal))
  | n + 1, hn => st3 (grid1.coords ⟨n + 1, hn⟩) (blkQ1 m c ⟨n + 1, hn⟩) (blkK1 m c ⟨n + 1, hn⟩) (blkV1 m c ⟨n + 1, hn⟩)
      (stSeq n (Nat.lt_of_succ_lt hn))

theorem stSeq_zero (hn : 0 < cfg1.N) :
    stSeq m c 0 hn = st3 (grid1.coords ⟨0, hn⟩) (blkQ1 m c ⟨0, hn⟩) (blkK1 m c ⟨0, hn⟩) (blkV1 m c ⟨0, hn⟩)
      (k1_pay1 (F := Ideal), k1_pay2 (F := Ideal), k1_pay3 (F := Ideal)) := rfl
theorem stSeq_succ (n : ℕ) (hn : n + 1 < cfg1.N) :
    stSeq m c (n + 1) hn = st3 (grid1.coords ⟨n + 1, hn⟩) (blkQ1 m c ⟨n + 1, hn⟩) (blkK1 m c ⟨n + 1, hn⟩) (blkV1 m c ⟨n + 1, hn⟩)
      (stSeq m c n (Nat.lt_of_succ_lt hn)) := rfl

/-- Past position 0 the state after point t is the body's state function of the state after t - 1. -/
theorem stSeq_pos (t : Fin cfg1.N) (hpos : 0 < t.val) :
    stSeq m c t.val t.isLt = st3 (grid1.coords t) (blkQ1 m c t) (blkK1 m c t) (blkV1 m c t)
      (stSeq m c (t.val - 1) (Nat.lt_of_le_of_lt (Nat.sub_le _ _) t.isLt)) := by
  obtain ⟨n, hn⟩ := t
  cases n with
  | zero => exact absurd hpos (Nat.lt_irrefl 0)
  | succ n => rfl

/-! ## The same recursion as the region's carried state -/

/-- The recursion is the region's carried state at the contents the attention launch is entered with. -/
theorem stSeq_eq_stAt1 : ∀ (n : ℕ) (hn : n < cfg1.N), stSeq m c n hn = stAt1 (V3 (F := Ideal) m) c n hn
  | 0, hn => rfl
  | n + 1, hn => by
    rw [stSeq_succ, stAt1_succ, stSeq_eq_stAt1 n (Nat.lt_of_succ_lt hn)]
    rfl

section Invariant

/-- One point: if the state found is the run over the key tiles before kv, the state left is the run up to kv. -/
theorem point_row (t : Fin cfg1.N) (s : St Ideal) (r : Fin 512) (e : Fin 1024)
    (hprev : 0 < t.val % 4 → (s.1 (ix2 r 0), s.2.1 (ix2 r 0), s.2.2 (ix2 r e))
        = Cert.Attn.flashRun (scoreRow m c (bOf t) (qposOf t r)) (valCol m c (bOf t) e) (qiOf t) r
            (min (t.val % 4 - 1) (t.val / 4 % 4) + 1) (by omega)) :
    ((st3 (grid1.coords t) (blkQ1 m c t) (blkK1 m c t) (blkV1 m c t) s).1 (ix2 r 0),
      (st3 (grid1.coords t) (blkQ1 m c t) (blkK1 m c t) (blkV1 m c t) s).2.1 (ix2 r 0),
      (st3 (grid1.coords t) (blkQ1 m c t) (blkK1 m c t) (blkV1 m c t) s).2.2 (ix2 r e))
      = Cert.Attn.flashRun (scoreRow m c (bOf t) (qposOf t r)) (valCol m c (bOf t) e) (qiOf t) r
          (min (t.val % 4) (t.val / 4 % 4) + 1) (by omega) :=
  st3_flashRun (grid1.coords t) (blkQ1 m c t) (blkK1 m c t) (blkV1 m c t) s r e
    (scoreRow m c (bOf t) (qposOf t r)) (valCol m c (bOf t) e) (qiOf t) (kvOf t)
    (coords1 t).2.1 (coords1 t).2.2
    (fun hle cc => score_tile m c t r cc hle) (fun hle cc => value_tile m c t cc e hle) hprev

/-- The invariant: after point t, row r of the carried state (numerator at column e) is the specification's run of query
    position 512 · qi + r over the key tiles 0 .. min kv qi. -/
theorem stSeq_row_nat : ∀ (n : ℕ) (hn : n < cfg1.N) (r : Fin 512) (e : Fin 1024),
    ((stSeq m c n hn).1 (ix2 r 0), (stSeq m c n hn).2.1 (ix2 r 0), (stSeq m c n hn).2.2 (ix2 r e))
      = Cert.Attn.flashRun (scoreRow m c (bOf ⟨n, hn⟩) (qposOf ⟨n, hn⟩ r)) (valCol m c (bOf ⟨n, hn⟩) e) (qiOf ⟨n, hn⟩) r
          (min (n % 4) (n / 4 % 4) + 1) (by omega) := by
  intro n
  induction n with
  | zero =>
    intro hn r e
    rw [stSeq_zero]
    exact point_row m c ⟨0, hn⟩ _ r e (fun h => absurd (show 0 < 0 from h) (Nat.lt_irrefl 0))
  | succ k ih =>
    intro hn r e
    rw [stSeq_succ]
    refine point_row m c ⟨k + 1, hn⟩ _ r e (fun hpos => ?_)
    have h64 : k + 1 < 64 := lt_of_lt_of_eq hn N_1
    have hpos' : 0 < (k + 1) % 4 := hpos
    have e16 : k / 16 = (k + 1) / 16 := by omega
    have e4 : k / 4 % 4 = (k + 1) / 4 % 4 := by omega
    have ek : k % 4 = (k + 1) % 4 - 1 := by omega
    have hb : bOf (⟨k, Nat.lt_of_succ_lt hn⟩ : Fin cfg1.N) = bOf ⟨k + 1, hn⟩ := Fin.ext e16
    have hq : qiOf (⟨k, Nat.lt_of_succ_lt hn⟩ : Fin cfg1.N) = qiOf ⟨k + 1, hn⟩ := Fin.ext e4
    have hp : qposOf (⟨k, Nat.lt_of_succ_lt hn⟩ : Fin cfg1.N) r = qposOf ⟨k + 1, hn⟩ r :=
      Fin.ext (by show 512 * (k / 4 % 4) + r.val = 512 * ((k + 1) / 4 % 4) + r.val; rw [e4])
    have h := ih (Nat.lt_of_succ_lt hn) r e
    rw [hb, hq, hp] at h
    exact h.trans (flashRun_congr _ _ _ r (by show min (k % 4) (k / 4 % 4) + 1 = min ((k + 1) % 4 - 1) ((k + 1) / 4 % 4) + 1; rw [ek, e4]) _ _)

/-- The invariant at a point. -/
theorem stSeq_row (t : Fin cfg1.N) (r : Fin 512) (e : Fin 1024) :
    ((stSeq m c t.val t.isLt).1 (ix2 r 0), (stSeq m c t.val t.isLt).2.1 (ix2 r 0), (stSeq m c t.val t.isLt).2.2 (ix2 r e))
      = Cert.Attn.flashRun (scoreRow m c (bOf t) (qposOf t r)) (valCol m c (bOf t) e) (qiOf t) r
          (min (t.val % 4) (t.val / 4 % 4) + 1) (by omega) :=
  stSeq_row_nat m c t.val t.isLt r e

/-- The invariant over the region's carried state. -/
theorem stAt1_row (t : Fin cfg1.N) (r : Fin 512) (e : Fin 1024) :
    ((stAt1 (V3 (F := Ideal) m) c t.val t.isLt).1 (ix2 r 0), (stAt1 (V3 (F := Ideal) m) c t.val t.isLt).2.1 (ix2 r 0),
      (stAt1 (V3 (F := Ideal) m) c t.val t.isLt).2.2 (ix2 r e))
      = Cert.Attn.flashRun (scoreRow m c (bOf t) (qposOf t r)) (valCol m c (bOf t) e) (qiOf t) r
          (min (t.val % 4) (t.val / 4 % 4) + 1) (by omega) := by
  rw [← stSeq_eq_stAt1]
  exact stSeq_row m c t r e

/-- At the last key tile, numerator / denominator of the carried state is, for real inputs, causal attention at
    (b, 512 · qi + r, e). -/
theorem quot_row (t : Fin cfg1.N) (h3 : t.val % 4 = 3) (r : Fin 512) (e : Fin 1024)
    (hX : ∀ b t d, ∃ x : ℝ, Xf m c b t d = (x : EReal))
    (hWq : ∀ d e, ∃ w : ℝ, Wqf m c d e = (w : EReal)) (hWk : ∀ d e, ∃ w : ℝ, Wkf m c d e = (w : EReal))
    (hWv : ∀ d e, ∃ w : ℝ, Wvf m c d e = (w : EReal)) :
    Ideal.div ((stSeq m c t.val t.isLt).2.2 (ix2 r e)) ((stSeq m c t.val t.isLt).2.1 (ix2 r 0))
      = Cert.Attn.attn (Xf m c) (Wqf m c) (Wkf m c) (Wvf m c) (bOf t) (qposOf t r) e := by
  have h := stSeq_row m c t r e
  have h1 : (stSeq m c t.val t.isLt).2.1 (ix2 r 0) = _ := congrArg (fun z => z.2.1) h
  have h2 : (stSeq m c t.val t.isLt).2.2 (ix2 r e) = _ := congrArg (fun z => z.2.2) h
  rw [h1, h2]
  have hn : min (t.val % 4) (t.val / 4 % 4) + 1 = (qiOf t).val + 1 := by
    show min (t.val % 4) (t.val / 4 % 4) + 1 = t.val / 4 % 4 + 1
    omega
  rw [flashRun_congr _ _ _ r hn _ (by have := (qiOf t).isLt; omega)]
  exact Cert.Attn.flash_attn (Xf m c) (Wqf m c) (Wkf m c) (Wvf m c) hX hWq hWk hWv (bOf t) (qiOf t) r e

/-- The same over the region's carried state, in the form the output block is written: the quotient payload at
    (0, r, e). -/
theorem out_stAt1 (t : Fin cfg1.N) (h3 : t.val % 4 = 3) (r : Fin 512) (e : Fin 1024)
    (hX : ∀ b t d, ∃ x : ℝ, Xf m c b t d = (x : EReal))
    (hWq : ∀ d e, ∃ w : ℝ, Wqf m c d e = (w : EReal)) (hWk : ∀ d e, ∃ w : ℝ, Wkf m c d e = (w : EReal))
    (hWv : ∀ d e, ∃ w : ℝ, Wvf m c d e = (w : EReal)) :
    k1_pay8 (stAt1 (V3 (F := Ideal) m) c t.val t.isLt).2.2 (stAt1 (V3 (F := Ideal) m) c t.val t.isLt).2.1 (ix3 0 r e)
      = Cert.Attn.attn (Xf m c) (Wqf m c) (Wkf m c) (Wvf m c) (bOf t) (qposOf t r) e := by
  rw [← stSeq_eq_stAt1, k1_pay8_apply]
  exact quot_row m c t h3 r e hX hWq hWk hWv

/-- At the last key tile the output block's entry (0, r, e) is, for real inputs, causal attention at
    (b, 512 · qi + r, e). -/
theorem out_row (t : Fin cfg1.N) (h3 : t.val % 4 = 3) (o0 : Vec Ideal S1x512x1024 .f32) (r : Fin 512) (e : Fin 1024)
    (hX : ∀ b t d, ∃ x : ℝ, Xf m c b t d = (x : EReal))
    (hWq : ∀ d e, ∃ w : ℝ, Wqf m c d e = (w : EReal)) (hWk : ∀ d e, ∃ w : ℝ, Wkf m c d e = (w : EReal))
    (hWv : ∀ d e, ∃ w : ℝ, Wvf m c d e = (w : EReal)) :
    outAfter (grid1.coords t) (blkQ1 m c t) (blkK1 m c t) (blkV1 m c t)
        (stSeq m c (t.val - 1) (Nat.lt_of_le_of_lt (Nat.sub_le _ _) t.isLt)) o0 (ix3 0 r e)
      = Cert.Attn.attn (Xf m c) (Wqf m c) (Wkf m c) (Wvf m c) (bOf t) (qposOf t r) e := by
  rw [outAfter_last _ _ _ _ _ _ ((coords1 t).2.2.trans h3), ← stSeq_pos m c t (by omega)]
  exact quot_row m c t h3 r e hX hWq hWk hWv

end Invariant

end Cert.KernelIdeal.Hand

end
-- ==== Proof.Val1.lean ====
/-
  The attention launch, read as values over the extended reals: after it, its output array holds
  causal attention of the four arguments, entry by entry. The output's block (b, qi) is written back
  once, after the last key tile of query tile qi; local row r of that block is row 512 · qi + r of
  batch b, and the blocks written back tile the array.
-/
import proofs.«102304_j24240795419222_2_alg».proof.Proof.Run
import proofs.«102304_j24240795419222_2_alg».proof.Proof.Region1
import proofs.«102304_j24240795419222_2_alg».proof.Proof.ValQKV
import proofs.«102304_j24240795419222_2_alg».proof.Proof.Idx1
import proofs.«102304_j24240795419222_2_alg».proof.Proof.Finite
import proofs.«102304_j24240795419222_2_alg».proof.Proof.Val1Inv
import proofs.«102304_j24240795419222_2_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- Causal attention of the four arguments, as one array. -/
def attnArr (c : Dev nD) : S4x2048x1024.Idx → EReal := fun i =>
  Cert.Attn.attn (Xf m c) (Wqf m c) (Wkf m c) (Wvf m c) (i 0) (i 1) (i 2)

/-- Row by row: after the last key tile of a query tile, local row r of the quotient numerator / denominator
    of the carried state is row 512 · qi + r of causal attention in batch b. -/
def RowHyp (c : Dev nD) : Prop :=
  ∀ (t : Fin cfg1.N) (h3 : t.val % 4 = 3) (r : Fin 512) (e : Fin 1024),
    k1_pay8 (stAt1 (V3 (F := Ideal) m) c t.val t.isLt).2.2 (stAt1 (V3 (F := Ideal) m) c t.val t.isLt).2.1 (ix3 (0 : Fin 1) r e)
      = Cert.Attn.attn (Xf m c) (Wqf m c) (Wkf m c) (Wvf m c) ⟨t.val / 16, by have := t1_lt t; omega⟩
          ⟨512 * (t.val / 4 % 4) + r.val, by have := r.isLt; omega⟩ e

/-- The same at any index of the block: its leading coordinate is 0. -/
theorem row_at (c : Dev nD) (hrow : RowHyp m c) (t : Fin cfg1.N) (h3 : t.val % 4 = 3) (y : S1x512x1024.Idx) :
    k1_pay8 (stAt1 (V3 (F := Ideal) m) c t.val t.isLt).2.2 (stAt1 (V3 (F := Ideal) m) c t.val t.isLt).2.1 y
      = Cert.Attn.attn (Xf m c) (Wqf m c) (Wkf m c) (Wvf m c) ⟨t.val / 16, by have := t1_lt t; omega⟩
          ⟨512 * (t.val / 4 % 4) + (y 1).val, by have h1 : (y 1).val < 512 := (y 1).isLt; omega⟩ ⟨(y 2).val, (y 2).isLt⟩ := by
  have hy : y = ix3 (0 : Fin 1) (y 1) (y 2) := by
    funext a
    match a with
    | ⟨0, _⟩ =>
      apply Fin.ext
      have h0 : (y 0).val < 1 := (y 0).isLt
      show (y 0).val = 0
      omega
    | ⟨1, _⟩ => rfl
    | ⟨2, _⟩ => rfl
  refine (congrArg (k1_pay8 (stAt1 (V3 (F := Ideal) m) c t.val t.isLt).2.2 (stAt1 (V3 (F := Ideal) m) c t.val t.isLt).2.1) hy).trans ?_
  exact hrow t h3 (y 1) (y 2)

/-- What a point that writes the output back writes is its block of causal attention. -/
theorem flushed1_3_eq (c : Dev nD) (hrow : RowHyp m c) (t : Fin cfg1.N) (hf : (cfg1.win 3).flush t = true) :
    (dat1 (V3 (F := Ideal) m) c).flushed 3 t = ((cfg1.win 3).blk t).view.read (Elt Ideal) (attnArr m c) := by
  show (cfg1.win 3).cut (grid1.coords t) ((dat1 (V3 (F := Ideal) m) c).after 3 t) = _
  have h3 : t.val % 4 = 3 := (flush1_3 t).1 hf
  rw [after1_3_last' _ c t h3]
  funext y
  refine (row_at m c hrow t h3 y).trans ?_
  show _ = attnArr m c (((cfg1.win 3).blk t).view.emb y)
  rw [emb1_3 t y]
  rfl

/-- After the attention launch its output array holds causal attention, given the rows. -/
theorem final1_3_of (c : Dev nD) (hrow : RowHyp m c) : (dat1 (V3 (F := Ideal) m) c).arrAt 3 cfg1.N = attnArr m c :=
  (dat1 (V3 (F := Ideal) m) c).arrAt_eq_of_cover 3 (attnArr m c) (fun t hf => flushed1_3_eq m c hrow t hf) cover1_3

/-! ## The arguments are real-valued under the precondition -/

theorem real_X (h : Cert.Pre_KernelIdeal m) (c : Dev nD) : ∀ b t d, ∃ x : ℝ, Xf m c b t d = (x : EReal) :=
  fun b t d => (Cert.Finite.finite_args m h c).1 (ix3 b t d)
theorem real_Wq (h : Cert.Pre_KernelIdeal m) (c : Dev nD) : ∀ d e, ∃ w : ℝ, Wqf m c d e = (w : EReal) :=
  fun d e => (Cert.Finite.finite_args m h c).2.1 (ix2 d e)
theorem real_Wk (h : Cert.Pre_KernelIdeal m) (c : Dev nD) : ∀ d e, ∃ w : ℝ, Wkf m c d e = (w : EReal) :=
  fun d e => (Cert.Finite.finite_args m h c).2.2.1 (ix2 d e)
theorem real_Wv (h : Cert.Pre_KernelIdeal m) (c : Dev nD) : ∀ d e, ∃ w : ℝ, Wvf m c d e = (w : EReal) :=
  fun d e => (Cert.Finite.finite_args m h c).2.2.2 (ix2 d e)

/-! ## The output array under the precondition -/

/-- The rows, from the running softmax's invariant and the arguments' real-valuedness. -/
theorem rowHyp (h : Cert.Pre_KernelIdeal m) (c : Dev nD) : RowHyp m c :=
  fun t h3 r e => out_stAt1 m c t h3 r e (real_X m h c) (real_Wq m h c) (real_Wk m h c) (real_Wv m h c)

/-- After the attention launch its output array holds causal attention of the four arguments. -/
theorem final1_3 (h : Cert.Pre_KernelIdeal m) (c : Dev nD) : (dat1 (V3 (F := Ideal) m) c).arrAt 3 cfg1.N = attnArr m c :=
  final1_3_of m c (rowHyp m h c)

end Cert.KernelIdeal.Hand

end
-- ==== Proof.RefAttn.lean ====
/-
  The reference, read at an index, is causal attention.

  The reference computes q, k, v = X·Wq, X·Wk, X·Wv (sums over the 1024 input features); the scores
  q·kᵀ over the feature axis; keeps a score where the key position j is at most the query position i and
  puts minus infinity elsewhere; divides by sqrt 1024 = 32, which on the extended reals is the product
  with 1/32 and leaves minus infinity where it is; takes the row maximum M (a fold of max from minus
  infinity, the supremum of the row); and returns Σ_j (exp (L_j − M) / Σ_j' exp (L_j' − M)) · v_j.
  Each stage is read at literal coordinates (b, i, j) and the last is the specification's row formula.
  No finiteness is used: every step is a definitional reading or an identity of the extended reals
  (0 + s = s, max ⊥ y = y, ⊥ · (1/32) = ⊥).
-/
import proofs.«102304_j24240795419222_2_alg».proof.Proof.Gen.ReferenceIdeal.Read
import proofs.«102304_j24240795419222_2_alg».proof.Proof.Spec
import Idealize.ShloMosaic.Lib.ValueIdx
import Idealize.ShloMosaic.Lib.IdealHost
import Idealize.ShloMosaic.Lib.Affine
import Idealize.ShloMosaic.Lib.WordArith

open scoped BigOperators
open Idealize.ShloMosaic Idealize.ShloMosaic.ValueIdx
open Cert.ReferenceIdeal Cert.ReferenceIdeal.Gen Cert.ReferenceIdeal.Read

noncomputable section

namespace Cert.RefAttn

/-- The word 0xFF800000 is minus infinity. -/
theorem ofBits_neg_inf : Ideal.ofBits .f32 0xFF800000#32 = (⊥ : EReal) := by simp [Ideal.ofBits, Ideal.ieee]

/-- The word 0x44800000 is 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-- The causal bit: row i against column j. -/
theorem tril_bit (i j : Fin 2048) :
    IntOp.cmpi .sge (IntOp.addi (BitVec.ofNat 32 i.val) 0#32) (BitVec.ofNat 32 j.val)
      = if j.val ≤ i.val then 1#1 else 0#1 := by
  have hi := WordArith.toInt_ofNat_small i.val (by have := i.isLt; omega)
  have hj := WordArith.toInt_ofNat_small j.val (by have := j.isLt; omega)
  have h0 : IntOp.addi (BitVec.ofNat 32 i.val) 0#32 = BitVec.ofNat 32 i.val := by
    unfold IntOp.addi; simp
  rw [h0]
  by_cases h : j.val ≤ i.val
  · rw [if_pos h]
    exact IntOp.cmpi_sge.mpr (by rw [hi, hj]; exact_mod_cast h)
  · rw [if_neg h]
    refine eq_zero_of_ne_one fun e => h ?_
    have := IntOp.cmpi_sge.mp e
    rw [hi, hj] at this
    exact_mod_cast this

/-- A fold of max from minus infinity is the supremum. -/
theorem fold_max_eq_sup {ι : Type} (f : ι → EReal) (s : Finset ι) : Finset.fold max (⊥ : EReal) f s = s.sup f := by
  classical
  induction s using Finset.induction_on with
  | empty => simp
  | insert a s ha ih => rw [Finset.fold_insert ha, Finset.sup_insert, ih]

/-! ## The argument arrays by literal coordinates -/

/-- A rank-3 array as a function of its three coordinates. -/
abbrev arr3 (x : (⟨S4x2048x1024, .f32⟩ : BufTy).Contents (Elt Ideal)) : Fin 4 → Fin 2048 → Fin 1024 → EReal :=
  fun b t d => x (ix3 b t d)
/-- A weight matrix as a function of its two coordinates. -/
abbrev arr2 (w : (⟨S1024x1024, .f32⟩ : BufTy).Contents (Elt Ideal)) : Fin 1024 → Fin 1024 → EReal :=
  fun d e => w (ix2 d e)

section
variable (x : (⟨S4x2048x1024, .f32⟩ : BufTy).Contents (Elt Ideal)) (wq wk wv : (⟨S1024x1024, .f32⟩ : BufTy).Contents (Elt Ideal))

/-! ## The three projections -/

theorem lidx_v0 (b : Fin 4) (t : Fin 2048) (e k : Fin 1024) : lidx_main_v0 (ix3 b t e) k = ix3 b t k :=
  funext fun a => Fin.ext (by match a with | ⟨0, _⟩ => rfl | ⟨1, _⟩ => rfl | ⟨2, _⟩ => rfl)
theorem ridx_v0 (b : Fin 4) (t : Fin 2048) (e k : Fin 1024) : ridx_main_v0 (ix3 b t e) k = ix2 k e :=
  funext fun a => Fin.ext (by match a with | ⟨0, _⟩ => rfl | ⟨1, _⟩ => rfl)

/-- The first projection at (b, t, e) is the sum over the input features. -/
theorem v0_apply (w : (⟨S1024x1024, .f32⟩ : BufTy).Contents (Elt Ideal)) (b : Fin 4) (t : Fin 2048) (e : Fin 1024) :
    val_main_v0 (F := Ideal) x w (ix3 b t e) = Cert.Attn.proj (arr3 x) (arr2 w) b t e := by
  rw [val_main_v0_apply]
  refine Finset.sum_congr rfl fun k _ => ?_
  rw [lidx_v0, ridx_v0]
theorem v1_apply (w : (⟨S1024x1024, .f32⟩ : BufTy).Contents (Elt Ideal)) (b : Fin 4) (t : Fin 2048) (e : Fin 1024) :
    val_main_v1 (F := Ideal) x w (ix3 b t e) = Cert.Attn.proj (arr3 x) (arr2 w) b t e := v0_apply x w b t e
theorem v2_apply (w : (⟨S1024x1024, .f32⟩ : BufTy).Contents (Elt Ideal)) (b : Fin 4) (t : Fin 2048) (e : Fin 1024) :
    val_main_v2 (F := Ideal) x w (ix3 b t e) = Cert.Attn.proj (arr3 x) (arr2 w) b t e := v0_apply x w b t e

/-! ## The scores -/

theorem lidx_v3 (b : Fin 4) (i j : Fin 2048) (k : Fin 1024) : lidx_main_v3 (ix3 b i j) k = ix3 b i k :=
  funext fun a => Fin.ext (by match a with | ⟨0, _⟩ => rfl | ⟨1, _⟩ => rfl | ⟨2, _⟩ => rfl)
theorem ridx_v3 (b : Fin 4) (i j : Fin 2048) (k : Fin 1024) : ridx_main_v3 (ix3 b i j) k = ix3 b j k :=
  funext fun a => Fin.ext (by match a with | ⟨0, _⟩ => rfl | ⟨1, _⟩ => rfl | ⟨2, _⟩ => rfl)

/-- The unscaled score of query i against key j. -/
theorem v3_apply (b : Fin 4) (i j : Fin 2048) :
    val_main_v3 (F := Ideal) x wq wk (ix3 b i j)
      = ∑ e : Fin 1024, Cert.Attn.proj (arr3 x) (arr2 wq) b i e * Cert.Attn.proj (arr3 x) (arr2 wk) b j e := by
  rw [val_main_v3_apply]
  refine Finset.sum_congr rfl fun k _ => ?_
  rw [lidx_v3, ridx_v3, v0_apply, v1_apply]

/-- The lower-triangular mask at (b, i, j): 1 exactly for j ≤ i. -/
theorem mask_apply (b : Fin 4) (i j : Fin 2048) :
    val_main_call1_v1 (F := Ideal) (ix3 b i j) = if j.val ≤ i.val then 1#1 else 0#1 := by
  rw [val_main_call1_v1_apply, val_main_v5_apply, val_main_call0_v4_apply, val_main_call0_v2_apply,
    val_main_call0_v0_apply, val_main_call0_v1_apply, val_main_call0_c_apply, val_main_call0_v3_apply,
    val_main_v4_apply, val_main_c_apply, val_main_call0_v5_apply, val_main_call0_c_0_apply]
  show Scalar.select (IntOp.cmpi .sge (IntOp.addi (BitVec.ofNat 32 i.val) 0#32) (BitVec.ofNat 32 j.val)) 1#1 0#1 = _
  rw [tril_bit]
  by_cases h : j.val ≤ i.val
  · rw [if_pos h]; exact select_one _ _
  · rw [if_neg h]; exact select_zero _ _

/-- The masked, scaled score: the specification's causal row. -/
theorem v9_apply (b : Fin 4) (i j : Fin 2048) :
    val_main_v9 (F := Ideal) x wq wk (ix3 b i j)
      = Cert.Attn.causal (Cert.Attn.score (Cert.Attn.proj (arr3 x) (arr2 wq)) (Cert.Attn.proj (arr3 x) (arr2 wk)) b i) i j := by
  rw [val_main_v9_apply, val_main_v6_apply, mask_apply, v3_apply, val_main_call1_v2_apply, val_main_call1_v0_apply,
    val_main_cst_apply, val_main_v8_apply, val_main_v7_apply, val_main_cst_0_apply, Ideal.hostDivf_def,
    Ideal.hostUnary_sqrt_def, Ideal.ofBits_def, Ideal.ofBits_def, ofBits_neg_inf, ofBits_1024, sqrt_1024,
    Ideal.div_coe (by norm_num : (32 : ℝ) ≠ 0)]
  unfold Cert.Attn.causal Cert.Attn.score
  by_cases h : j.val ≤ i.val
  · rw [if_pos h, if_pos h, select_one]
  · rw [if_neg h, if_neg h, select_zero]
    exact EReal.bot_mul_coe_of_pos (by norm_num)

end

section
variable (x : (⟨S4x2048x1024, .f32⟩ : BufTy).Contents (Elt Ideal)) (wq wk wv : (⟨S1024x1024, .f32⟩ : BufTy).Contents (Elt Ideal))

/-- The causal row of scaled scores of query (b, i). -/
abbrev row (b : Fin 4) (i : Fin 2048) : Fin 2048 → EReal :=
  Cert.Attn.causal (Cert.Attn.score (Cert.Attn.proj (arr3 x) (arr2 wq)) (Cert.Attn.proj (arr3 x) (arr2 wk)) b i) i

/-! ## The row maximum -/

/-- Row (b, i) with column k put back on the reduced axis is (b, i, k). -/
theorem lift_ix (h : S4x2048x2048.Reduces [2] S4x2048) (b : Fin 4) (i : Fin 2048) (k : Fin (S4x2048x2048.size 2)) :
    h.lift (ix2 b i) k = ix3 b i (⟨k.val, k.isLt⟩ : Fin 2048) := by
  funext c; apply Fin.ext
  match c with
  | ⟨0, _⟩ => rfl
  | ⟨1, _⟩ => rfl
  | ⟨2, _⟩ => rfl

/-- The max-reduce from minus infinity along the key axis is the supremum of the row. -/
theorem v10_apply (b : Fin 4) (i : Fin 2048) :
    val_main_v10 (F := Ideal) x wq wk (ix2 b i) = Finset.univ.sup (row x wq wk b i) := by
  unfold val_main_v10
  have h : S4x2048x2048.Reduces [2] S4x2048 := by decide
  rw [Host.reduce_eq_fold_single FloatOps.maximumf _ _ reducesTo_S4x2048x2048_S4x2048_d2 h h_S_]
  rw [← fold_max_eq_sup]
  show Finset.fold max (Ideal.ofBits .f32 0xFF800000#32)
      (fun k : Fin 2048 => val_main_v9 (F := Ideal) x wq wk (h.lift (ix2 b i) k)) Finset.univ = _
  rw [ofBits_neg_inf]
  congr 1
  funext k
  rw [lift_ix h b i k]
  exact v9_apply x wq wk b i k

theorem idx_v13_v14 (b : Fin 4) (i j : Fin 2048) : idx_main_v13 (idx_main_v14 (ix3 b i j)) = ix2 b i :=
  funext fun a => Fin.ext (by match a with | ⟨0, _⟩ => rfl | ⟨1, _⟩ => rfl)

/-- The broadcast row maximum at (b, i, j). -/
theorem v14_apply (b : Fin 4) (i j : Fin 2048) :
    val_main_v14 (F := Ideal) x wq wk (ix3 b i j) = Finset.univ.sup (row x wq wk b i) := by
  rw [val_main_v14_apply, val_main_v13_apply, idx_v13_v14, val_main_v12_apply, val_main_v11_apply,
    val_main_cst_2_apply, Ideal.ofBits_def, ofBits_neg_inf, Ideal.maximumf_def, v10_apply]
  exact max_eq_right bot_le

/-! ## The exponentials, their sum, the quotient -/

/-- The exponential of a score less the row maximum. -/
theorem v16_apply (b : Fin 4) (i j : Fin 2048) :
    val_main_v16 (F := Ideal) x wq wk (ix3 b i j)
      = Ideal.exp (row x wq wk b i j - Finset.univ.sup (row x wq wk b i)) := by
  rw [val_main_v16_apply, val_main_v15_apply, v9_apply, v14_apply, Ideal.hostUnary_exp_def, Ideal.subf_def]

theorem idx_v17 (b : Fin 4) (i k : Fin 2048) : idx_main_v17 (ix2 b i) k = ix3 b i k :=
  funext fun a => Fin.ext (by match a with | ⟨0, _⟩ => rfl | ⟨1, _⟩ => rfl | ⟨2, _⟩ => rfl)

/-- The row's sum of exponentials. -/
theorem v17_apply (b : Fin 4) (i : Fin 2048) :
    val_main_v17 (F := Ideal) x wq wk (ix2 b i)
      = ∑ k : Fin 2048, Ideal.exp (row x wq wk b i k - Finset.univ.sup (row x wq wk b i)) := by
  rw [val_main_v17_apply, val_main_cst_3_apply, Ideal.ofBits_def, Ideal.ofBits_zero_f32, zero_add]
  refine Finset.sum_congr rfl fun k _ => ?_
  rw [idx_v17, v16_apply]

theorem idx_v18_v19 (b : Fin 4) (i j : Fin 2048) : idx_main_v18 (idx_main_v19 (ix3 b i j)) = ix2 b i :=
  funext fun a => Fin.ext (by match a with | ⟨0, _⟩ => rfl | ⟨1, _⟩ => rfl)

/-- The softmax weight of key j for query (b, i). -/
theorem v20_apply (b : Fin 4) (i j : Fin 2048) :
    val_main_v20 (F := Ideal) x wq wk (ix3 b i j)
      = Ideal.div (Ideal.exp (row x wq wk b i j - Finset.univ.sup (row x wq wk b i)))
          (∑ k : Fin 2048, Ideal.exp (row x wq wk b i k - Finset.univ.sup (row x wq wk b i))) := by
  rw [val_main_v20_apply, v16_apply, val_main_v19_apply, val_main_v18_apply, idx_v18_v19, v17_apply, Ideal.hostDivf_def]

/-! ## The result -/

theorem lidx_v21 (b : Fin 4) (i : Fin 2048) (e : Fin 1024) (k : Fin 2048) : lidx_main_v21 (ix3 b i e) k = ix3 b i k :=
  funext fun a => Fin.ext (by match a with | ⟨0, _⟩ => rfl | ⟨1, _⟩ => rfl | ⟨2, _⟩ => rfl)
theorem ridx_v21 (b : Fin 4) (i : Fin 2048) (e : Fin 1024) (k : Fin 2048) : ridx_main_v21 (ix3 b i e) k = ix3 b k e :=
  funext fun a => Fin.ext (by match a with | ⟨0, _⟩ => rfl | ⟨1, _⟩ => rfl | ⟨2, _⟩ => rfl)

/-- The reference's result at (b, i, e) is causal attention there. -/
theorem v21_apply (b : Fin 4) (i : Fin 2048) (e : Fin 1024) :
    val_main_v21 (F := Ideal) x wq wk wv (ix3 b i e)
      = Cert.Attn.attn (arr3 x) (arr2 wq) (arr2 wk) (arr2 wv) b i e := by
  rw [val_main_v21_apply]
  unfold Cert.Attn.attn Cert.Attn.rowOut
  refine Finset.sum_congr rfl fun k _ => ?_
  rw [lidx_v21, ridx_v21, v20_apply, v2_apply]

end

/-- The reference run's result term is, index by index, the specification's causal attention of the four argument
    arrays. -/
theorem ref_eq (x : (⟨S4x2048x1024, .f32⟩ : BufTy).Contents (Elt Ideal))
    (wq wk wv : (⟨S1024x1024, .f32⟩ : BufTy).Contents (Elt Ideal)) :
    val_main_v21 (F := Ideal) x wq wk wv
      = fun i => Cert.Attn.attn (fun b t d => x (ValueIdx.ix3 b t d)) (fun d e => wq (ValueIdx.ix2 d e))
          (fun d e => wk (ValueIdx.ix2 d e)) (fun d e => wv (ValueIdx.ix2 d e)) (i 0) (i 1) (i 2) := by
  funext i
  obtain ⟨b, t, e, rfl⟩ : ∃ (b : Fin 4) (t : Fin 2048) (e : Fin 1024), i = ix3 b t e := ⟨i 0, i 1, i 2, eq_ix3 i⟩
  exact v21_apply x wq wk wv b t e

end Cert.RefAttn

end
-- ==== Proof.lean ====
/-
  Causal attention on projected queries, keys and values: a two-launch kernel against its plain
  reference, equal over the extended reals for finite inputs.

  The kernel projects the input by the three weight matrices laid side by side (launch 1, 16 row
  blocks), then, per batch and per block of 512 query positions, walks the key blocks up to the
  diagonal carrying a running maximum, denominator and numerator (launch 2, grid 4 x 4 x 4), masking
  the diagonal block below the diagonal, and writes numerator / denominator after the last key block.
  The reference masks the whole score matrix with minus infinity, divides by sqrt 1024, takes the
  softmax of each row and multiplies by the values.

  Both are, entry (b, i, e), the softmax-weighted sum over the keys j not after i of the values
  v (b, j, e), the score of (i, j) being the dot product of the projected rows times 1/32:
    * dividing by sqrt 1024 = 32 is multiplying by 1/32 on every extended real, and minus infinity
      stays minus infinity;
    * the kernel's mask fill is read as minus infinity (the named constant), so a masked entry
      contributes exp (-inf) = 0 on both sides;
    * the running computation rescales by exp (m - m') at each block, and
      exp (m - m') * exp (x - m) = exp (x - m') on the reals; after the first block every quantity
      is real, because the inputs are finite — this is where the precondition is used;
    * numerator / denominator = the sum of (weight / denominator) * value, over the reals.
  The three frames: each launch's body is run once symbolically per combination of its conditionals,
  and the program's run is the chain host operations, launch, host operations, launch.
-/
import proofs.«102304_j24240795419222_2_alg».proof.Defs
import proofs.«102304_j24240795419222_2_alg».proof.Proof.Gen.Kernel
import proofs.«102304_j24240795419222_2_alg».proof.Proof.Gen.KernelIdeal
import proofs.«102304_j24240795419222_2_alg».proof.Proof.Gen.ReferenceIdeal
import proofs.«102304_j24240795419222_2_alg».proof.Proof.Gen.ReferenceIdeal.Run
import proofs.«102304_j24240795419222_2_alg».proof.Proof.Gen.ReferenceIdeal.Read
import proofs.«102304_j24240795419222_2_alg».proof.Proof.Gen.Pre_finite_inputs
import proofs.«102304_j24240795419222_2_alg».proof.Proof.KRun
import proofs.«102304_j24240795419222_2_alg».proof.Proof.Run
import proofs.«102304_j24240795419222_2_alg».proof.Proof.Val1
import proofs.«102304_j24240795419222_2_alg».proof.Proof.RefAttn
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its arguments as launched. -/
theorem frame_k : Cert.frame_Kernel := fun m ρ _ => Cert.Kernel.Hand.frame (F := Bits) m ρ

/-- The same for the idealized kernel, read over the extended reals. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill is minus infinity over the extended reals. -/
theorem preserves : Cert.preserves_Kernel_KernelIdeal :=
  IdealRules.named_const.statement Cert.KernelIdeal.κ "neg_big" .f32 0xFF333332#32 ⊥ rfl

/-- Both programs end with the attention function of the arguments in their result arrays. -/
theorem algebraic : Cert.algebraic_KernelIdeal_ReferenceIdeal := by
  intro m ρ m' ρ' hpre hagree
  refine ⟨fun c => Cert.KernelIdeal.Hand.attnArr m c, ?_, ?_⟩
  · refine (θ_run Cert.KernelIdeal.defs _ _).mono (fun r h c => ⟨?_, ?_, ?_, ?_, ?_⟩) (Cert.KernelIdeal.Hand.run_all (F := Ideal) m ρ)
    · exact (h c _ (Cert.KernelIdeal.Hand.mem_uc Cert.KernelIdeal.main_v7 (by decide))).trans
        ((Cert.KernelIdeal.Hand.W4_result m c).trans (Cert.KernelIdeal.Hand.final1_3 m hpre c))
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
  · refine (θ_run Cert.ReferenceIdeal.defs _ _).mono (fun r h c => ⟨(h c).1.trans ?_, (h c).2⟩)
      (Cert.ReferenceIdeal.Value.run (F := Ideal) m' ρ')
    refine ((Cert.ReferenceIdeal.Read.val_main_v21_eq m' c).trans (Cert.RefAttn.ref_eq _ _ _ _)).trans ?_
    rw [(hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
